-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S64x1024 : Shape := ⟨2, ![64, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  main_v18

def fn {F : FTy → Type} [FloatOps F] (main_arg0 : FVec F S4x4096x1024 .f32) (main_arg1 : FVec F S64x1024 .f32) (main_arg2 : FVec F S64x1024 .f32) (main_arg3 : FVec F S64x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_v13 main_v16
-- ==== Kernel.lean ====
abbrev S4x4096x1024 : Shape := ⟨3, ![4, 4096, 1024]⟩
abbrev S64x1024 : Shape := ⟨2, ![64, 1024]⟩
abbrev S192x1024 : Shape := ⟨2, ![192, 1024]⟩
abbrev S4x4096x64 : Shape := ⟨3, ![4, 4096, 64]⟩
abbrev S4x64x4096 : Shape := ⟨3, ![4, 64, 4096]⟩
abbrev S1x2048x1024 : Shape := ⟨3, ![1, 2048, 1024]⟩
abbrev S1x2048x64 : Shape := ⟨3, ![1, 2048, 64]⟩
abbrev S1x64x2048 : Shape := ⟨3, ![1, 64, 2048]⟩
abbrev S2048x1024 : Shape := ⟨2, ![2048, 1024]⟩
abbrev S2048x192 : Shape := ⟨2, ![2048, 192]⟩
abbrev S2048x64 : Shape := ⟨2, ![2048, 64]⟩
abbrev S64x2048 : Shape := ⟨2, ![64, 2048]⟩
abbrev S1x1024x64 : Shape := ⟨3, ![1, 1024, 64]⟩
abbrev S1x64x4096 : Shape := ⟨3, ![1, 64, 4096]⟩
abbrev S1x4096x64 : Shape := ⟨3, ![1, 4096, 64]⟩
abbrev S1024x1 : Shape := ⟨2, ![1024, 1]⟩
abbrev S1024x64 : Shape := ⟨2, ![1024, 64]⟩
abbrev S1x64x1024 : Shape := ⟨3, ![1, 64, 1024]⟩
abbrev S1024x1024 : Shape := ⟨2, ![1024, 1024]⟩
abbrev S1024 : Shape := ⟨1, ![1024]⟩

abbrev nBuf : Space → Nat
  | .hbm => 9
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S192x1024, .f32⟩
  | .hbm, ⟨5, _⟩ => ⟨S4x4096x64, .bf16⟩
  | .hbm, ⟨6, _⟩ => ⟨S4x64x4096, .bf16⟩
  | .hbm, ⟨7, _⟩ => ⟨S4x4096x64, .bf16⟩
  | .hbm, ⟨8, _⟩ => ⟨S4x4096x64, .f32⟩
  | .local _ .vmem, ⟨0, _⟩ => ⟨S1x2048x1024, .f32⟩
  | .local _ .vmem, ⟨1, _⟩ => ⟨S1x2048x1024, .f32⟩
  | .local _ .vmem, ⟨2, _⟩ => ⟨S192x1024, .f32⟩
  | .local _ .vmem, ⟨3, _⟩ => ⟨S1x2048x64, .bf16⟩
  | .local _ .vmem, ⟨4, _⟩ => ⟨S1x2048x64, .bf16⟩
  | .local _ .vmem, ⟨5, _⟩ => ⟨S1x64x2048, .bf16⟩
  | .local _ .vmem, ⟨6, _⟩ => ⟨S1x64x2048, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x64x4096, .bf16⟩
  | .local _ .vmem, ⟨12, _⟩ => ⟨S1x64x4096, .bf16⟩
  | .local _ .vmem, ⟨13, _⟩ => ⟨S1x4096x64, .bf16⟩
  | .local _ .vmem, ⟨14, _⟩ => ⟨S1x4096x64, .bf16⟩
  | .local _ .vmem, ⟨15, _⟩ => ⟨S1x1024x64, .f32⟩
  | .local _ .vmem, ⟨16, _⟩ => ⟨S1x1024x64, .f32⟩
  | .local _ .vmem, ⟨17, _⟩ => ⟨S1024x1, .f32⟩
  | .local _ .vmem, ⟨18, _⟩ => ⟨S1024x1, .f32⟩
  | .local _ .vmem, ⟨19, _⟩ => ⟨S1024x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

@[reducible] def k1_t1_loop : Scf.Loop 32 :=
  let c0_i32 : BitVec 32 := 0#32
  let c4_i32 : BitVec 32 := 4#32
  let v14 : BitVec 32 := Scalar.addi c0_i32 c4_i32
  let c1_i32 : BitVec 32 := 1#32
  ⟨c0_i32, v14, c1_i32⟩
def k1_mult1 (k1_t1 : Fin k1_t1_loop.trips) : BitVec 32 :=
  let c0_i32_19 : BitVec 32 := 0#32
  let c0_i32 : BitVec 32 := 0#32
  let c1_i32 : BitVec 32 := 1#32
  let arg9 : BitVec 32 := Scf.iv c0_i32 c1_i32 k1_t1
  let c1_i32_18 : BitVec 32 := 1#32
  let v22 : BitVec 32 := Scalar.muli arg9 c1_i32_18
  let v23 : BitVec 32 := Scalar.addi c0_i32_19 v22
  let c1024_i32 : BitVec 32 := 1024#32
  let v24 : BitVec 32 := Scalar.muli v23 c1024_i32
  v24
def k1_off1 (k1_t1 : Fin k1_t1_loop.trips) : Fin 3 → Nat :=
  let c0_20 : Index := 0#32
  let c0_21 : Index := 0#32
  let c0_i32_19 : BitVec 32 := 0#32
  let c0_i32 : BitVec 32 := 0#32
  let c1_i32 : BitVec 32 := 1#32
  let arg9 : BitVec 32 := Scf.iv c0_i32 c1_i32 k1_t1
  let c1_i32_18 : BitVec 32 := 1#32
  let v22 : BitVec 32 := Scalar.muli arg9 c1_i32_18
  let v23 : BitVec 32 := Scalar.addi c0_i32_19 v22
  let c1024_i32 : BitVec 32 := 1024#32
  let v24 : BitVec 32 := Scalar.muli v23 c1024_i32
  let v25 : BitVec 32 := v24
  let v26 : Index := Scalar.indexCast v25
  ![0, 0, v26.toNat]
def k1_off2 (k1_t1 : Fin k1_t1_loop.trips) : Fin 3 → Nat :=
  let c0_22 : Index := 0#32
  let c0_i32_19 : BitVec 32 := 0#32
  let c0_i32 : BitVec 32 := 0#32
  let c1_i32 : BitVec 32 := 1#32
  let arg9 : BitVec 32 := Scf.iv c0_i32 c1_i32 k1_t1
  let c1_i32_18 : BitVec 32 := 1#32
  let v22 : BitVec 32 := Scalar.muli arg9 c1_i32_18
  let v23 : BitVec 32 := Scalar.addi c0_i32_19 v22
  let c1024_i32 : BitVec 32 := 1024#32
  let v24 : BitVec 32 := Scalar.muli v23 c1024_i32
  let v25 : BitVec 32 := v24
  let v29 : Index := Scalar.indexCast v25
  let c0_23 : Index := 0#32
  ![0, v29.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S64x1024_S64x1024_S64x1024_S192x1024_d0 : Shape.Concatenates [S64x1024, S64x1024, S64x1024] S192x1024 0
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S192x1024_S192x1024_0_0 : ∀ a, (![0, 0] : Fin 2 → Nat) a + S192x1024.size a ≤ S192x1024.size a
  h_S192x1024 : 0 < S192x1024.numel
  shapeCasts_S192x1024_S192x1024 : S192x1024.ShapeCasts S192x1024
  slices_S2048x192_o0_0_S2048x64 : S2048x192.Slices ![0, 0] S2048x64
  slices_S2048x192_o0_64_S2048x64 : S2048x192.Slices ![0, 64] S2048x64
  slices_S2048x192_o0_128_S2048x64 : S2048x192.Slices ![0, 128] S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  transposes_S2048x64_p1_0_S64x2048 : S2048x64.Transposes [1, 0] S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  packedbf16_S1x64x2048_S1x64x2048_0_0_0 : (Rect.unit (s := S1x64x2048) ![0, 0, 0] S1x64x2048.size inb_S1x64x2048_S1x64x2048_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  h_S1x64x1024 : 0 < S1x64x1024.numel
  shapeCasts_S1x64x1024_S64x1024 : S1x64x1024.ShapeCasts S64x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1024x64 : S1024x64.ShapeCasts S1x1024x64
  dot_S2048x1024_S192x1024_S2048x192_1_1_0_0_n_n_wf : DotDims.WF S2048x1024 S192x1024 S2048x192 [1] [1] [0] [0] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x4096x1024.size a
  hwx0_0 : ∀ i : grid0.Coords, EltTy.bits .f32 = 32 ∨ (Rect.block (s := S4x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x1024.size a ≤ S192x1024.size a
  hwx0_1 : ∀ i : grid0.Coords, EltTy.bits .f32 = 32 ∨ (Rect.block (s := S192x1024) S192x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S4x4096x64.size a
  hwx0_2 : ∀ i : grid0.Coords, EltTy.bits .bf16 = 32 ∨ (Rect.block (s := S4x4096x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x2048.size a ≤ S4x64x4096.size a
  hwx0_3 : ∀ i : grid0.Coords, EltTy.bits .bf16 = 32 ∨ (Rect.block (s := S4x64x4096) S1x64x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S4x4096x64.size a
  hwx0_4 : ∀ i : grid0.Coords, EltTy.bits .bf16 = 32 ∨ (Rect.block (s := S4x4096x64) S1x2048x64.size (cc0_transform_4 i) (hinb0_4 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1x64x1024.size a ≤ S1x64x4096.size a
  k1_off2_inb : ∀ k1_t1 : Fin k1_t1_loop.trips, ∀ a, (k1_off2 k1_t1) a + S1x1024x64.size a ≤ S1x4096x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x4096.size a ≤ S4x64x4096.size a
  hwx1_1 : ∀ i : grid1.Coords, EltTy.bits .bf16 = 32 ∨ (Rect.block (s := S4x64x4096) S1x64x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S4x4096x64.size a
  hwx1_2 : ∀ i : grid1.Coords, EltTy.bits .bf16 = 32 ∨ (Rect.block (s := S4x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x4096x64.size a
  hwx1_3 : ∀ i : grid1.Coords, EltTy.bits .f32 = 32 ∨ (Rect.block (s := S4x4096x64) S1x1024x64.size (cc1_transform_3 i) (hinb1_3 i)).WholeWords (EltTy.packing .f32)

variable [Facts₀]

def dot_S2048x1024_S192x1024_S2048x192_1_1_0_0_n_n : DotDims S2048x1024 S192x1024 S2048x192 where
  lhsContracting := [1]
  rhsContracting := [1]
  lhsNonContracting := [0]
  rhsNonContracting := [0]
  lhsBatch := []
  rhsBatch := []
  wf := dot_S2048x1024_S192x1024_S2048x192_1_1_0_0_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x2048x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x64x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1x64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S64x1024 : Shape := ⟨2, ![64, 1024]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S64x1024_S4x4096x64_2_1_01_0_n_n_wf : DotDims.WF S4x4096x1024 S64x1024 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S64x1024_S4x4096x64_2_1_01_0_n_n : DotDims S4x4096x1024 S64x1024 S4x4096x64 where
  lhsContracting := [2]
  rhsContracting := [1]
  lhsNonContracting := [0, 1]
  rhsNonContracting := [0]
  lhsBatch := []
  rhsBatch := []
  wf := dot_S4x4096x1024_S64x1024_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.ProjRegionBits.lean ====
/-
  The projection region: one grid point reads a block of 2048 rows of x and the whole stacked weight matrix
  (the three 64-row weight matrices one above the other), forms the 2048 × 192 product of the rows of the block
  against the rows of the weights, and stores its three column groups of 64 — the first and the third as they are,
  the second transposed — into the three output blocks.

  Stated here, for any float values: what each output block holds after the body at a point, as a function of the
  two input blocks (`qOut`, `ktOut`, `vOut`); that the body, started on staging buffers holding the input blocks,
  ends with the inputs as they were and the outputs at those values; and the per-point obligation of the
  pipeline, over proof data whose arrays are whatever the region finds (`V`).
-/
import proofs.«146672_j2980707303948_2_alg».proof.Proof.Gen.Kernel.Launch
import proofs.«146672_j2980707303948_2_alg».proof.Proof.Gen.Kernel.Skeleton
import proofs.«146672_j2980707303948_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at grid point `t`, read off the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x is in its staging buffer at every point. -/
theorem xHeld_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The stacked weights are in their staging buffer at every point, fetched there or not. -/
theorem wHeld_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's whole-buffer accesses -/

abbrev rX : Rect S1x2048x1024 := Rect.unit (s := S1x2048x1024) ![0, 0, 0] S1x2048x1024.size inb_S1x2048x1024_S1x2048x1024_0_0_0
abbrev rW : Rect S192x1024 := Rect.unit (s := S192x1024) ![0, 0] S192x1024.size inb_S192x1024_S192x1024_0_0
abbrev rQ : Rect S1x2048x64 := Rect.unit (s := S1x2048x64) ![0, 0, 0] S1x2048x64.size inb_S1x2048x64_S1x2048x64_0_0_0
abbrev rKT : Rect S1x64x2048 := Rect.unit (s := S1x64x2048) ![0, 0, 0] S1x64x2048.size inb_S1x64x2048_S1x64x2048_0_0_0

/-! ## What the body leaves in each output block -/

/-- The query block: columns 0–63 of the product. -/
def qOut (x : Vec F S1x2048x1024 .f32) (w : Vec F S192x1024 .f32) : Vec F S1x2048x64 .bf16 :=
  View.canon [⟨rQ, k0_pay2 (View.ld x rX) (View.ld w rW)⟩]

/-- The key block, transposed: columns 64–127 of the product. -/
def ktOut (x : Vec F S1x2048x1024 .f32) (w : Vec F S192x1024 .f32) : Vec F S1x64x2048 .bf16 :=
  View.canon [⟨rKT, k0_pay3 (View.ld x rX) (View.ld w rW)⟩]

/-- The value block: columns 128–191 of the product. -/
def vOut (x : Vec F S1x2048x1024 .f32) (w : Vec F S192x1024 .f32) : Vec F S1x2048x64 .bf16 :=
  View.canon [⟨rQ, k0_pay4 (View.ld x rX) (View.ld w rW)⟩]

/-- One whole-block store covers the block. -/
theorem coverQ (p : Vec F S1x2048x64 .bf16) (y : S1x2048x64.Idx) :
    ∃ pc ∈ ([⟨rQ, p⟩] : List (View.Piece (Elt F) S1x2048x64 .bf16)), y ∈ pc.1.set :=
  View.cover_of_tiled [⟨rQ, p⟩] S1x2048x64.size (by rfl) y

theorem coverKT (p : Vec F S1x64x2048 .bf16) (y : S1x64x2048.Idx) :
    ∃ pc ∈ ([⟨rKT, p⟩] : List (View.Piece (Elt F) S1x64x2048 .bf16)), y ∈ pc.1.set :=
  View.cover_of_tiled [⟨rKT, p⟩] S1x64x2048.size (by rfl) y

/-! ## The body's triple -/

set_option maxHeartbeats 4000000 in
/-- The projection body on whole staging buffers, the inputs' holding `x` and `w` and the outputs' anything, runs to
    the continuation with the inputs as they were and the outputs at `qOut`, `ktOut`, `vOut` of them. -/
theorem projBody (c : Dev nD) (E : Set ℕ) (i : grid0.Coords)
    (arg2 : Memref sig .tc .vmem S1x2048x1024 .f32) (harg2 : arg2.IsWhole) (arg3 : Memref sig .tc .vmem S192x1024 .f32) (harg3 : arg3.IsWhole)
    (arg4 : Memref sig .tc .vmem S1x2048x64 .bf16) (harg4 : arg4.IsWhole) (arg5 : Memref sig .tc .vmem S1x64x2048 .bf16) (harg5 : arg5.IsWhole)
    (arg6 : Memref sig .tc .vmem S1x2048x64 .bf16) (harg6 : arg6.IsWhole)
    (x : Vec F S1x2048x1024 .f32) (w : Vec F S192x1024 .f32) (K : PUnit → sProp 𝕄) :
    iprop(owns (c : Thread nD τ) arg2 fullShare x ∗ owns (c : Thread nD τ) arg3 fullShare w
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x ∗ owns (c : Thread nD τ) arg3 fullShare w
            ∗ owns (c : Thread nD τ) arg4 fullShare (qOut x w) ∗ owns (c : Thread nD τ) arg5 fullShare (ktOut x w)
            ∗ owns (c : Thread nD τ) arg6 fullShare (vOut x w)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f2, %hf2, H2⟩, ⟨%f3, %hf3, H3⟩, ⟨%d4, %f4, -, H4⟩, ⟨%d5, %f5, -, H5⟩, ⟨%d6, %f6, -, H6⟩, Hk⟩
  subst hf2; subst hf3
  sl_exec
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverQ _)
  isplitl [H5]
  · iexists _; isplitr
    swap; · iexact H5
    ipureintro
    exact View.read_writes_eq_canon _ _ _ (coverKT _)
  iexists _; isplitr
  swap; · iexact H6
  ipureintro
  exact View.read_writes_eq_canon _ _ _ (coverQ _)

/-! ## The pipeline's proof data -/

/-- The proof data of the projection pipeline on core `c`: the arrays as the region finds them; after the body at point
    `t` each input's buffer at its block and each output's at its value of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => qOut (blk0 V c 0 t) (blk0 V c 1 t)
    | ⟨3, _⟩ => ktOut (blk0 V c 0 t) (blk0 V c 1 t)
    | ⟨4, _⟩ => vOut (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = qOut (blk0 V c 0 t) (blk0 V c 1 t) := by dsimp only [dat0]
theorem after0_3 (c : Dev nD) (t : Fin cfg0.N) : (dat0 V c).after 3 t = ktOut (blk0 V c 0 t) (blk0 V c 1 t) := by dsimp only [dat0]
theorem after0_4 (c : Dev nD) (t : Fin cfg0.N) : (dat0 V c).after 4 t = vOut (blk0 V c 0 t) (blk0 V c 1 t) := by dsimp only [dat0]

theorem xHeld (c : Dev nD) (t : Fin cfg0.N) (d) : (dat0 V c).before 0 t d = blk0 V c 0 t :=
  xHeld_of V (dat0 V c) (A_eq0 V c 0) (after0_0 V c) t d
theorem wHeld (c : Dev nD) (t : Fin cfg0.N) (d) : (dat0 V c).before 1 t d = blk0 V c 1 t :=
  wHeld_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so `projBody` applies; the invariant and the core's
    dues pass through unread. -/
theorem pointBody0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [xHeld, wHeld]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (projBody c Set.univ _ _ _ _ _ _ _ _ _ _ _ (blk0 V c 0 t) (blk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem obligation0 (c : Dev nD) : BodyObligation (dat0 (F := F) V c) (defs₀ (F := F)) Variants.none () Set.univ := fun t => by
  rw [bigSep_W0, bigSep_W0]
  exact pointBody0 V c t

end Region

end Cert.Kernel.Hand

end
-- ==== Proof.AttnRunBits.lean ====
/-
  The attention region: one grid point holds a block of 1024 query rows, and the whole transposed key array and
  the whole value array of its batch. The body resets three scratch buffers (a running row maximum at minus
  infinity, a running denominator and a running weighted sum at zero), meets the 4096 keys in four trips of 1024
  — each trip forms the scaled scores of the block against the trip's keys, moves the maximum, rescales the
  denominator and the weighted sum and adds the trip's share —, and stores the weighted sum divided by the
  denominator into the output block.

  Stated here, for any float values: the body's run on whole buffers, as the list of pieces it leaves in the output
  block together with the proof that it does (the loop passed by its invariant, the scratch buffers taken at any
  contents and given back at some); that the pieces cover the block; and the per-point obligation of the pipeline,
  over proof data whose arrays are whatever the region finds (`V`).
-/
import proofs.«146672_j2980707303948_2_alg».proof.Proof.ProjRegionBits
import proofs.«146672_j2980707303948_2_alg».proof.Proof.Gen.Kernel.Loops

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's run on whole buffers -/

set_option maxHeartbeats 4000000 in
/-- The pieces the attention body leaves in its output block, with the proof that on whole buffers — the three inputs'
    at their contents, the output's and the three scratch buffers' at anything — the body runs to the continuation
    holding the inputs as they were, the output with those pieces written, and the scratch at some contents. -/
noncomputable def attnRun (c : Dev nD) (i : grid1.Coords)
    (arg2 : Memref sig .tc .vmem S1x1024x64 .bf16) (harg2 : arg2.IsWhole) (arg3 : Memref sig .tc .vmem S1x64x4096 .bf16) (harg3 : arg3.IsWhole)
    (arg4 : Memref sig .tc .vmem S1x4096x64 .bf16) (harg4 : arg4.IsWhole) (arg5 : Memref sig .tc .vmem S1x1024x64 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x64 .f32) (harg8 : arg8.IsWhole)
    (x0 : Vec F S1x1024x64 .bf16) (x1 : Vec F S1x64x4096 .bf16) (x2 : Vec F S1x4096x64 .bf16) :
    { L : List (View.Piece (Elt F) S1x1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg2.eq_unread hf2
    obtain rfl := harg3.eq_unread hf3
    obtain rfl := harg4.eq_unread hf4
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Hand

end
-- ==== Proof.AttnRegionBits.lean ====
/-
  The attention region, continued: the pieces its body leaves in the output block cover the block, so the block's
  contents after the body are those pieces read back (`attnOut`); the proof data of the pipeline over arrays as the
  region finds them; each input's buffer holds its block at every point (the key and value arrays are fetched once per
  batch and found in place at the other points); and the per-point obligation, the three scratch buffers taken out of
  the region's scoped rest and put back.
-/
import proofs.«146672_j2980707303948_2_alg».proof.Proof.AttnRunBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one store into the output block is the whole block. -/
theorem attnCover (c : Dev nD) (i : grid1.Coords)
    (arg2 : Memref sig .tc .vmem S1x1024x64 .bf16) (harg2 : arg2.IsWhole) (arg3 : Memref sig .tc .vmem S1x64x4096 .bf16) (harg3 : arg3.IsWhole)
    (arg4 : Memref sig .tc .vmem S1x4096x64 .bf16) (harg4 : arg4.IsWhole) (arg5 : Memref sig .tc .vmem S1x1024x64 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x64 .f32) (harg8 : arg8.IsWhole)
    (x0 : Vec F S1x1024x64 .bf16) (x1 : Vec F S1x64x4096 .bf16) (x2 : Vec F S1x4096x64 .bf16) (y : S1x1024x64.Idx) :
    ∃ pc ∈ (attnRun c i arg2 harg2 arg3 harg3 arg4 harg4 arg5 harg5 arg6 harg6 arg7 harg7 arg8 harg8 x0 x1 x2).1, y ∈ pc.1.set :=
  View.cover_of_tiledL (attnRun c i arg2 harg2 arg3 harg3 arg4 harg4 arg5 harg5 arg6 harg6 arg7 harg7 arg8 harg8 x0 x1 x2).1 S1x1024x64.size (by sl_kernel_rfl) y

/-- One staging buffer of the output window, through which its contents are stated (the choice does not matter). -/
abbrev outView : View sig .tc .vmem S1x1024x64 .f32 := (Memref.whole cc1_stg3_0 : Memref sig .tc .vmem S1x1024x64 .f32).view

/-- What the body leaves in the output block: its pieces read back. -/
def attnOut (c : Dev nD) (i : grid1.Coords)
    (arg2 : Memref sig .tc .vmem S1x1024x64 .bf16) (harg2 : arg2.IsWhole) (arg3 : Memref sig .tc .vmem S1x64x4096 .bf16) (harg3 : arg3.IsWhole)
    (arg4 : Memref sig .tc .vmem S1x4096x64 .bf16) (harg4 : arg4.IsWhole) (arg5 : Memref sig .tc .vmem S1x1024x64 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x64 .f32) (harg8 : arg8.IsWhole)
    (x0 : Vec F S1x1024x64 .bf16) (x1 : Vec F S1x64x4096 .bf16) (x2 : Vec F S1x4096x64 .bf16) : Vec F S1x1024x64 .f32 :=
  outView.read (Elt F) (outView.writes (Elt F) outView.junk
    (attnRun c i arg2 harg2 arg3 harg3 arg4 harg4 arg5 harg5 arg6 harg6 arg7 harg7 arg8 harg8 x0 x1 x2).1)

section Region

variable (V : (c : Dev nD) → (b : Ref sig .tc) → Buf (Elt F) ((c : Thread nD τ).loc b))

/-- Window `w`'s block at grid point `t`, read off the array the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem qHeld_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem ktHeld_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem vHeld_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The output block after the body at point `t`: the body's value at the point's buffers and input blocks. -/
def outAt1 (c : Dev nD) (t : Fin cfg1.N) : Vec F S1x1024x64 .f32 :=
  attnOut c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (Memref.whole cc1_scratch0) (Memref.isWhole_whole _) (Memref.whole cc1_scratch1) (Memref.isWhole_whole _)
    (Memref.whole cc1_scratch2) (Memref.isWhole_whole _)
    (blk1 V c 0 t) (blk1 V c 1 t) (blk1 V c 2 t)

/-- The proof data of the attention pipeline on core `c`: the arrays as the region finds them; after the body at point
    `t` each input's buffer at its block and the output's at `outAt1`; the invariant the scoped rest (the scratch
    buffers among it) and the generator register; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = outAt1 V c t := by dsimp only [dat1]

theorem qHeld (c : Dev nD) (t : Fin cfg1.N) (d) : (dat1 V c).before 0 t d = blk1 V c 0 t :=
  qHeld_of V (dat1 V c) (A_eq1 V c 0) (after1_0 V c) t d
theorem ktHeld (c : Dev nD) (t : Fin cfg1.N) (d) : (dat1 V c).before 1 t d = blk1 V c 1 t :=
  ktHeld_of V (dat1 V c) (A_eq1 V c 1) (after1_1 V c) t d
theorem vHeld (c : Dev nD) (t : Fin cfg1.N) (d) : (dat1 V c).before 2 t d = blk1 V c 2 t :=
  vHeld_of V (dat1 V c) (A_eq1 V c 2) (after1_2 V c) t d

/-- The region's invariant with the three scratch buffers as memrefs owned at some contents. -/
theorem scopedSplit1 (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg4_1), ((c : Thread nD τ).loc cc0_stg4_1) ↦{fullShare} f)
          ∗ (∃ d, owns (c : Thread nD τ) (Memref.whole cc1_scratch0 : Memref sig .tc .vmem S1024x1 .f32) fullShare d)
          ∗ (∃ d, owns (c : Thread nD τ) (Memref.whole cc1_scratch1 : Memref sig .tc .vmem S1024x1 .f32) fullShare d)
          ∗ (∃ d, owns (c : Thread nD τ) (Memref.whole cc1_scratch2 : Memref sig .tc .vmem S1024x64 .f32) fullShare d))
        ∗ (∃ r, prngReg c r)) := by
  unfold Pipeline.ΦA; rw [scopedRest1_eq]; simp only [owns_whole]; try rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks and the scratch buffers are in the scoped rest, so the
    body's run applies; the rest of the invariant and the core's dues pass through unread. -/
theorem pointBody1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [qHeld, ktHeld, vHeld]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, scopedSplit1]
  unfold outAt1 attnOut
  iintro ⟨⟨⟨Ha, Hb, Hc, Hd, He, Hf, Hg, Hh, Hi, HS0, HS1, HS2⟩, Hp⟩, Ho, ⟨%d0, H0⟩, ⟨%d1, H1⟩, ⟨%d2, H2⟩, ⟨%d3, H3⟩⟩
  iapply ((attnRun c (grid1.coords t) _ _ _ _ _ _ _ _ _ _ _ _ _ _ (blk1 V c 0 t) (blk1 V c 1 t) (blk1 V c 2 t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, HS0, HS1, HS2⟩
  isplitl [Ha Hb Hc Hd He Hf Hg Hh Hi HS0 HS1 HS2 Hp]
  · isplitr [Hp]
    · isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [HS0]; · iexact HS0
      isplitl [HS1]; · iexact HS1
      iexact HS2
    iexact Hp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (attnCover c _ _ _ _ _ _ _ _ _ _ _ _ _ _ _ _ _ _)

/-- The pipeline's body obligation, at every point. -/
theorem obligation1 (c : Dev nD) : BodyObligation (dat1 (F := F) V c) (defs₀ (F := F)) Variants.none () Set.univ := fun t => by
  rw [bigSep_W1, bigSep_W1]
  exact pointBody1 V c t

end Region

end Cert.Kernel.Hand

end
-- ==== Proof.RunBits.lean ====
/-
  The whole program as a run of three segments: the host stretch that stacks the three weight matrices, the
  projection region, the attention region. The contents of the core's buffers at each boundary are a fold from the
  launch memory: after the host stretch, the stacked weights written; after a region, that region's arrays at what its
  write-backs leave and every other buffer as it was. The run ends with every buffer the program keeps at the last
  boundary's contents; read at the four arguments these are the launch contents (no segment writes an argument), and
  at the result they are what the attention region's write-backs leave.
-/
import proofs.«146672_j2980707303948_2_alg».proof.Proof.AttnRegionBits
import proofs.«146672_j2980707303948_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host stretch (the projection region's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At the projection region's exit (the attention region's entry). -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem exit0_arr (c : Dev nD) (w : Fin cfg0.W) : (dat0 (E1 m) c).arrAt w cfg0.N = E2 m c (Pipeline.arrRef spec0 w) :=
  (W2_arr m c w).symm
theorem exit0_rest (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the attention region's exit (the end of the program). -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem exit1_arr (c : Dev nD) (w : Fin cfg1.W) : (dat1 (E2 m) c).arrAt w cfg1.N = E3 m c (Pipeline.arrRef spec1 w) :=
  (W3_arr m c w).symm
theorem exit1_rest (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## No segment writes an argument -/

/-- The host stretch writes the stacked weights only. -/
theorem W1_of (c : Dev nD) (r : Ref sig .tc) (h : r ∉ ([main_v0] : List (Ref sig .tc))) :
    W1 m c (Proc.devRef .tc r) = W0 m c (Proc.devRef .tc r) :=
  StableHlo.after_of_writes_sub hostOps0 _ hostOps0_writes h

theorem end_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (E1 m) c).arrAt_in 0 rfl _).trans (A_eq0 (E1 m) c 0))
    _ = W0 m c (Proc.devRef .tc main_arg0) := W1_of m c main_arg0 (by decide)
    _ = m ((c : Thread nD τ).loc main_arg0) := rfl
theorem end_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem end_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem end_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

/-- The result is what the attention region's write-backs leave in its output array. -/
theorem end_result (c : Dev nD) : W3 m c (Proc.devRef .tc main_v2) = (dat1 (E2 m) c).arrAt 3 cfg1.N :=
  W3_arr m c 3

/-! ## The proof data family and the thread state -/

abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E2 m) c
abbrev 𝒱₀ : Variants := Variants.none
abbrev LH : GSem nD τ sig → Finset Unit := fun _ => ∅
abbrev lvH : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region: entered with every kept buffer at `W1`, left with them at `W2`. -/
def reg0 : Pipeline.RegionSeg (pcfgs (F := F)) admH (pdats m) () defs₀ 𝒱₀ LH lvH 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ LH lvH 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every kept buffer at `W2`, left with them at `W3` (what the end reads). -/
def reg1 : Pipeline.RegionSeg (pcfgs (F := F)) admH (pdats m) () defs₀ 𝒱₀ LH lvH 1 where
  win := launch1.win.to₀
  block_pos := launch1.block_pos
  stage_whole := launch1.stage_whole
  K := PEmpty
  osem k := k.elim
  ho := Pipeline.OwnSemFacts.none _
  hbody c := (obligation1 (E2 m) c).loose
  hwaits := Pipeline.hwaits_of_owed_zero _ _ _ _ LH lvH 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segsH : List (Pipeline.Seg (pcfgs (F := F)) admH (pdats m) () defs₀ 𝒱₀ LH lvH) :=
  [ .host (hseg hostOps0 hostOps0_sub hostOps0_fresh (W0 m)),
    .region (reg0 m),
    .region (reg1 m) ]

theorem main_is_segs (c : Dev nD) : main (F := F) c = Pipeline.Seg.run (segsH m) := (main_chain c).trans (by chain_rfl)

set_option backward.isDefEq.respectTransparency.types false in
/-- THE RUN: from any memory with zero counters, every weakly fair execution of the program terminates, nothing
    faulting, and every final memory holds each kept buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) admH (pdats m) () cellOf_inj emb₁ defs₀ 𝒱₀ LH lvH m ρ main (segsH m)
    (fun c Q => by rw [main_is_segs m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- Read at the arguments and the result: the result buffer ends at what the attention region's write-backs leave,
    and each argument as launched. -/
theorem run_named : θ_run defs (onTc (τ := τ) (main (F := F))) ⟨m, fun _ => 0, ρ⟩ (fun r => ∀ c : Dev nD,
      r.2.mem ((c.tc : Thread nD τ).loc main_v2) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (end_result m c),
     (h c _ (mem_uc main_arg0 (by decide))).trans (end_arg0 m c),
     (h c _ (mem_uc main_arg1 (by decide))).trans (end_arg1 m c),
     (h c _ (mem_uc main_arg2 (by decide))).trans (end_arg2 m c),
     (h c _ (mem_uc main_arg3 (by decide))).trans (end_arg3 m c)⟩) (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.Kernel.Hand

end
-- ==== Proof.ProjRegionIdeal.lean ====
/-
  The projection region: one grid point reads a block of 2048 rows of x and the whole stacked weight matrix
  (the three 64-row weight matrices one above the other), forms the 2048 × 192 product of the rows of the block
  against the rows of the weights, and stores its three column groups of 64 — the first and the third as they are,
  the second transposed — into the three output blocks.

  Stated here, for any float values: what each output block holds after the body at a point, as a function of the
  two input blocks (`qOut`, `ktOut`, `vOut`); that the body, started on staging buffers holding the input blocks,
  ends with the inputs as they were and the outputs at those values; and the per-point obligation of the
  pipeline, over proof data whose arrays are whatever the region finds (`V`).
-/
import proofs.«146672_j2980707303948_2_alg».proof.Proof.Gen.KernelIdeal.Launch
import proofs.«146672_j2980707303948_2_alg».proof.Proof.Gen.KernelIdeal.Skeleton
import proofs.«146672_j2980707303948_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at grid point `t`, read off the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x is in its staging buffer at every point. -/
theorem xHeld_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The stacked weights are in their staging buffer at every point, fetched there or not. -/
theorem wHeld_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's whole-buffer accesses -/

abbrev rX : Rect S1x2048x1024 := Rect.unit (s := S1x2048x1024) ![0, 0, 0] S1x2048x1024.size inb_S1x2048x1024_S1x2048x1024_0_0_0
abbrev rW : Rect S192x1024 := Rect.unit (s := S192x1024) ![0, 0] S192x1024.size inb_S192x1024_S192x1024_0_0
abbrev rQ : Rect S1x2048x64 := Rect.unit (s := S1x2048x64) ![0, 0, 0] S1x2048x64.size inb_S1x2048x64_S1x2048x64_0_0_0
abbrev rKT : Rect S1x64x2048 := Rect.unit (s := S1x64x2048) ![0, 0, 0] S1x64x2048.size inb_S1x64x2048_S1x64x2048_0_0_0

/-! ## What the body leaves in each output block -/

/-- The query block: columns 0–63 of the product. -/
def qOut (x : Vec F S1x2048x1024 .f32) (w : Vec F S192x1024 .f32) : Vec F S1x2048x64 .bf16 :=
  View.canon [⟨rQ, k0_pay2 (View.ld x rX) (View.ld w rW)⟩]

/-- The key block, transposed: columns 64–127 of the product. -/
def ktOut (x : Vec F S1x2048x1024 .f32) (w : Vec F S192x1024 .f32) : Vec F S1x64x2048 .bf16 :=
  View.canon [⟨rKT, k0_pay3 (View.ld x rX) (View.ld w rW)⟩]

/-- The value block: columns 128–191 of the product. -/
def vOut (x : Vec F S1x2048x1024 .f32) (w : Vec F S192x1024 .f32) : Vec F S1x2048x64 .bf16 :=
  View.canon [⟨rQ, k0_pay4 (View.ld x rX) (View.ld w rW)⟩]

/-- One whole-block store covers the block. -/
theorem coverQ (p : Vec F S1x2048x64 .bf16) (y : S1x2048x64.Idx) :
    ∃ pc ∈ ([⟨rQ, p⟩] : List (View.Piece (Elt F) S1x2048x64 .bf16)), y ∈ pc.1.set :=
  View.cover_of_tiled [⟨rQ, p⟩] S1x2048x64.size (by rfl) y

theorem coverKT (p : Vec F S1x64x2048 .bf16) (y : S1x64x2048.Idx) :
    ∃ pc ∈ ([⟨rKT, p⟩] : List (View.Piece (Elt F) S1x64x2048 .bf16)), y ∈ pc.1.set :=
  View.cover_of_tiled [⟨rKT, p⟩] S1x64x2048.size (by rfl) y

/-! ## The body's triple -/

set_option maxHeartbeats 4000000 in
/-- The projection body on whole staging buffers, the inputs' holding `x` and `w` and the outputs' anything, runs to
    the continuation with the inputs as they were and the outputs at `qOut`, `ktOut`, `vOut` of them. -/
theorem projBody (c : Dev nD) (E : Set ℕ) (i : grid0.Coords)
    (arg2 : Memref sig .tc .vmem S1x2048x1024 .f32) (harg2 : arg2.IsWhole) (arg3 : Memref sig .tc .vmem S192x1024 .f32) (harg3 : arg3.IsWhole)
    (arg4 : Memref sig .tc .vmem S1x2048x64 .bf16) (harg4 : arg4.IsWhole) (arg5 : Memref sig .tc .vmem S1x64x2048 .bf16) (harg5 : arg5.IsWhole)
    (arg6 : Memref sig .tc .vmem S1x2048x64 .bf16) (harg6 : arg6.IsWhole)
    (x : Vec F S1x2048x1024 .f32) (w : Vec F S192x1024 .f32) (K : PUnit → sProp 𝕄) :
    iprop(owns (c : Thread nD τ) arg2 fullShare x ∗ owns (c : Thread nD τ) arg3 fullShare w
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x ∗ owns (c : Thread nD τ) arg3 fullShare w
            ∗ owns (c : Thread nD τ) arg4 fullShare (qOut x w) ∗ owns (c : Thread nD τ) arg5 fullShare (ktOut x w)
            ∗ owns (c : Thread nD τ) arg6 fullShare (vOut x w)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f2, %hf2, H2⟩, ⟨%f3, %hf3, H3⟩, ⟨%d4, %f4, -, H4⟩, ⟨%d5, %f5, -, H5⟩, ⟨%d6, %f6, -, H6⟩, Hk⟩
  subst hf2; subst hf3
  sl_exec
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverQ _)
  isplitl [H5]
  · iexists _; isplitr
    swap; · iexact H5
    ipureintro
    exact View.read_writes_eq_canon _ _ _ (coverKT _)
  iexists _; isplitr
  swap; · iexact H6
  ipureintro
  exact View.read_writes_eq_canon _ _ _ (coverQ _)

/-! ## The pipeline's proof data -/

/-- The proof data of the projection pipeline on core `c`: the arrays as the region finds them; after the body at point
    `t` each input's buffer at its block and each output's at its value of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => qOut (blk0 V c 0 t) (blk0 V c 1 t)
    | ⟨3, _⟩ => ktOut (blk0 V c 0 t) (blk0 V c 1 t)
    | ⟨4, _⟩ => vOut (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = qOut (blk0 V c 0 t) (blk0 V c 1 t) := by dsimp only [dat0]
theorem after0_3 (c : Dev nD) (t : Fin cfg0.N) : (dat0 V c).after 3 t = ktOut (blk0 V c 0 t) (blk0 V c 1 t) := by dsimp only [dat0]
theorem after0_4 (c : Dev nD) (t : Fin cfg0.N) : (dat0 V c).after 4 t = vOut (blk0 V c 0 t) (blk0 V c 1 t) := by dsimp only [dat0]

theorem xHeld (c : Dev nD) (t : Fin cfg0.N) (d) : (dat0 V c).before 0 t d = blk0 V c 0 t :=
  xHeld_of V (dat0 V c) (A_eq0 V c 0) (after0_0 V c) t d
theorem wHeld (c : Dev nD) (t : Fin cfg0.N) (d) : (dat0 V c).before 1 t d = blk0 V c 1 t :=
  wHeld_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so `projBody` applies; the invariant and the core's
    dues pass through unread. -/
theorem pointBody0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [xHeld, wHeld]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (projBody c Set.univ _ _ _ _ _ _ _ _ _ _ _ (blk0 V c 0 t) (blk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem obligation0 (c : Dev nD) : BodyObligation (dat0 (F := F) V c) (defs₀ (F := F)) Variants.none () Set.univ := fun t => by
  rw [bigSep_W0, bigSep_W0]
  exact pointBody0 V c t

end Region

end Cert.KernelIdeal.Hand

end
-- ==== Proof.AttnRunIdeal.lean ====
/-
  The attention region: one grid point holds a block of 1024 query rows, and the whole transposed key array and
  the whole value array of its batch. The body resets three scratch buffers (a running row maximum at minus
  infinity, a running denominator and a running weighted sum at zero), meets the 4096 keys in four trips of 1024
  — each trip forms the scaled scores of the block against the trip's keys, moves the maximum, rescales the
  denominator and the weighted sum and adds the trip's share —, and stores the weighted sum divided by the
  denominator into the output block.

  Stated here, for any float values: the body's run on whole buffers, as the list of pieces it leaves in the output
  block together with the proof that it does (the loop passed by its invariant, the scratch buffers taken at any
  contents and given back at some); that the pieces cover the block; and the per-point obligation of the pipeline,
  over proof data whose arrays are whatever the region finds (`V`).
-/
import proofs.«146672_j2980707303948_2_alg».proof.Proof.ProjRegionIdeal
import proofs.«146672_j2980707303948_2_alg».proof.Proof.Gen.KernelIdeal.Loops

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's run on whole buffers -/

set_option maxHeartbeats 4000000 in
/-- The pieces the attention body leaves in its output block, with the proof that on whole buffers — the three inputs'
    at their contents, the output's and the three scratch buffers' at anything — the body runs to the continuation
    holding the inputs as they were, the output with those pieces written, and the scratch at some contents. -/
noncomputable def attnRun (c : Dev nD) (i : grid1.Coords)
    (arg2 : Memref sig .tc .vmem S1x1024x64 .bf16) (harg2 : arg2.IsWhole) (arg3 : Memref sig .tc .vmem S1x64x4096 .bf16) (harg3 : arg3.IsWhole)
    (arg4 : Memref sig .tc .vmem S1x4096x64 .bf16) (harg4 : arg4.IsWhole) (arg5 : Memref sig .tc .vmem S1x1024x64 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x64 .f32) (harg8 : arg8.IsWhole)
    (x0 : Vec F S1x1024x64 .bf16) (x1 : Vec F S1x64x4096 .bf16) (x2 : Vec F S1x4096x64 .bf16) :
    { L : List (View.Piece (Elt F) S1x1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg2.eq_unread hf2
    obtain rfl := harg3.eq_unread hf3
    obtain rfl := harg4.eq_unread hf4
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Hand

end
-- ==== Proof.AttnRegionIdeal.lean ====
/-
  The attention region, continued: the pieces its body leaves in the output block cover the block, so the block's
  contents after the body are those pieces read back (`attnOut`); the proof data of the pipeline over arrays as the
  region finds them; each input's buffer holds its block at every point (the key and value arrays are fetched once per
  batch and found in place at the other points); and the per-point obligation, the three scratch buffers taken out of
  the region's scoped rest and put back.
-/
import proofs.«146672_j2980707303948_2_alg».proof.Proof.AttnRunIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one store into the output block is the whole block. -/
theorem attnCover (c : Dev nD) (i : grid1.Coords)
    (arg2 : Memref sig .tc .vmem S1x1024x64 .bf16) (harg2 : arg2.IsWhole) (arg3 : Memref sig .tc .vmem S1x64x4096 .bf16) (harg3 : arg3.IsWhole)
    (arg4 : Memref sig .tc .vmem S1x4096x64 .bf16) (harg4 : arg4.IsWhole) (arg5 : Memref sig .tc .vmem S1x1024x64 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x64 .f32) (harg8 : arg8.IsWhole)
    (x0 : Vec F S1x1024x64 .bf16) (x1 : Vec F S1x64x4096 .bf16) (x2 : Vec F S1x4096x64 .bf16) (y : S1x1024x64.Idx) :
    ∃ pc ∈ (attnRun c i arg2 harg2 arg3 harg3 arg4 harg4 arg5 harg5 arg6 harg6 arg7 harg7 arg8 harg8 x0 x1 x2).1, y ∈ pc.1.set :=
  View.cover_of_tiledL (attnRun c i arg2 harg2 arg3 harg3 arg4 harg4 arg5 harg5 arg6 harg6 arg7 harg7 arg8 harg8 x0 x1 x2).1 S1x1024x64.size (by sl_kernel_rfl) y

/-- One staging buffer of the output window, through which its contents are stated (the choice does not matter). -/
abbrev outView : View sig .tc .vmem S1x1024x64 .f32 := (Memref.whole cc1_stg3_0 : Memref sig .tc .vmem S1x1024x64 .f32).view

/-- What the body leaves in the output block: its pieces read back. -/
def attnOut (c : Dev nD) (i : grid1.Coords)
    (arg2 : Memref sig .tc .vmem S1x1024x64 .bf16) (harg2 : arg2.IsWhole) (arg3 : Memref sig .tc .vmem S1x64x4096 .bf16) (harg3 : arg3.IsWhole)
    (arg4 : Memref sig .tc .vmem S1x4096x64 .bf16) (harg4 : arg4.IsWhole) (arg5 : Memref sig .tc .vmem S1x1024x64 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x64 .f32) (harg8 : arg8.IsWhole)
    (x0 : Vec F S1x1024x64 .bf16) (x1 : Vec F S1x64x4096 .bf16) (x2 : Vec F S1x4096x64 .bf16) : Vec F S1x1024x64 .f32 :=
  outView.read (Elt F) (outView.writes (Elt F) outView.junk
    (attnRun c i arg2 harg2 arg3 harg3 arg4 harg4 arg5 harg5 arg6 harg6 arg7 harg7 arg8 harg8 x0 x1 x2).1)

section Region

variable (V : (c : Dev nD) → (b : Ref sig .tc) → Buf (Elt F) ((c : Thread nD τ).loc b))

/-- Window `w`'s block at grid point `t`, read off the array the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem qHeld_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem ktHeld_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem vHeld_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The output block after the body at point `t`: the body's value at the point's buffers and input blocks. -/
def outAt1 (c : Dev nD) (t : Fin cfg1.N) : Vec F S1x1024x64 .f32 :=
  attnOut c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (Memref.whole cc1_scratch0) (Memref.isWhole_whole _) (Memref.whole cc1_scratch1) (Memref.isWhole_whole _)
    (Memref.whole cc1_scratch2) (Memref.isWhole_whole _)
    (blk1 V c 0 t) (blk1 V c 1 t) (blk1 V c 2 t)

/-- The proof data of the attention pipeline on core `c`: the arrays as the region finds them; after the body at point
    `t` each input's buffer at its block and the output's at `outAt1`; the invariant the scoped rest (the scratch
    buffers among it) and the generator register; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = outAt1 V c t := by dsimp only [dat1]

theorem qHeld (c : Dev nD) (t : Fin cfg1.N) (d) : (dat1 V c).before 0 t d = blk1 V c 0 t :=
  qHeld_of V (dat1 V c) (A_eq1 V c 0) (after1_0 V c) t d
theorem ktHeld (c : Dev nD) (t : Fin cfg1.N) (d) : (dat1 V c).before 1 t d = blk1 V c 1 t :=
  ktHeld_of V (dat1 V c) (A_eq1 V c 1) (after1_1 V c) t d
theorem vHeld (c : Dev nD) (t : Fin cfg1.N) (d) : (dat1 V c).before 2 t d = blk1 V c 2 t :=
  vHeld_of V (dat1 V c) (A_eq1 V c 2) (after1_2 V c) t d

/-- The region's invariant with the three scratch buffers as memrefs owned at some contents. -/
theorem scopedSplit1 (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg4_1), ((c : Thread nD τ).loc cc0_stg4_1) ↦{fullShare} f)
          ∗ (∃ d, owns (c : Thread nD τ) (Memref.whole cc1_scratch0 : Memref sig .tc .vmem S1024x1 .f32) fullShare d)
          ∗ (∃ d, owns (c : Thread nD τ) (Memref.whole cc1_scratch1 : Memref sig .tc .vmem S1024x1 .f32) fullShare d)
          ∗ (∃ d, owns (c : Thread nD τ) (Memref.whole cc1_scratch2 : Memref sig .tc .vmem S1024x64 .f32) fullShare d))
        ∗ (∃ r, prngReg c r)) := by
  unfold Pipeline.ΦA; rw [scopedRest1_eq]; simp only [owns_whole]; try rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks and the scratch buffers are in the scoped rest, so the
    body's run applies; the rest of the invariant and the core's dues pass through unread. -/
theorem pointBody1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [qHeld, ktHeld, vHeld]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, scopedSplit1]
  unfold outAt1 attnOut
  iintro ⟨⟨⟨Ha, Hb, Hc, Hd, He, Hf, Hg, Hh, Hi, HS0, HS1, HS2⟩, Hp⟩, Ho, ⟨%d0, H0⟩, ⟨%d1, H1⟩, ⟨%d2, H2⟩, ⟨%d3, H3⟩⟩
  iapply ((attnRun c (grid1.coords t) _ _ _ _ _ _ _ _ _ _ _ _ _ _ (blk1 V c 0 t) (blk1 V c 1 t) (blk1 V c 2 t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, HS0, HS1, HS2⟩
  isplitl [Ha Hb Hc Hd He Hf Hg Hh Hi HS0 HS1 HS2 Hp]
  · isplitr [Hp]
    · isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [HS0]; · iexact HS0
      isplitl [HS1]; · iexact HS1
      iexact HS2
    iexact Hp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (attnCover c _ _ _ _ _ _ _ _ _ _ _ _ _ _ _ _ _ _)

/-- The pipeline's body obligation, at every point. -/
theorem obligation1 (c : Dev nD) : BodyObligation (dat1 (F := F) V c) (defs₀ (F := F)) Variants.none () Set.univ := fun t => by
  rw [bigSep_W1, bigSep_W1]
  exact pointBody1 V c t

end Region

end Cert.KernelIdeal.Hand

end
-- ==== Proof.RunIdeal.lean ====
/-
  The whole program as a run of three segments: the host stretch that stacks the three weight matrices, the
  projection region, the attention region. The contents of the core's buffers at each boundary are a fold from the
  launch memory: after the host stretch, the stacked weights written; after a region, that region's arrays at what its
  write-backs leave and every other buffer as it was. The run ends with every buffer the program keeps at the last
  boundary's contents; read at the four arguments these are the launch contents (no segment writes an argument), and
  at the result they are what the attention region's write-backs leave.
-/
import proofs.«146672_j2980707303948_2_alg».proof.Proof.AttnRegionIdeal
import proofs.«146672_j2980707303948_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host stretch (the projection region's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At the projection region's exit (the attention region's entry). -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem exit0_arr (c : Dev nD) (w : Fin cfg0.W) : (dat0 (E1 m) c).arrAt w cfg0.N = E2 m c (Pipeline.arrRef spec0 w) :=
  (W2_arr m c w).symm
theorem exit0_rest (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the attention region's exit (the end of the program). -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem exit1_arr (c : Dev nD) (w : Fin cfg1.W) : (dat1 (E2 m) c).arrAt w cfg1.N = E3 m c (Pipeline.arrRef spec1 w) :=
  (W3_arr m c w).symm
theorem exit1_rest (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## No segment writes an argument -/

/-- The host stretch writes the stacked weights only. -/
theorem W1_of (c : Dev nD) (r : Ref sig .tc) (h : r ∉ ([main_v0] : List (Ref sig .tc))) :
    W1 m c (Proc.devRef .tc r) = W0 m c (Proc.devRef .tc r) :=
  StableHlo.after_of_writes_sub hostOps0 _ hostOps0_writes h

theorem end_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (E1 m) c).arrAt_in 0 rfl _).trans (A_eq0 (E1 m) c 0))
    _ = W0 m c (Proc.devRef .tc main_arg0) := W1_of m c main_arg0 (by decide)
    _ = m ((c : Thread nD τ).loc main_arg0) := rfl
theorem end_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem end_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem end_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

/-- The result is what the attention region's write-backs leave in its output array. -/
theorem end_result (c : Dev nD) : W3 m c (Proc.devRef .tc main_v2) = (dat1 (E2 m) c).arrAt 3 cfg1.N :=
  W3_arr m c 3

/-! ## The proof data family and the thread state -/

abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E2 m) c
abbrev 𝒱₀ : Variants := Variants.none
abbrev LH : GSem nD τ sig → Finset Unit := fun _ => ∅
abbrev lvH : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region: entered with every kept buffer at `W1`, left with them at `W2`. -/
def reg0 : Pipeline.RegionSeg (pcfgs (F := F)) admH (pdats m) () defs₀ 𝒱₀ LH lvH 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ LH lvH 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered with every kept buffer at `W2`, left with them at `W3` (what the end reads). -/
def reg1 : Pipeline.RegionSeg (pcfgs (F := F)) admH (pdats m) () defs₀ 𝒱₀ LH lvH 1 where
  win := launch1.win.to₀
  block_pos := launch1.block_pos
  stage_whole := launch1.stage_whole
  K := PEmpty
  osem k := k.elim
  ho := Pipeline.OwnSemFacts.none _
  hbody c := (obligation1 (E2 m) c).loose
  hwaits := Pipeline.hwaits_of_owed_zero _ _ _ _ LH lvH 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segsH : List (Pipeline.Seg (pcfgs (F := F)) admH (pdats m) () defs₀ 𝒱₀ LH lvH) :=
  [ .host (hseg hostOps0 hostOps0_sub hostOps0_fresh (W0 m)),
    .region (reg0 m),
    .region (reg1 m) ]

theorem main_is_segs (c : Dev nD) : main (F := F) c = Pipeline.Seg.run (segsH m) := (main_chain c).trans (by chain_rfl)

set_option backward.isDefEq.respectTransparency.types false in
/-- THE RUN: from any memory with zero counters, every weakly fair execution of the program terminates, nothing
    faulting, and every final memory holds each kept buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) admH (pdats m) () cellOf_inj emb₁ defs₀ 𝒱₀ LH lvH m ρ main (segsH m)
    (fun c Q => by rw [main_is_segs m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- Read at the arguments and the result: the result buffer ends at what the attention region's write-backs leave,
    and each argument as launched. -/
theorem run_named : θ_run defs (onTc (τ := τ) (main (F := F))) ⟨m, fun _ => 0, ρ⟩ (fun r => ∀ c : Dev nD,
      r.2.mem ((c.tc : Thread nD τ).loc main_v2) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (end_result m c),
     (h c _ (mem_uc main_arg0 (by decide))).trans (end_arg0 m c),
     (h c _ (mem_uc main_arg1 (by decide))).trans (end_arg1 m c),
     (h c _ (mem_uc main_arg2 (by decide))).trans (end_arg2 m c),
     (h c _ (mem_uc main_arg3 (by decide))).trans (end_arg3 m c)⟩) (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.KernelIdeal.Hand

end
-- ==== Proof.LibRowsProduct.lean ====
/-
  A product of two matrices taken row against row: `[a, k] × [b, k] → [a, b]`, the LAST axis of each operand
  contracted (the left operand times the transpose of the right one, without the transpose being formed).

  At output `(i, j)` the contraction's sum of products is the sum over `e : Fin k` of `lhs (i, e) * rhs (j, e)`:
  row `i` of the left operand against row `j` of the right one. Stated on the extended reals, for the vector
  unit's product into a zero accumulator and for the host's product.
-/
import Idealize.ShloMosaic.Lib.ValueIdx
import Idealize.ShloMosaic.PureOps.Ideal.Laws

noncomputable section

namespace Cert.LibRowsProduct

open Idealize.ShloMosaic Idealize.ShloMosaic.ValueIdx

variable {a b k : ℕ}

/-- The dimension numbers of a row-against-row product `[a, k] × [b, k] → [a, b]`: no batch axis, the last axis of
    each operand contracted, the first axes kept in order. -/
abbrev rowsDims (a k b : ℕ)
    (wf : DotDims.WF ⟨2, ![a, k]⟩ ⟨2, ![b, k]⟩ ⟨2, ![a, b]⟩ [1] [1] [0] [0] [] []) :
    DotDims ⟨2, ![a, k]⟩ ⟨2, ![b, k]⟩ ⟨2, ![a, b]⟩ where
  lhsContracting := [1]
  rhsContracting := [1]
  lhsNonContracting := [0]
  rhsNonContracting := [0]
  lhsBatch := []
  rhsBatch := []
  wf := wf

/-- The left operand's index at output `(i, j)` and contraction coordinate `e` is `(i, e)`. -/
theorem rows_lhsIdx (wf : DotDims.WF ⟨2, ![a, k]⟩ ⟨2, ![b, k]⟩ ⟨2, ![a, b]⟩ [1] [1] [0] [0] [] [])
    (i : Fin a) (j : Fin b) (e : Fin k) :
    (rowsDims a k b wf).lhsIdx (ix2 i j) ((contrEquiv1 (rowsDims a k b wf) k rfl rfl).symm e) = ix2 i e := by
  funext ax
  apply Fin.ext
  match ax with
  | ⟨0, _⟩ => rfl
  | ⟨1, _⟩ =>
    exact ((rowsDims a k b wf).lhsIdx_val_of_single rfl (ix2 i j) _).trans
      (contrEquiv1_symm_val (rowsDims a k b wf) k rfl rfl e)

/-- The right operand's index at output `(i, j)` and contraction coordinate `e` is `(j, e)`. -/
theorem rows_rhsIdx (wf : DotDims.WF ⟨2, ![a, k]⟩ ⟨2, ![b, k]⟩ ⟨2, ![a, b]⟩ [1] [1] [0] [0] [] [])
    (i : Fin a) (j : Fin b) (e : Fin k) :
    (rowsDims a k b wf).rhsIdx (ix2 i j) ((contrEquiv1 (rowsDims a k b wf) k rfl rfl).symm e) = ix2 j e := by
  funext ax
  apply Fin.ext
  match ax with
  | ⟨0, _⟩ => rfl
  | ⟨1, _⟩ =>
    exact ((rowsDims a k b wf).rhsIdx_val_of_single rfl (ix2 i j) _).trans
      (contrEquiv1_symm_val (rowsDims a k b wf) k rfl rfl e)

/-- The contraction's sum of products, over the contracted coordinate. -/
theorem rows_sum (wf : DotDims.WF ⟨2, ![a, k]⟩ ⟨2, ![b, k]⟩ ⟨2, ![a, b]⟩ [1] [1] [0] [0] [] [])
    (lhs : (⟨2, ![a, k]⟩ : Shape).Idx → EReal) (rhs : (⟨2, ![b, k]⟩ : Shape).Idx → EReal) (i : Fin a) (j : Fin b) :
    ∑ kk : (rowsDims a k b wf).contr.Idx,
        lhs ((rowsDims a k b wf).lhsIdx (ix2 i j) kk) * rhs ((rowsDims a k b wf).rhsIdx (ix2 i j) kk)
      = ∑ e : Fin k, lhs (ix2 i e) * rhs (ix2 j e) := by
  rw [← Equiv.sum_comp (contrEquiv1 (rowsDims a k b wf) k rfl rfl).symm]
  refine Finset.sum_congr rfl fun e _ => ?_
  rw [rows_lhsIdx wf i j e, rows_rhsIdx wf i j e]

/-- The vector unit's row-against-row product into a zero accumulator, at `(i, j)`: the sum over `e` of
    `lhs (i, e) * rhs (j, e)`. -/
theorem matmul_rows_apply {φ₁ φ₂ : FTy} (wf : DotDims.WF ⟨2, ![a, k]⟩ ⟨2, ![b, k]⟩ ⟨2, ![a, b]⟩ [1] [1] [0] [0] [] [])
    (prec : Option ContractPrecision) (lhs : FVec Ideal ⟨2, ![a, k]⟩ φ₁) (rhs : FVec Ideal ⟨2, ![b, k]⟩ φ₂)
    (i : Fin a) (j : Fin b) :
    FloatOps.matmul (rowsDims a k b wf) prec lhs rhs (constant ⟨2, ![a, b]⟩ .f32 0x00000000#32) (ix2 i j)
      = ∑ e : Fin k, lhs (ix2 i e) * rhs (ix2 j e) :=
  (Ideal.matmul_constant_zero_apply (rowsDims a k b wf) prec lhs rhs (ix2 i j)).trans (rows_sum wf lhs rhs i j)

/-- The host's row-against-row product, at `(i, j)`: the same sum. -/
theorem dotGeneral_rows_apply {φ₁ φ₂ : FTy} (wf : DotDims.WF ⟨2, ![a, k]⟩ ⟨2, ![b, k]⟩ ⟨2, ![a, b]⟩ [1] [1] [0] [0] [] [])
    (prec : Option ContractPrecision) (sched : HostSchedule) (lhs : FVec Ideal ⟨2, ![a, k]⟩ φ₁)
    (rhs : FVec Ideal ⟨2, ![b, k]⟩ φ₂) (i : Fin a) (j : Fin b) :
    FloatOps.dotGeneral (rowsDims a k b wf) prec sched lhs rhs (ix2 i j)
      = ∑ e : Fin k, lhs (ix2 i e) * rhs (ix2 j e) :=
  (Ideal.dotGeneral_apply (rowsDims a k b wf) prec sched lhs rhs (ix2 i j)).trans (rows_sum wf lhs rhs i j)

end Cert.LibRowsProduct

end
-- ==== Proof.Proj.lean ====
/-
  The projection kernel's three stored values, each read at one index.

  The kernel multiplies a block of 2048 rows of x (1024 features each) against the 192 stacked weight rows,
  row against row, into a zero accumulator: entry (r, j) of the product is the sum over the 1024 features c of
  x (r, c) * W (j, c). The three stored values are its column ranges 0..63, 64..127 (transposed) and 128..191,
  each under a leading unit axis. On the extended reals every change of format is the identity.
-/
import proofs.«146672_j2980707303948_2_alg».proof.Proof.Gen.KernelIdeal.Skeleton
import proofs.«146672_j2980707303948_2_alg».proof.Proof.LibRowsProduct
import Idealize.ShloMosaic.Lib.Pipeline.Value
import Idealize.ShloMosaic.Lib.ValueLayout
import Idealize.ShloMosaic.Lib.ValueIdx

noncomputable section

namespace Attn.Proj

open Idealize.ShloMosaic Idealize.ShloMosaic.ValueIdx Cert.KernelIdeal Cert.KernelIdeal.Gen

/-- Entry (r, j) of the product: row r of the block against row j of the stacked weights. -/
theorem pay1_apply (v0 : Vec Ideal S1x2048x1024 .f32) (v3 : Vec Ideal S192x1024 .f32) (r : Fin 2048) (j : Fin 192) :
    k0_pay1 (F := Ideal) v0 v3 (ix2 r j) = ∑ c : Fin 1024, v0 (ix3 0 r c) * v3 (ix2 j c) := by
  unfold k0_pay1
  refine (Cert.LibRowsProduct.matmul_rows_apply (a := 2048) (k := 1024) (b := 192)
    Cert.KernelIdeal.Gen.dot_S2048x1024_S192x1024_S2048x192_1_1_0_0_n_n_wf none _ _ r j).trans ?_
  refine Finset.sum_congr rfl fun e _ => ?_
  show shapeCast S2048x1024 v0 _ (ix2 r e) * shapeCast S192x1024 v3 _ (ix2 j e) = _
  rw [shapeCast_self]
  congr 1
  refine shapeCast_apply v0 _ (ix2 r e) (ix3 0 r e) ?_
  rw [Shape.rowMajor_val_three, Shape.rowMajor_val_two]
  show ((0 : ℕ) * 2048 + r.val) * 1024 + e.val = r.val * 1024 + e.val
  omega

/-- Columns off .. off + 63 of the product, rounded: entry (r, h) is the product's entry (r, off + h). -/
theorem slice_apply (v0 : Vec Ideal S1x2048x1024 .f32) (v3 : Vec Ideal S192x1024 .f32) (off : ℕ)
    (hs : S2048x192.Slices ![0, off] S2048x64) (hoff : off + 64 ≤ 192) (r : Fin 2048) (h : Fin 64) :
    truncf .bf16 (extractStridedSlice S2048x64 ![0, off] (k0_pay1 (F := Ideal) v0 v3) hs) bitsLt_bf16_f32 (ix2 r h)
      = ∑ c : Fin 1024, v0 (ix3 0 r c) * v3 (ix2 (⟨off + h.val, by have := h.isLt; omega⟩ : Fin 192) c) := by
  show extractStridedSlice S2048x64 ![0, off] (k0_pay1 (F := Ideal) v0 v3) hs (ix2 r h) = _
  refine (extractStridedSlice_apply ![0, off] (k0_pay1 (F := Ideal) v0 v3) hs (ix2 r h)
    (ix2 r (⟨off + h.val, by have := h.isLt; omega⟩ : Fin 192)) (fun a => ?_)).trans (pay1_apply v0 v3 r _)
  match a with
  | ⟨0, _⟩ => show r.val = 0 + r.val; omega
  | ⟨1, _⟩ => rfl

/-- The first stored value: columns 0..63 of the product. -/
theorem pay2_apply (v0 : Vec Ideal S1x2048x1024 .f32) (v3 : Vec Ideal S192x1024 .f32) (r : Fin 2048) (h : Fin 64) :
    k0_pay2 (F := Ideal) v0 v3 (ix3 0 r h)
      = ∑ c : Fin 1024, v0 (ix3 0 r c) * v3 (ix2 (⟨h.val, by have := h.isLt; omega⟩ : Fin 192) c) := by
  unfold k0_pay2
  refine (shapeCast_apply _ _ (ix3 0 r h) (ix2 r h) ?_).trans ?_
  · rw [Shape.rowMajor_val_three, Shape.rowMajor_val_two]
    show r.val * 64 + h.val = ((0 : ℕ) * 2048 + r.val) * 64 + h.val
    omega
  · refine (slice_apply v0 v3 0 slices_S2048x192_o0_0_S2048x64 (by omega) r h).trans ?_
    refine Finset.sum_congr rfl fun c _ => ?_
    congr 2
    funext a
    match a with
    | ⟨0, _⟩ => exact Fin.ext (Nat.zero_add _)
    | ⟨1, _⟩ => rfl

/-- The second stored value: columns 64..127 of the product, transposed. -/
theorem pay3_apply (v0 : Vec Ideal S1x2048x1024 .f32) (v3 : Vec Ideal S192x1024 .f32) (r : Fin 2048) (h : Fin 64) :
    k0_pay3 (F := Ideal) v0 v3 (ix3 0 h r)
      = ∑ c : Fin 1024, v0 (ix3 0 r c) * v3 (ix2 (⟨64 + h.val, by have := h.isLt; omega⟩ : Fin 192) c) := by
  unfold k0_pay3
  refine (shapeCast_apply _ _ (ix3 0 h r) (ix2 h r) ?_).trans ?_
  · rw [Shape.rowMajor_val_three, Shape.rowMajor_val_two]
    show h.val * 2048 + r.val = ((0 : ℕ) * 64 + h.val) * 2048 + r.val
    omega
  · show transpose (s := S2048x64) S64x2048 [1, 0]
      (extractStridedSlice S2048x64 ![0, 64] (k0_pay1 (F := Ideal) v0 v3) slices_S2048x192_o0_64_S2048x64)
      transposes_S2048x64_p1_0_S64x2048 (ix2 h r) = _
    refine (transpose_apply (s := S2048x64) (t := S64x2048) [1, 0] _ transposes_S2048x64_p1_0_S64x2048 (ix2 h r) (ix2 r h)
      (fun b => ?_)).trans ?_
    · match b with
      | ⟨0, _⟩ => rfl
      | ⟨1, _⟩ => rfl
    · exact slice_apply v0 v3 64 slices_S2048x192_o0_64_S2048x64 (by omega) r h

/-- The third stored value: columns 128..191 of the product. -/
theorem pay4_apply (v0 : Vec Ideal S1x2048x1024 .f32) (v3 : Vec Ideal S192x1024 .f32) (r : Fin 2048) (h : Fin 64) :
    k0_pay4 (F := Ideal) v0 v3 (ix3 0 r h)
      = ∑ c : Fin 1024, v0 (ix3 0 r c) * v3 (ix2 (⟨128 + h.val, by have := h.isLt; omega⟩ : Fin 192) c) := by
  unfold k0_pay4
  refine (shapeCast_apply _ _ (ix3 0 r h) (ix2 r h) ?_).trans ?_
  · rw [Shape.rowMajor_val_three, Shape.rowMajor_val_two]
    show r.val * 64 + h.val = ((0 : ℕ) * 2048 + r.val) * 64 + h.val
    omega
  · exact slice_apply v0 v3 128 slices_S2048x192_o0_128_S2048x64 (by omega) r h

end Attn.Proj

end
-- ==== Proof.ProjArrays.lean ====
/-
  The three arrays the projection region leaves.

  A grid point (b, i) of the projection region reads rows 2048 i … 2048 i + 2047 of batch b of x and the whole
  stacked weight matrix, and writes back three blocks: rows 2048 i … of batch b of the first and third outputs,
  columns 2048 i … of batch b of the second. Entry (0, r, h) of the first block is the inner product of row r of
  the block of x with row h of the weights; read at the array's own coordinates it is the inner product of row
  (b, 2048 i + r) of x with row h of the weights: every point writes back its block of ONE whole-array function, and
  the eight blocks cover the array, so the array ends holding that function. The same for the other two outputs,
  with weight rows 64 + h and 128 + h, the second with its last two coordinates exchanged.
-/
import proofs.«146672_j2980707303948_2_alg».proof.Proof.ProjRegionIdeal
import proofs.«146672_j2980707303948_2_alg».proof.Proof.Proj
import Idealize.ShloMosaic.Lib.Pipeline.Value
import Idealize.ShloMosaic.Lib.ValueIdx

noncomputable section

namespace Attn.ProjArr

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The whole-array functions -/

/-- Rows of x against weight rows 0–63. -/
def qArr (X : S4x4096x1024.Idx → EReal) (W : S192x1024.Idx → EReal) : S4x4096x64.Idx → EReal := fun i =>
  ∑ k : Fin 1024, X (@ix3 4 4096 1024 (i 0) (i 1) k)
    * W (@ix2 192 1024 ⟨(i 2).val, Nat.lt_of_lt_of_le (show (i 2).val < 64 from (i 2).isLt) (by norm_num)⟩ k)

theorem zero3 : (![0, 0, 0] : Fin 3 → Nat) = fun _ => 0 := funext fun a => by fin_cases a <;> rfl
theorem zero2 : (![0, 0] : Fin 2 → Nat) = fun _ => 0 := funext fun a => by fin_cases a <;> rfl

/-! ## The first output (window 2) -/

/-- One entry of the first payload, the two input blocks being read where the array's own coordinates say. -/
theorem q_point (x0 : Vec Ideal S1x2048x1024 .f32) (w0 : Vec Ideal S192x1024 .f32)
    (X : S4x4096x1024.Idx → EReal) (W : S192x1024.Idx → EReal) (r : Fin 2048) (h : Fin 64) (i : S4x4096x64.Idx)
    (hx : ∀ cc : Fin 1024, x0 (ix3 (0 : Fin 1) r cc) = X (@ix3 4 4096 1024 (i 0) (i 1) cc))
    (hw : ∀ (cc : Fin 1024) (h1 : h.val < 192) (h2 : (i 2).val < 192),
      w0 (@ix2 192 1024 ⟨h.val, h1⟩ cc) = W (@ix2 192 1024 ⟨(i 2).val, h2⟩ cc)) :
    k0_pay2 x0 w0 (ix3 (0 : Fin 1) r h) = qArr X W i := by
  refine (Attn.Proj.pay2_apply x0 w0 r h).trans ?_
  unfold qArr
  refine Finset.sum_congr rfl fun cc _ => ?_
  rw [hx cc, hw cc]

/-- The index maps of the windows, decided over the grid. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_1.index t (0 : Fin 2) = 0 ∧ win0_1.index t (1 : Fin 2) = 0
    ∧ win0_2.index t (2 : Fin 3) = 0 ∧ win0_2.index t (0 : Fin 3) ≤ 3 ∧ win0_2.index t (1 : Fin 3) ≤ 1 :=
  (by decide +kernel : ∀ t : Fin grid0.N, _)

/-- What point t writes back into the first output is its block of qArr of the arrays the region finds. -/
theorem flushed2_eq (V : (c : Dev nD) → (b : Ref sig .tc) → Buf (Elt Ideal) ((c : Thread nD τ).loc b))
    (c : Dev nD) (t : Fin cfg0.N) :
    (dat0 (F := Ideal) V c).flushed 2 t
      = ((cfg0.win 2).blk t).view.read (Elt Ideal) (qArr (V c main_arg0) (V c main_v0)) := by
  show (cfg0.win 2).cut (grid0.coords t) ((dat0 (F := Ideal) V c).after 2 t) = _
  rw [after0_2]
  unfold qOut
  rw [View.canon_unit_zero zero3]
  simp only [View.ld_unit_zero (S := S1x2048x1024) zero3, View.ld_unit_zero (S := S192x1024) zero2]
  obtain ⟨e0, e1, e2, e3, e4, e5, e6, e7⟩ := idx_facts t
  funext j
  obtain ⟨r, h, rfl⟩ : ∃ (r : Fin 2048) (h : Fin 64), j = ix3 (0 : Fin 1) r h := ⟨j 1, j 2, by
    funext a; match a with
    | ⟨0, _⟩ => exact Fin.ext (by have : (j 0).val < 1 := (j 0).isLt; show (j 0).val = 0; omega)
    | ⟨1, _⟩ => rfl
    | ⟨2, _⟩ => rfl⟩
  refine q_point (blk0 V c 0 t) (blk0 V c 1 t) (V c main_arg0) (V c main_v0) r h
    (((cfg0.win 2).blk t).view.emb (ix3 (0 : Fin 1) r h)) ?_ ?_
  · intro cc
    show V c main_arg0 (((cfg0.win 0).blk t).view.emb (ix3 (0 : Fin 1) r cc)) = V c main_arg0 _
    refine congrArg (V c main_arg0) (funext fun a => Fin.ext ?_)
    match a with
    | ⟨0, _⟩ =>
      show win0_0.index t (0 : Fin 3) * 1 + 1 * 0 = win0_2.index t (0 : Fin 3) * 1 + 1 * 0
      omega
    | ⟨1, _⟩ =>
      show win0_0.index t (1 : Fin 3) * 2048 + 1 * r.val = win0_2.index t (1 : Fin 3) * 2048 + 1 * r.val
      omega
    | ⟨2, _⟩ =>
      show win0_0.index t (2 : Fin 3) * 1024 + 1 * cc.val = cc.val
      omega
  · intro cc h1 h2
    show V c main_v0 (((cfg0.win 1).blk t).view.emb (@ix2 192 1024 ⟨h.val, h1⟩ cc)) = V c main_v0 _
    refine congrArg (V c main_v0) (funext fun a => Fin.ext ?_)
    match a with
    | ⟨0, _⟩ =>
      show win0_1.index t (0 : Fin 2) * 192 + 1 * h.val = win0_2.index t (2 : Fin 3) * 64 + 1 * h.val
      omega
    | ⟨1, _⟩ =>
      show win0_1.index t (1 : Fin 2) * 1024 + 1 * cc.val = cc.val
      omega

/-- An index of the first output is in point t's block iff each coordinate is in the block's range on its axis. -/
theorem mem_blk2 (t : Fin cfg0.N) (i : S4x4096x64.Idx) :
    i ∈ ((cfg0.win 2).blk t).view.set
      ↔ ∀ a : Fin 3, win0_2.index t a * S1x2048x64.size a ≤ (i a).val
          ∧ (i a).val < win0_2.index t a * S1x2048x64.size a + S1x2048x64.size a := by
  show i ∈ ((View.whole main_v1_0).slice (win0_2.rect t)).set ↔ _
  rw [View.set_slice_whole, Rect.mem_set_unit]
  exact Iff.rfl

/-- Every block (b, i) of the first output is some point's. -/
theorem idx_onto2 : ∀ (q0 : Fin 4) (q1 : Fin 2), ∃ t : Fin cfg0.N, win0_2.index t = ![q0.val, q1.val, 0] :=
  (by decide +kernel : ∀ (q0 : Fin 4) (q1 : Fin 2), ∃ t : Fin grid0.N, win0_2.index t = ![q0.val, q1.val, 0])

/-- Every index of the first output is in some point's block: row r of batch b in the block of point (b, r / 2048). -/
theorem cover2 (i : S4x4096x64.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 64 := (i 2).isLt
  obtain ⟨t, ht⟩ := idx_onto2 ⟨(i 0).val, hi0⟩ ⟨(i 1).val / 2048, by omega⟩
  have q0 : win0_2.index t (0 : Fin 3) = (i 0).val := congrFun ht 0
  have q1 : win0_2.index t (1 : Fin 3) = (i 1).val / 2048 := congrFun ht 1
  have q2 : win0_2.index t (2 : Fin 3) = 0 := congrFun ht 2
  refine ⟨t, flush0_2 t, ?_⟩
  rw [mem_blk2]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 2048 ≤ (i 1).val ∧ (i 1).val < win0_2.index t (1 : Fin 3) * 2048 + 2048
    omega
  | ⟨2, _⟩ =>
    show win0_2.index t (2 : Fin 3) * 64 ≤ (i 2).val ∧ (i 2).val < win0_2.index t (2 : Fin 3) * 64 + 64
    omega

/-- The first output after the region: qArr of x and the stacked weights as the region finds them. -/
theorem arr2 (V : (c : Dev nD) → (b : Ref sig .tc) → Buf (Elt Ideal) ((c : Thread nD τ).loc b)) (c : Dev nD) :
    (dat0 (F := Ideal) V c).arrAt 2 cfg0.N = qArr (V c main_arg0) (V c main_v0) :=
  (dat0 (F := Ideal) V c).arrAt_eq_of_cover 2 (qArr (V c main_arg0) (V c main_v0)) (fun t _ => flushed2_eq V c t) cover2

/-! ## The third output (window 4): the same blocks, weight rows 128–191 -/

/-- Rows of x against weight rows 128–191. -/
def vArr (X : S4x4096x1024.Idx → EReal) (W : S192x1024.Idx → EReal) : S4x4096x64.Idx → EReal := fun i =>
  ∑ k : Fin 1024, X (@ix3 4 4096 1024 (i 0) (i 1) k)
    * W (@ix2 192 1024 ⟨128 + (i 2).val, by have hi : (i 2).val < 64 := (i 2).isLt; omega⟩ k)

/-- One entry of the third payload, the two input blocks being read where the array's own coordinates say. -/
theorem v_point (x0 : Vec Ideal S1x2048x1024 .f32) (w0 : Vec Ideal S192x1024 .f32)
    (X : S4x4096x1024.Idx → EReal) (W : S192x1024.Idx → EReal) (r : Fin 2048) (h : Fin 64) (i : S4x4096x64.Idx)
    (hx : ∀ cc : Fin 1024, x0 (ix3 (0 : Fin 1) r cc) = X (@ix3 4 4096 1024 (i 0) (i 1) cc))
    (hw : ∀ (cc : Fin 1024) (h1 : 128 + h.val < 192) (h2 : 128 + (i 2).val < 192),
      w0 (@ix2 192 1024 ⟨128 + h.val, h1⟩ cc) = W (@ix2 192 1024 ⟨128 + (i 2).val, h2⟩ cc)) :
    k0_pay4 x0 w0 (ix3 (0 : Fin 1) r h) = vArr X W i := by
  refine (Attn.Proj.pay4_apply x0 w0 r h).trans ?_
  unfold vArr
  refine Finset.sum_congr rfl fun cc _ => ?_
  rw [hx cc, hw cc]

theorem idx_facts4 : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_1.index t (0 : Fin 2) = 0 ∧ win0_1.index t (1 : Fin 2) = 0
    ∧ win0_4.index t (2 : Fin 3) = 0 :=
  (by decide +kernel : ∀ t : Fin grid0.N, _)

theorem flushed4_eq (V : (c : Dev nD) → (b : Ref sig .tc) → Buf (Elt Ideal) ((c : Thread nD τ).loc b))
    (c : Dev nD) (t : Fin cfg0.N) :
    (dat0 (F := Ideal) V c).flushed 4 t
      = ((cfg0.win 4).blk t).view.read (Elt Ideal) (vArr (V c main_arg0) (V c main_v0)) := by
  show (cfg0.win 4).cut (grid0.coords t) ((dat0 (F := Ideal) V c).after 4 t) = _
  rw [after0_4]
  unfold vOut
  rw [View.canon_unit_zero zero3]
  simp only [View.ld_unit_zero (S := S1x2048x1024) zero3, View.ld_unit_zero (S := S192x1024) zero2]
  obtain ⟨e0, e1, e2, e3, e4, e5⟩ := idx_facts4 t
  funext j
  obtain ⟨r, h, rfl⟩ : ∃ (r : Fin 2048) (h : Fin 64), j = ix3 (0 : Fin 1) r h := ⟨j 1, j 2, by
    funext a; match a with
    | ⟨0, _⟩ => exact Fin.ext (by have : (j 0).val < 1 := (j 0).isLt; show (j 0).val = 0; omega)
    | ⟨1, _⟩ => rfl
    | ⟨2, _⟩ => rfl⟩
  refine v_point (blk0 V c 0 t) (blk0 V c 1 t) (V c main_arg0) (V c main_v0) r h
    (((cfg0.win 4).blk t).view.emb (ix3 (0 : Fin 1) r h)) ?_ ?_
  · intro cc
    show V c main_arg0 (((cfg0.win 0).blk t).view.emb (ix3 (0 : Fin 1) r cc)) = V c main_arg0 _
    refine congrArg (V c main_arg0) (funext fun a => Fin.ext ?_)
    match a with
    | ⟨0, _⟩ =>
      show win0_0.index t (0 : Fin 3) * 1 + 1 * 0 = win0_4.index t (0 : Fin 3) * 1 + 1 * 0
      omega
    | ⟨1, _⟩ =>
      show win0_0.index t (1 : Fin 3) * 2048 + 1 * r.val = win0_4.index t (1 : Fin 3) * 2048 + 1 * r.val
      omega
    | ⟨2, _⟩ =>
      show win0_0.index t (2 : Fin 3) * 1024 + 1 * cc.val = cc.val
      omega
  · intro cc h1 h2
    show V c main_v0 (((cfg0.win 1).blk t).view.emb (@ix2 192 1024 ⟨128 + h.val, h1⟩ cc)) = V c main_v0 _
    refine congrArg (V c main_v0) (funext fun a => Fin.ext ?_)
    match a with
    | ⟨0, _⟩ =>
      show win0_1.index t (0 : Fin 2) * 192 + 1 * (128 + h.val) = 128 + (win0_4.index t (2 : Fin 3) * 64 + 1 * h.val)
      omega
    | ⟨1, _⟩ =>
      show win0_1.index t (1 : Fin 2) * 1024 + 1 * cc.val = cc.val
      omega

theorem mem_blk4 (t : Fin cfg0.N) (i : S4x4096x64.Idx) :
    i ∈ ((cfg0.win 4).blk t).view.set
      ↔ ∀ a : Fin 3, win0_4.index t a * S1x2048x64.size a ≤ (i a).val
          ∧ (i a).val < win0_4.index t a * S1x2048x64.size a + S1x2048x64.size a := by
  show i ∈ ((View.whole main_v1_2).slice (win0_4.rect t)).set ↔ _
  rw [View.set_slice_whole, Rect.mem_set_unit]
  exact Iff.rfl

theorem idx_onto4 : ∀ (q0 : Fin 4) (q1 : Fin 2), ∃ t : Fin cfg0.N, win0_4.index t = ![q0.val, q1.val, 0] :=
  (by decide +kernel : ∀ (q0 : Fin 4) (q1 : Fin 2), ∃ t : Fin grid0.N, win0_4.index t = ![q0.val, q1.val, 0])

theorem cover4 (i : S4x4096x64.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 64 := (i 2).isLt
  obtain ⟨t, ht⟩ := idx_onto4 ⟨(i 0).val, hi0⟩ ⟨(i 1).val / 2048, by omega⟩
  have q0 : win0_4.index t (0 : Fin 3) = (i 0).val := congrFun ht 0
  have q1 : win0_4.index t (1 : Fin 3) = (i 1).val / 2048 := congrFun ht 1
  have q2 : win0_4.index t (2 : Fin 3) = 0 := congrFun ht 2
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 2048 ≤ (i 1).val ∧ (i 1).val < win0_4.index t (1 : Fin 3) * 2048 + 2048
    omega
  | ⟨2, _⟩ =>
    show win0_4.index t (2 : Fin 3) * 64 ≤ (i 2).val ∧ (i 2).val < win0_4.index t (2 : Fin 3) * 64 + 64
    omega

/-- The third output after the region: vArr of x and the stacked weights as the region finds them. -/
theorem arr4 (V : (c : Dev nD) → (b : Ref sig .tc) → Buf (Elt Ideal) ((c : Thread nD τ).loc b)) (c : Dev nD) :
    (dat0 (F := Ideal) V c).arrAt 4 cfg0.N = vArr (V c main_arg0) (V c main_v0) :=
  (dat0 (F := Ideal) V c).arrAt_eq_of_cover 4 (vArr (V c main_arg0) (V c main_v0)) (fun t _ => flushed4_eq V c t) cover4

/-! ## The second output (window 3): transposed blocks, weight rows 64–127 -/

/-- Weight rows 64–127 against rows of x, the row of x on the last axis. -/
def ktArr (X : S4x4096x1024.Idx → EReal) (W : S192x1024.Idx → EReal) : S4x64x4096.Idx → EReal := fun i =>
  ∑ k : Fin 1024, X (@ix3 4 4096 1024 (i 0) (i 2) k)
    * W (@ix2 192 1024 ⟨64 + (i 1).val, by have hi : (i 1).val < 64 := (i 1).isLt; omega⟩ k)

/-- One entry of the second payload, the two input blocks being read where the array's own coordinates say. -/
theorem kt_point (x0 : Vec Ideal S1x2048x1024 .f32) (w0 : Vec Ideal S192x1024 .f32)
    (X : S4x4096x1024.Idx → EReal) (W : S192x1024.Idx → EReal) (r : Fin 2048) (h : Fin 64) (i : S4x64x4096.Idx)
    (hx : ∀ cc : Fin 1024, x0 (ix3 (0 : Fin 1) r cc) = X (@ix3 4 4096 1024 (i 0) (i 2) cc))
    (hw : ∀ (cc : Fin 1024) (h1 : 64 + h.val < 192) (h2 : 64 + (i 1).val < 192),
      w0 (@ix2 192 1024 ⟨64 + h.val, h1⟩ cc) = W (@ix2 192 1024 ⟨64 + (i 1).val, h2⟩ cc)) :
    k0_pay3 x0 w0 (ix3 (0 : Fin 1) h r) = ktArr X W i := by
  refine (Attn.Proj.pay3_apply x0 w0 r h).trans ?_
  unfold ktArr
  refine Finset.sum_congr rfl fun cc _ => ?_
  rw [hx cc, hw cc]

theorem idx_facts3 : ∀ t : Fin cfg0.N,
    win0_0.index t (0 : Fin 3) = win0_3.index t (0 : Fin 3) ∧ win0_0.index t (1 : Fin 3) = win0_3.index t (2 : Fin 3)
    ∧ win0_0.index t (2 : Fin 3) = 0 ∧ win0_1.index t (0 : Fin 2) = 0 ∧ win0_1.index t (1 : Fin 2) = 0
    ∧ win0_3.index t (1 : Fin 3) = 0 :=
  (by decide +kernel : ∀ t : Fin grid0.N, _)

/-- What point t writes back into the second output is its block of ktArr of the arrays the region finds. -/
theorem flushed3_eq (V : (c : Dev nD) → (b : Ref sig .tc) → Buf (Elt Ideal) ((c : Thread nD τ).loc b))
    (c : Dev nD) (t : Fin cfg0.N) :
    (dat0 (F := Ideal) V c).flushed 3 t
      = ((cfg0.win 3).blk t).view.read (Elt Ideal) (ktArr (V c main_arg0) (V c main_v0)) := by
  show (cfg0.win 3).cut (grid0.coords t) ((dat0 (F := Ideal) V c).after 3 t) = _
  rw [after0_3]
  unfold ktOut
  rw [View.canon_unit_zero zero3]
  simp only [View.ld_unit_zero (S := S1x2048x1024) zero3, View.ld_unit_zero (S := S192x1024) zero2]
  obtain ⟨e0, e1, e2, e3, e4, e5⟩ := idx_facts3 t
  funext j
  obtain ⟨h, r, rfl⟩ : ∃ (h : Fin 64) (r : Fin 2048), j = ix3 (0 : Fin 1) h r := ⟨j 1, j 2, by
    funext a; match a with
    | ⟨0, _⟩ => exact Fin.ext (by have : (j 0).val < 1 := (j 0).isLt; show (j 0).val = 0; omega)
    | ⟨1, _⟩ => rfl
    | ⟨2, _⟩ => rfl⟩
  refine kt_point (blk0 V c 0 t) (blk0 V c 1 t) (V c main_arg0) (V c main_v0) r h
    (((cfg0.win 3).blk t).view.emb (ix3 (0 : Fin 1) h r)) ?_ ?_
  · intro cc
    show V c main_arg0 (((cfg0.win 0).blk t).view.emb (ix3 (0 : Fin 1) r cc)) = V c main_arg0 _
    refine congrArg (V c main_arg0) (funext fun a => Fin.ext ?_)
    match a with
    | ⟨0, _⟩ =>
      show win0_0.index t (0 : Fin 3) * 1 + 1 * 0 = win0_3.index t (0 : Fin 3) * 1 + 1 * 0
      omega
    | ⟨1, _⟩ =>
      show win0_0.index t (1 : Fin 3) * 2048 + 1 * r.val = win0_3.index t (2 : Fin 3) * 2048 + 1 * r.val
      omega
    | ⟨2, _⟩ =>
      show win0_0.index t (2 : Fin 3) * 1024 + 1 * cc.val = cc.val
      omega
  · intro cc h1 h2
    show V c main_v0 (((cfg0.win 1).blk t).view.emb (@ix2 192 1024 ⟨64 + h.val, h1⟩ cc)) = V c main_v0 _
    refine congrArg (V c main_v0) (funext fun a => Fin.ext ?_)
    match a with
    | ⟨0, _⟩ =>
      show win0_1.index t (0 : Fin 2) * 192 + 1 * (64 + h.val) = 64 + (win0_3.index t (1 : Fin 3) * 64 + 1 * h.val)
      omega
    | ⟨1, _⟩ =>
      show win0_1.index t (1 : Fin 2) * 1024 + 1 * cc.val = cc.val
      omega

theorem mem_blk3 (t : Fin cfg0.N) (i : S4x64x4096.Idx) :
    i ∈ ((cfg0.win 3).blk t).view.set
      ↔ ∀ a : Fin 3, win0_3.index t a * S1x64x2048.size a ≤ (i a).val
          ∧ (i a).val < win0_3.index t a * S1x64x2048.size a + S1x64x2048.size a := by
  show i ∈ ((View.whole main_v1_1).slice (win0_3.rect t)).set ↔ _
  rw [View.set_slice_whole, Rect.mem_set_unit]
  exact Iff.rfl

theorem idx_onto3 : ∀ (q0 : Fin 4) (q1 : Fin 2), ∃ t : Fin cfg0.N, win0_3.index t = ![q0.val, 0, q1.val] :=
  (by decide +kernel : ∀ (q0 : Fin 4) (q1 : Fin 2), ∃ t : Fin grid0.N, win0_3.index t = ![q0.val, 0, q1.val])

/-- Every index of the second output is in some point's block: column r of batch b in the block of point (b, r / 2048). -/
theorem cover3 (i : S4x64x4096.Idx) :
    ∃ t : Fin cfg0.N, (cfg0.win 3).flush t = true ∧ i ∈ ((cfg0.win 3).blk t).view.set := by
  have hi0 : (i 0).val < 4 := (i 0).isLt
  have hi1 : (i 1).val < 64 := (i 1).isLt
  have hi2 : (i 2).val < 4096 := (i 2).isLt
  obtain ⟨t, ht⟩ := idx_onto3 ⟨(i 0).val, hi0⟩ ⟨(i 2).val / 2048, by omega⟩
  have q0 : win0_3.index t (0 : Fin 3) = (i 0).val := congrFun ht 0
  have q1 : win0_3.index t (1 : Fin 3) = 0 := congrFun ht 1
  have q2 : win0_3.index t (2 : Fin 3) = (i 2).val / 2048 := congrFun ht 2
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 64 ≤ (i 1).val ∧ (i 1).val < win0_3.index t (1 : Fin 3) * 64 + 64
    omega
  | ⟨2, _⟩ =>
    show win0_3.index t (2 : Fin 3) * 2048 ≤ (i 2).val ∧ (i 2).val < win0_3.index t (2 : Fin 3) * 2048 + 2048
    omega

/-- The second output after the region: ktArr of x and the stacked weights as the region finds them. -/
theorem arr3 (V : (c : Dev nD) → (b : Ref sig .tc) → Buf (Elt Ideal) ((c : Thread nD τ).loc b)) (c : Dev nD) :
    (dat0 (F := Ideal) V c).arrAt 3 cfg0.N = ktArr (V c main_arg0) (V c main_v0) :=
  (dat0 (F := Ideal) V c).arrAt_eq_of_cover 3 (ktArr (V c main_arg0) (V c main_v0)) (fun t _ => flushed3_eq V c t) cover3

/-! ## The three functions at an index given by its coordinates -/

theorem qArr_apply (X : S4x4096x1024.Idx → EReal) (W : S192x1024.Idx → EReal) (b : Fin 4) (t : Fin 4096) (h : Fin 64) :
    qArr X W (ix3 b t h)
      = ∑ k : Fin 1024, X (ix3 b t k) * W (@ix2 192 1024 ⟨h.val, by have hh : h.val < 64 := h.isLt; omega⟩ k) := rfl

theorem ktArr_apply (X : S4x4096x1024.Idx → EReal) (W : S192x1024.Idx → EReal) (b : Fin 4) (h : Fin 64) (t : Fin 4096) :
    ktArr X W (ix3 b h t)
      = ∑ k : Fin 1024, X (ix3 b t k) * W (@ix2 192 1024 ⟨64 + h.val, by have hh : h.val < 64 := h.isLt; omega⟩ k) := rfl

theorem vArr_apply (X : S4x4096x1024.Idx → EReal) (W : S192x1024.Idx → EReal) (b : Fin 4) (t : Fin 4096) (h : Fin 64) :
    vArr X W (ix3 b t h)
      = ∑ k : Fin 1024, X (ix3 b t k) * W (@ix2 192 1024 ⟨128 + h.val, by have hh : h.val < 64 := h.isLt; omega⟩ k) := rfl

end Attn.ProjArr

end
-- ==== Proof.Stacked.lean ====
/-
  The stacked weights.

  Before its two kernels the program lays the three weight matrices one above the other, in the order
  query, key, value, into one array of 192 rows: rows 0..63 are the query weights, rows 64..127 the key
  weights, rows 128..191 the value weights. Nothing else is written by that step.
-/
import proofs.«146672_j2980707303948_2_alg».proof.Proof.Gen.KernelIdeal.Regions
import Idealize.ShloMosaic.Lib.Pipeline.Value
import Idealize.ShloMosaic.Lib.ValueIdx

noncomputable section

namespace Attn.Stacked

open Idealize.ShloMosaic Idealize.ShloMosaic.ValueIdx Idealize.SL.Sem Cert.KernelIdeal Cert.KernelIdeal.Gen

section Pieces
variable {α : Type} (x0 x1 x2 : S64x1024.Idx → α)
  (hc : Shape.Concatenates [S64x1024, S64x1024, S64x1024] S192x1024 0)

/-- Row h of three 64-row pieces laid one above the other is row h of the first. -/
theorem rows_first (h : Fin 64) (k : Fin 1024) :
    concatenate S192x1024 0 [⟨S64x1024, x0⟩, ⟨S64x1024, x1⟩, ⟨S64x1024, x2⟩] hc
        (ix2 (⟨h.val, by have := h.isLt; omega⟩ : Fin 192) k) = x0 (ix2 h k) := by
  refine concatenate_apply_piece (t := S192x1024) 0 [⟨S64x1024, x0⟩, ⟨S64x1024, x1⟩, ⟨S64x1024, x2⟩] hc _ 0 (by show 0 < 3; omega) S64x1024 x0 rfl rfl 0 rfl (ix2 h k) (fun b hb => ?_) ?_
  · match b, hb with
    | ⟨0, _⟩, hb => exact absurd rfl hb
    | ⟨1, _⟩, _ => rfl
  · show 0 + h.val = h.val
    omega

/-- Row 64 + h is row h of the second piece. -/
theorem rows_second (h : Fin 64) (k : Fin 1024) :
    concatenate S192x1024 0 [⟨S64x1024, x0⟩, ⟨S64x1024, x1⟩, ⟨S64x1024, x2⟩] hc
        (ix2 (⟨64 + h.val, by have := h.isLt; omega⟩ : Fin 192) k) = x1 (ix2 h k) := by
  refine concatenate_apply_piece (t := S192x1024) 0 [⟨S64x1024, x0⟩, ⟨S64x1024, x1⟩, ⟨S64x1024, x2⟩] hc _ 1 (by show 1 < 3; omega) S64x1024 x1 rfl rfl 64 rfl (ix2 h k) (fun b hb => ?_) ?_
  · match b, hb with
    | ⟨0, _⟩, hb => exact absurd rfl hb
    | ⟨1, _⟩, _ => rfl
  · rfl

/-- Row 128 + h is row h of the third piece. -/
theorem rows_third (h : Fin 64) (k : Fin 1024) :
    concatenate S192x1024 0 [⟨S64x1024, x0⟩, ⟨S64x1024, x1⟩, ⟨S64x1024, x2⟩] hc
        (ix2 (⟨128 + h.val, by have := h.isLt; omega⟩ : Fin 192) k) = x2 (ix2 h k) := by
  refine concatenate_apply_piece (t := S192x1024) 0 [⟨S64x1024, x0⟩, ⟨S64x1024, x1⟩, ⟨S64x1024, x2⟩] hc _ 2 (by show 2 < 3; omega) S64x1024 x2 rfl rfl 128 rfl (ix2 h k) (fun b hb => ?_) ?_
  · match b, hb with
    | ⟨0, _⟩, hb => exact absurd rfl hb
    | ⟨1, _⟩, _ => rfl
  · rfl

end Pieces

variable (m : (ℓ : Loc nD τ sig) → Buf (Elt Ideal) ℓ) (c : Dev nD)

/-- The stacked array is the three weight matrices laid one above the other: query, key, value. -/
theorem stacked_eq :
    (StableHlo.after (hostOps0 (F := Ideal)) (fun b => m (c, b)) (Proc.devRef .tc main_v0) : S192x1024.Idx → EReal)
      = concatenate S192x1024 0
          [⟨S64x1024, m ((c.tc : Thread nD τ).loc main_arg2)⟩, ⟨S64x1024, m ((c.tc : Thread nD τ).loc main_arg1)⟩,
            ⟨S64x1024, m ((c.tc : Thread nD τ).loc main_arg3)⟩]
          concatenates_S64x1024_S64x1024_S64x1024_S192x1024_d0 := by
  after_results
  rfl

/-- Rows 0..63 of the stacked array are the query weights. -/
theorem stacked_q (h : Fin 64) (k : Fin 1024) :
    (StableHlo.after (hostOps0 (F := Ideal)) (fun b => m (c, b)) (Proc.devRef .tc main_v0) : S192x1024.Idx → EReal)
        (ix2 (⟨h.val, by have := h.isLt; omega⟩ : Fin 192) k)
      = (m ((c.tc : Thread nD τ).loc main_arg2) : S64x1024.Idx → EReal) (ix2 h k) := by
  rw [stacked_eq m c]
  exact rows_first _ _ _ _ h k

/-- Rows 64..127 of the stacked array are the key weights. -/
theorem stacked_k (h : Fin 64) (k : Fin 1024) :
    (StableHlo.after (hostOps0 (F := Ideal)) (fun b => m (c, b)) (Proc.devRef .tc main_v0) : S192x1024.Idx → EReal)
        (ix2 (⟨64 + h.val, by have := h.isLt; omega⟩ : Fin 192) k)
      = (m ((c.tc : Thread nD τ).loc main_arg1) : S64x1024.Idx → EReal) (ix2 h k) := by
  rw [stacked_eq m c]
  exact rows_second _ _ _ _ h k

/-- Rows 128..191 of the stacked array are the value weights. -/
theorem stacked_v (h : Fin 64) (k : Fin 1024) :
    (StableHlo.after (hostOps0 (F := Ideal)) (fun b => m (c, b)) (Proc.devRef .tc main_v0) : S192x1024.Idx → EReal)
        (ix2 (⟨128 + h.val, by have := h.isLt; omega⟩ : Fin 192) k)
      = (m ((c.tc : Thread nD τ).loc main_arg3) : S64x1024.Idx → EReal) (ix2 h k) := by
  rw [stacked_eq m c]
  exact rows_third _ _ _ _ h k

/-- A launch buffer named through its core and reference is the buffer at the core's location. -/
theorem loc_eq (r : Ref sig .tc) : m (c, Proc.devRef .tc r) = m ((c.tc : Thread nD τ).loc r) := rfl

/-- The stacking step leaves the four argument arrays as they were. -/
theorem after_arg0 :
    StableHlo.after (hostOps0 (F := Ideal)) (fun b => m (c, b)) (Proc.devRef .tc main_arg0)
      = m ((c.tc : Thread nD τ).loc main_arg0) :=
  StableHlo.after_of_writes_sub hostOps0 _ hostOps0_writes (by decide)

theorem after_arg1 :
    StableHlo.after (hostOps0 (F := Ideal)) (fun b => m (c, b)) (Proc.devRef .tc main_arg1)
      = m ((c.tc : Thread nD τ).loc main_arg1) :=
  StableHlo.after_of_writes_sub hostOps0 _ hostOps0_writes (by decide)

theorem after_arg2 :
    StableHlo.after (hostOps0 (F := Ideal)) (fun b => m (c, b)) (Proc.devRef .tc main_arg2)
      = m ((c.tc : Thread nD τ).loc main_arg2) :=
  StableHlo.after_of_writes_sub hostOps0 _ hostOps0_writes (by decide)

theorem after_arg3 :
    StableHlo.after (hostOps0 (F := Ideal)) (fun b => m (c, b)) (Proc.devRef .tc main_arg3)
      = m ((c.tc : Thread nD τ).loc main_arg3) :=
  StableHlo.after_of_writes_sub hostOps0 _ hostOps0_writes (by decide)

end Attn.Stacked

end
-- ==== Proof.LibOnlineSoftmax.lean ====
/-
  The online softmax. A row of scores is met block by block; a running shift `m`, a running denominator `l` and a
  running weighted sum `a` are kept, each rescaled by `exp (m_old - m_new)` when the shift moves. After the last
  block `a / l` is the softmax-weighted sum of the whole row, whatever finite shifts were used on the way and
  whatever finite shift the one-pass softmax uses. Stated on the extended reals with the ideal `exp` and `div`,
  the start being shift `⊥`, denominator `0`, sum `0` (so the first rescaling factor is `exp ⊥ = 0`).
-/
import Idealize.ShloMosaic.PureOps.Ideal

noncomputable section

namespace OnlineSoftmax

open Idealize.ShloMosaic

variable {w : ℕ}

/-- The running shift after `j` blocks: `⊥`, then the maximum with each block's own shift `bm j`. -/
def m (bm : ℕ → ℝ) : ℕ → EReal
  | 0 => ⊥
  | j + 1 => max (m bm j) ((bm j : ℝ) : EReal)

/-- The running denominator after `j` blocks. -/
def l (s : ℕ → Fin w → ℝ) (bm : ℕ → ℝ) : ℕ → EReal
  | 0 => 0
  | j + 1 => Ideal.exp (m bm j - m bm (j + 1)) * l s bm j + ∑ k : Fin w, Ideal.exp (((s j k : ℝ) : EReal) - m bm (j + 1))

/-- The running weighted sum after `j` blocks. -/
def a (s v : ℕ → Fin w → ℝ) (bm : ℕ → ℝ) : ℕ → EReal
  | 0 => 0
  | j + 1 => Ideal.exp (m bm j - m bm (j + 1)) * a s v bm j
      + ∑ k : Fin w, Ideal.exp (((s j k : ℝ) : EReal) - m bm (j + 1)) * ((v j k : ℝ) : EReal)

/-! ### Coercions of finite real sums -/

/-- The coercion of a finite real sum is the sum of the coercions. -/
theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert i t hi ih => rw [Finset.sum_insert hi, Finset.sum_insert hi, EReal.coe_add, ih]

/-- One block's sum of ideal exponentials at a real shift, weighted by reals, is the coercion of the real sum. -/
theorem block_coe (x c : Fin w → ℝ) (μ : ℝ) :
    ∑ k : Fin w, Ideal.exp (((x k : ℝ) : EReal) - (μ : EReal)) * ((c k : ℝ) : EReal)
      = ((∑ k : Fin w, Real.exp (x k - μ) * c k : ℝ) : EReal) := by
  rw [coe_sum]
  refine Finset.sum_congr rfl fun k _ => ?_
  rw [← EReal.coe_sub, Ideal.exp_coe, EReal.coe_mul]

/-! ### The running shift is real after the first block -/

theorem m_real (bm : ℕ → ℝ) (j : ℕ) : ∃ μ : ℝ, m bm (j + 1) = (μ : EReal) := by
  induction j with
  | zero => exact ⟨bm 0, by simp [m]⟩
  | succ j ih =>
    obtain ⟨μ, hμ⟩ := ih
    refine ⟨max μ (bm (j + 1)), ?_⟩
    show max (m bm (j + 1)) ((bm (j + 1) : ℝ) : EReal) = _
    rw [hμ]
    exact (EReal.coe_strictMono.monotone.map_max).symm

/-! ### Moving the shift of a real exponential sum: `e^(μ-μ') · Σ e^(s-μ) c = Σ e^(s-μ') c` -/

theorem rescale (s c : ℕ → Fin w → ℝ) (t : Finset ℕ) (μ μ' : ℝ) :
    Real.exp (μ - μ') * ∑ i ∈ t, ∑ k : Fin w, Real.exp (s i k - μ) * c i k
      = ∑ i ∈ t, ∑ k : Fin w, Real.exp (s i k - μ') * c i k := by
  rw [Finset.mul_sum]
  refine Finset.sum_congr rfl fun i _ => ?_
  rw [Finset.mul_sum]
  refine Finset.sum_congr rfl fun k _ => ?_
  rw [← mul_assoc, ← Real.exp_add]
  have h : μ - μ' + (s i k - μ) = s i k - μ' := by ring
  rw [h]

/-! ### Closed forms -/

/-- The denominator is the weighted sum with every weight one. -/
theorem l_eq_a (s : ℕ → Fin w → ℝ) (bm : ℕ → ℝ) (j : ℕ) :
    l s bm j = a s (fun _ _ => 1) bm j := by
  induction j with
  | zero => rfl
  | succ j ih => simp only [l, a, ih, EReal.coe_one, mul_one]

/-- After `j + 1` blocks, the running shift being the real `μ`, the weighted sum is the real
    `Σ e^(s-μ) v` over the blocks met. -/
theorem a_closed (s v : ℕ → Fin w → ℝ) (bm : ℕ → ℝ) (j : ℕ) :
    ∀ μ : ℝ, m bm (j + 1) = (μ : EReal) →
      a s v bm (j + 1)
        = ((∑ i ∈ Finset.range (j + 1), ∑ k : Fin w, Real.exp (s i k - μ) * v i k : ℝ) : EReal) := by
  induction j with
  | zero =>
    intro μ hμ
    show Ideal.exp (m bm 0 - m bm 1) * (0 : EReal)
        + ∑ k : Fin w, Ideal.exp (((s 0 k : ℝ) : EReal) - m bm 1) * ((v 0 k : ℝ) : EReal) = _
    rw [hμ, mul_zero, zero_add, Finset.sum_range_one, block_coe]
  | succ j ih =>
    intro μ' hμ'
    obtain ⟨μ, hμ⟩ := m_real bm j
    show Ideal.exp (m bm (j + 1) - m bm (j + 1 + 1)) * a s v bm (j + 1)
        + ∑ k : Fin w, Ideal.exp (((s (j + 1) k : ℝ) : EReal) - m bm (j + 1 + 1)) * ((v (j + 1) k : ℝ) : EReal) = _
    rw [ih μ hμ, hμ, hμ', ← EReal.coe_sub, Ideal.exp_coe, ← EReal.coe_mul, block_coe, ← EReal.coe_add,
      rescale, Finset.sum_range_succ _ (j + 1)]

/-! ### Positivity of the denominators -/

theorem sum_exp_pos [NeZero w] (s : ℕ → Fin w → ℝ) (j : ℕ) (μ : ℝ) :
    0 < ∑ i ∈ Finset.range (j + 1), ∑ k : Fin w, Real.exp (s i k - μ) := by
  apply Finset.sum_pos
  · intro i _
    apply Finset.sum_pos
    · intro k _
      exact Real.exp_pos _
    · exact Finset.univ_nonempty
  · exact ⟨0, Finset.mem_range.mpr (Nat.succ_pos j)⟩

/-! ### The quotient over the reals does not depend on the shift -/

theorem real_quot [NeZero w] (s v : ℕ → Fin w → ℝ) (j : ℕ) (μ M : ℝ) :
    (∑ i ∈ Finset.range (j + 1), ∑ k : Fin w, Real.exp (s i k - μ) * v i k)
        * (1 / ∑ i ∈ Finset.range (j + 1), ∑ k : Fin w, Real.exp (s i k - μ))
      = ∑ i ∈ Finset.range (j + 1), ∑ k : Fin w,
          Real.exp (s i k - M) * (1 / ∑ i' ∈ Finset.range (j + 1), ∑ k' : Fin w, Real.exp (s i' k' - M)) * v i k := by
  have hZ : 0 < ∑ i' ∈ Finset.range (j + 1), ∑ k' : Fin w, Real.exp (s i' k' - M) := sum_exp_pos s j M
  have hE : 0 < Real.exp (M - μ) := Real.exp_pos _
  have hA := rescale s v (Finset.range (j + 1)) M μ
  have hL := rescale s (fun _ _ => 1) (Finset.range (j + 1)) M μ
  simp only [mul_one] at hL
  rw [← hA, ← hL]
  generalize (∑ i' ∈ Finset.range (j + 1), ∑ k' : Fin w, Real.exp (s i' k' - M)) = Z at hZ ⊢
  have hR : ∑ i ∈ Finset.range (j + 1), ∑ k : Fin w, Real.exp (s i k - M) * (1 / Z) * v i k
      = (∑ i ∈ Finset.range (j + 1), ∑ k : Fin w, Real.exp (s i k - M) * v i k) * (1 / Z) := by
    rw [Finset.sum_mul]
    refine Finset.sum_congr rfl fun i _ => ?_
    rw [Finset.sum_mul]
    refine Finset.sum_congr rfl fun k _ => ?_
    ring
  rw [hR]
  field_simp

/-- After `n ≥ 1` blocks of positive width the quotient is the one-pass softmax-weighted sum at any finite shift `M`. -/
theorem final [NeZero w] (n : ℕ) (hn : 0 < n) (s v : ℕ → Fin w → ℝ) (bm : ℕ → ℝ) (M : ℝ) :
    Ideal.div (a s v bm n) (l s bm n)
      = ∑ j ∈ Finset.range n, ∑ k : Fin w,
          Ideal.div (Ideal.exp (((s j k : ℝ) : EReal) - (M : EReal)))
              (∑ j' ∈ Finset.range n, ∑ k' : Fin w, Ideal.exp (((s j' k' : ℝ) : EReal) - (M : EReal)))
            * ((v j k : ℝ) : EReal) := by
  obtain ⟨j, rfl⟩ : ∃ j, n = j + 1 := ⟨n - 1, by omega⟩
  obtain ⟨μ, hμ⟩ := m_real bm j
  have hL : 0 < ∑ i ∈ Finset.range (j + 1), ∑ k : Fin w, Real.exp (s i k - μ) := sum_exp_pos s j μ
  have hZ : 0 < ∑ i ∈ Finset.range (j + 1), ∑ k : Fin w, Real.exp (s i k - M) := sum_exp_pos s j M
  have hden : (∑ j' ∈ Finset.range (j + 1), ∑ k' : Fin w, Ideal.exp (((s j' k' : ℝ) : EReal) - (M : EReal)))
      = ((∑ i ∈ Finset.range (j + 1), ∑ k : Fin w, Real.exp (s i k - M) : ℝ) : EReal) := by
    rw [coe_sum]
    refine Finset.sum_congr rfl fun i _ => ?_
    rw [coe_sum]
    refine Finset.sum_congr rfl fun k _ => ?_
    rw [← EReal.coe_sub, Ideal.exp_coe]
  have hl := a_closed s (fun _ _ => 1) bm j μ hμ
  simp only [mul_one] at hl
  rw [l_eq_a, hl, a_closed s v bm j μ hμ, hden, Ideal.div_coe hL.ne', ← EReal.coe_mul, real_quot s v j μ M, coe_sum]
  refine Finset.sum_congr rfl fun i _ => ?_
  rw [coe_sum]
  refine Finset.sum_congr rfl fun k _ => ?_
  rw [Ideal.div_coe hZ.ne', ← EReal.coe_sub, Ideal.exp_coe, EReal.coe_mul, EReal.coe_mul]

end OnlineSoftmax

end
-- ==== Proof.LibOnlineE.lean ====
/-
  The online softmax recurrence with extended-real data: the running shift, denominator and weighted sum of
  LibOnlineSoftmax, the blocks' scores, values and shifts being extended reals. Where the data are coercions of real
  data, the three running quantities are those of the real recurrence.
-/
import proofs.«146672_j2980707303948_2_alg».proof.Proof.LibOnlineSoftmax

noncomputable section

namespace OnlineE

open Idealize.ShloMosaic

variable {w : ℕ}

/-- The running shift after `j` blocks: minus infinity, then the maximum with each block's own shift. -/
def mE (bmE : ℕ → EReal) : ℕ → EReal
  | 0 => ⊥
  | j + 1 => max (mE bmE j) (bmE j)

/-- The running denominator after `j` blocks. -/
def lE (sE : ℕ → Fin w → EReal) (bmE : ℕ → EReal) : ℕ → EReal
  | 0 => 0
  | j + 1 => Ideal.exp (mE bmE j - mE bmE (j + 1)) * lE sE bmE j + ∑ k : Fin w, Ideal.exp (sE j k - mE bmE (j + 1))

/-- The running weighted sum after `j` blocks. -/
def aE (sE vE : ℕ → Fin w → EReal) (bmE : ℕ → EReal) : ℕ → EReal
  | 0 => 0
  | j + 1 => Ideal.exp (mE bmE j - mE bmE (j + 1)) * aE sE vE bmE j
      + ∑ k : Fin w, Ideal.exp (sE j k - mE bmE (j + 1)) * vE j k

theorem mE_zero (bmE : ℕ → EReal) : mE bmE 0 = ⊥ := rfl
theorem mE_succ (bmE : ℕ → EReal) (j : ℕ) : mE bmE (j + 1) = max (mE bmE j) (bmE j) := rfl
theorem lE_zero (sE : ℕ → Fin w → EReal) (bmE : ℕ → EReal) : lE sE bmE 0 = 0 := rfl
theorem lE_succ (sE : ℕ → Fin w → EReal) (bmE : ℕ → EReal) (j : ℕ) :
    lE sE bmE (j + 1)
      = Ideal.exp (mE bmE j - mE bmE (j + 1)) * lE sE bmE j + ∑ k : Fin w, Ideal.exp (sE j k - mE bmE (j + 1)) := rfl
theorem aE_zero (sE vE : ℕ → Fin w → EReal) (bmE : ℕ → EReal) : aE sE vE bmE 0 = 0 := rfl
theorem aE_succ (sE vE : ℕ → Fin w → EReal) (bmE : ℕ → EReal) (j : ℕ) :
    aE sE vE bmE (j + 1)
      = Ideal.exp (mE bmE j - mE bmE (j + 1)) * aE sE vE bmE j
        + ∑ k : Fin w, Ideal.exp (sE j k - mE bmE (j + 1)) * vE j k := rfl

/-- With real block shifts the running shift is the real recurrence's. -/
theorem mE_eq (bm : ℕ → ℝ) (bmE : ℕ → EReal) (n : ℕ) (hb : ∀ j, j < n → bmE j = ((bm j : ℝ) : EReal)) :
    mE bmE n = OnlineSoftmax.m bm n := by
  induction n with
  | zero => rfl
  | succ n ih =>
    show max (mE bmE n) (bmE n) = max (OnlineSoftmax.m bm n) ((bm n : ℝ) : EReal)
    rw [ih fun j hj => hb j (Nat.lt_succ_of_lt hj), hb n (Nat.lt_succ_self n)]

/-- With real scores and block shifts the running denominator is the real recurrence's. -/
theorem lE_eq (s : ℕ → Fin w → ℝ) (bm : ℕ → ℝ) (sE : ℕ → Fin w → EReal) (bmE : ℕ → EReal) (n : ℕ)
    (hs : ∀ j, j < n → ∀ k, sE j k = ((s j k : ℝ) : EReal)) (hb : ∀ j, j < n → bmE j = ((bm j : ℝ) : EReal)) :
    lE sE bmE n = OnlineSoftmax.l s bm n := by
  induction n with
  | zero => rfl
  | succ n ih =>
    show Ideal.exp (mE bmE n - mE bmE (n + 1)) * lE sE bmE n + ∑ k : Fin w, Ideal.exp (sE n k - mE bmE (n + 1))
      = Ideal.exp (OnlineSoftmax.m bm n - OnlineSoftmax.m bm (n + 1)) * OnlineSoftmax.l s bm n
        + ∑ k : Fin w, Ideal.exp (((s n k : ℝ) : EReal) - OnlineSoftmax.m bm (n + 1))
    rw [ih (fun j hj => hs j (Nat.lt_succ_of_lt hj)) (fun j hj => hb j (Nat.lt_succ_of_lt hj)),
      mE_eq bm bmE n (fun j hj => hb j (Nat.lt_succ_of_lt hj)), mE_eq bm bmE (n + 1) hb]
    refine congrArg (_ + ·) (Finset.sum_congr rfl fun k _ => ?_)
    rw [hs n (Nat.lt_succ_self n) k]

/-- With real scores, values and block shifts the running weighted sum is the real recurrence's. -/
theorem aE_eq (s v : ℕ → Fin w → ℝ) (bm : ℕ → ℝ) (sE vE : ℕ → Fin w → EReal) (bmE : ℕ → EReal) (n : ℕ)
    (hs : ∀ j, j < n → ∀ k, sE j k = ((s j k : ℝ) : EReal)) (hv : ∀ j, j < n → ∀ k, vE j k = ((v j k : ℝ) : EReal))
    (hb : ∀ j, j < n → bmE j = ((bm j : ℝ) : EReal)) :
    aE sE vE bmE n = OnlineSoftmax.a s v bm n := by
  induction n with
  | zero => rfl
  | succ n ih =>
    show Ideal.exp (mE bmE n - mE bmE (n + 1)) * aE sE vE bmE n
        + ∑ k : Fin w, Ideal.exp (sE n k - mE bmE (n + 1)) * vE n k
      = Ideal.exp (OnlineSoftmax.m bm n - OnlineSoftmax.m bm (n + 1)) * OnlineSoftmax.a s v bm n
        + ∑ k : Fin w, Ideal.exp (((s n k : ℝ) : EReal) - OnlineSoftmax.m bm (n + 1)) * ((v n k : ℝ) : EReal)
    rw [ih (fun j hj => hs j (Nat.lt_succ_of_lt hj)) (fun j hj => hv j (Nat.lt_succ_of_lt hj))
        (fun j hj => hb j (Nat.lt_succ_of_lt hj)),
      mE_eq bm bmE n (fun j hj => hb j (Nat.lt_succ_of_lt hj)), mE_eq bm bmE (n + 1) hb]
    refine congrArg (_ + ·) (Finset.sum_congr rfl fun k _ => ?_)
    rw [hs n (Nat.lt_succ_self n) k, hv n (Nat.lt_succ_self n) k]

end OnlineE

end
-- ==== Proof.Spec.lean ====
/-
  One attention head on the extended reals, written twice.

  The data: x of shape [4, 4096, 1024] and three weight matrices of shape [64, 1024]. Row (b, t) of x is
  projected against the rows of a weight matrix (`proj`); the score of query row t against key row u is the
  inner product of their projections over the 64 head coordinates, times the scale 1/8 (`score`).

  `onePass` is the softmax-weighted sum in one pass: every score of a row is shifted by the row's maximum,
  exponentiated, divided by the sum of the row's exponentials, and the quotients weight the value projections.

  `blockwise` meets a row's 4096 scores in four blocks of 1024 and keeps a running shift, a running denominator
  and a running weighted sum, each rescaled when the shift moves (the recurrence of the online softmax, with
  start shift minus infinity, denominator zero, sum zero); the result is the final sum over the final denominator.
-/
import Idealize.ShloMosaic.PureOps.Ideal
import Idealize.ShloMosaic.PureOps.Ideal.Laws
import Idealize.ShloMosaic.Lib.ValueIdx
import proofs.«146672_j2980707303948_2_alg».proof.Proof.LibOnlineE

noncomputable section

namespace Attn

open Idealize.ShloMosaic Idealize.ShloMosaic.ValueIdx

abbrev SX : Shape := ⟨3, ![4, 4096, 1024]⟩
abbrev SW : Shape := ⟨2, ![64, 1024]⟩
abbrev SO : Shape := ⟨3, ![4, 4096, 64]⟩
abbrev SKT : Shape := ⟨3, ![4, 64, 4096]⟩

/-- The scale 1/8, as both programs spell it. -/
def scale : EReal := Ideal.ofBits .f32 0x3E000000#32

/-- Minus infinity, as both programs spell the start of a maximum. -/
def negInf : EReal := Ideal.ofBits .f32 0xFF800000#32

theorem negInf_eq : negInf = ⊥ := by simp [negInf, Ideal.ofBits, Ideal.ieee]

/-- Row (b, t) of x against row h of a weight matrix. -/
def proj (x : SX.Idx → EReal) (W : SW.Idx → EReal) (b : Fin 4) (t : Fin 4096) (h : Fin 64) : EReal :=
  ∑ c : Fin 1024, x (ix3 b t c) * W (ix2 h c)

/-- The scaled score of query row t against key row u of batch b. -/
def score (x : SX.Idx → EReal) (Wk Wq : SW.Idx → EReal) (b : Fin 4) (t u : Fin 4096) : EReal :=
  (∑ h : Fin 64, proj x Wq b t h * proj x Wk b u h) * scale

/-- The maximum of a row of scores, folded from minus infinity. -/
def rowMax (x : SX.Idx → EReal) (Wk Wq : SW.Idx → EReal) (b : Fin 4) (t : Fin 4096) : EReal :=
  (Finset.univ : Finset (Fin 4096)).fold max negInf fun u => score x Wk Wq b t u

/-- The one-pass softmax-weighted sum of the value projections. -/
def onePass (x : SX.Idx → EReal) (Wk Wq Wv : SW.Idx → EReal) : SO.Idx → EReal := fun i =>
  ∑ u : Fin 4096,
    Ideal.div (Ideal.exp (score x Wk Wq (i 0) (i 1) u - max negInf (rowMax x Wk Wq (i 0) (i 1))))
        (∑ u' : Fin 4096, Ideal.exp (score x Wk Wq (i 0) (i 1) u' - max negInf (rowMax x Wk Wq (i 0) (i 1))))
      * proj x Wv (i 0) u (i 2)

/-- Entry u of block j of a row of 4096: position 1024 j + u (position 0 past the end, never read for j < 4). -/
def at4 (j : ℕ) (u : Fin 1024) : Fin 4096 := if h : 1024 * j + u.val < 4096 then ⟨1024 * j + u.val, h⟩ else 0

/-- Block j of the scores of row (b, t). -/
def sBlk (x : SX.Idx → EReal) (Wk Wq : SW.Idx → EReal) (b : Fin 4) (t : Fin 4096) (j : ℕ) (u : Fin 1024) : EReal :=
  score x Wk Wq b t (at4 j u)

/-- Block j of column h of the value projections of batch b. -/
def vBlk (x : SX.Idx → EReal) (Wv : SW.Idx → EReal) (b : Fin 4) (h : Fin 64) (j : ℕ) (u : Fin 1024) : EReal :=
  proj x Wv b (at4 j u) h

/-- The maximum of block j of the scores of row (b, t), folded from minus infinity. -/
def bMax (x : SX.Idx → EReal) (Wk Wq : SW.Idx → EReal) (b : Fin 4) (t : Fin 4096) (j : ℕ) : EReal :=
  (Finset.univ : Finset (Fin 1024)).fold max negInf fun u => sBlk x Wk Wq b t j u

/-- The blockwise (online) softmax-weighted sum: four blocks of 1024, final sum over final denominator. -/
def blockwise (x : SX.Idx → EReal) (Wk Wq Wv : SW.Idx → EReal) : SO.Idx → EReal := fun i =>
  Ideal.div
    (OnlineE.aE (sBlk x Wk Wq (i 0) (i 1)) (vBlk x Wv (i 0) (i 2)) (bMax x Wk Wq (i 0) (i 1)) 4)
    (OnlineE.lE (sBlk x Wk Wq (i 0) (i 1)) (bMax x Wk Wq (i 0) (i 1)) 4)

/-- Every entry of an array is a real number. -/
def AllReal {s : Shape} (f : s.Idx → EReal) : Prop := ∀ i, ∃ r : ℝ, f i = (r : EReal)

end Attn

end
-- ==== Proof.AttnForms.lean ====
/-
  The attention region's result as a function of the three arrays it finds: a query array Q and a value array Vv of
  shape [4, 4096, 64] and a transposed key array KT of shape [4, 64, 4096]. Entry (b, t, h) is the online-softmax
  quotient over four blocks of 1024 keys, the scores of row (b, t) being the inner products of row (b, t) of Q with
  the columns of KT times the scale, the values column h of Vv. When the three arrays are the projections of x by
  the three weight matrices, this is the specification's blockwise form.
-/
import proofs.«146672_j2980707303948_2_alg».proof.Proof.Spec

noncomputable section

namespace Attn

open Idealize.ShloMosaic Idealize.ShloMosaic.ValueIdx

/-- Block j of the scaled scores of query row (b, t). -/
def sOf (Q : SO.Idx → EReal) (KT : SKT.Idx → EReal) (b : Fin 4) (t : Fin 4096) (j : ℕ) (u : Fin 1024) : EReal :=
  (∑ h' : Fin 64, Q (ix3 b t h') * KT (ix3 b h' (at4 j u))) * scale

/-- Block j of column h of the values of batch b. -/
def vOf (Vv : SO.Idx → EReal) (b : Fin 4) (h : Fin 64) (j : ℕ) (u : Fin 1024) : EReal :=
  Vv (ix3 b (at4 j u) h)

/-- The maximum of block j of the scores of row (b, t), folded from minus infinity. -/
def bOf (Q : SO.Idx → EReal) (KT : SKT.Idx → EReal) (b : Fin 4) (t : Fin 4096) (j : ℕ) : EReal :=
  (Finset.univ : Finset (Fin 1024)).fold max negInf fun u => sOf Q KT b t j u

/-- The attention region's result array. -/
def formOf (Q : SO.Idx → EReal) (KT : SKT.Idx → EReal) (Vv : SO.Idx → EReal) : SO.Idx → EReal := fun i =>
  Ideal.div (OnlineE.aE (sOf Q KT (i 0) (i 1)) (vOf Vv (i 0) (i 2)) (bOf Q KT (i 0) (i 1)) 4)
    (OnlineE.lE (sOf Q KT (i 0) (i 1)) (bOf Q KT (i 0) (i 1)) 4)

/-- At the projections of x the region's result is the blockwise form. -/
theorem formOf_proj (x : SX.Idx → EReal) (Wk Wq Wv : SW.Idx → EReal)
    (Q : SO.Idx → EReal) (KT : SKT.Idx → EReal) (Vv : SO.Idx → EReal)
    (hQ : ∀ (b : Fin 4) (t : Fin 4096) (h : Fin 64), Q (ix3 b t h) = proj x Wq b t h)
    (hK : ∀ (b : Fin 4) (h : Fin 64) (t : Fin 4096), KT (ix3 b h t) = proj x Wk b t h)
    (hV : ∀ (b : Fin 4) (t : Fin 4096) (h : Fin 64), Vv (ix3 b t h) = proj x Wv b t h) :
    formOf Q KT Vv = blockwise x Wk Wq Wv := by
  funext i
  have hs : sOf Q KT (i 0) (i 1) = sBlk x Wk Wq (i 0) (i 1) := by
    funext j u
    unfold sOf sBlk score
    refine congrArg (· * scale) (Finset.sum_congr rfl fun h' _ => ?_)
    exact congrArg₂ (· * ·) (hQ (i 0) (i 1) h') (hK (i 0) h' (at4 j u))
  have hv : vOf Vv (i 0) (i 2) = vBlk x Wv (i 0) (i 2) := by
    funext j u
    unfold vOf vBlk
    exact hV (i 0) (at4 j u) (i 2)
  have hb : bOf Q KT (i 0) (i 1) = bMax x Wk Wq (i 0) (i 1) := by
    funext j
    unfold bOf bMax
    rw [hs]
  unfold formOf blockwise
  rw [hs, hv, hb]

end Attn

end
-- ==== Proof.LibFeatureFold.lean ====
/-
  The nine-feature fold. For real data, the contraction of the masked feature vector
  [x, y, z, e, x - cx, y - cy, cx, cy, zc] with nine real weights equals the mask times a five-term
  combination with folded weights (w0 + w4, w1 + w5, w6 - w4, w7 - w5) plus a per-pillar offset; both
  are the same real number. Also: extended reals that are reals are closed under +, -, *, negation,
  max, min and finite sums, and the coercion of a finite real sum is the sum of the coercions.
-/
import Idealize.ShloMosaic.PureOps.Ideal
import Mathlib.Algebra.BigOperators.Fin
import Mathlib.Tactic.Ring

noncomputable section

namespace Cert.Lib.FeatureFold

open Idealize.ShloMosaic

/-! ### Extended reals that are reals -/

/-- An extended real that is (the coercion of) a real. -/
def IsReal (a : EReal) : Prop := ∃ r : ℝ, a = (r : EReal)

theorem isReal_coe (r : ℝ) : IsReal (r : EReal) := ⟨r, rfl⟩

theorem isReal_zero : IsReal 0 := ⟨0, rfl⟩

theorem isReal_one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_choice a b with h | h <;> rw [h] <;> assumption

theorem IsReal.min {a b : EReal} (ha : IsReal a) (hb : IsReal b) : IsReal (min a b) := by
  rcases min_choice a b with h | h <;> rw [h] <;> assumption

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- Division of a real by a nonzero real is a real. -/
theorem IsReal.div_coe {a : EReal} (ha : IsReal a) {n : ℝ} (hn : n ≠ 0) : IsReal (Ideal.div a (n : EReal)) := by
  rw [Ideal.div_coe hn]; exact ha.mul (isReal_coe _)

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A contraction of two real vectors, read on the extended reals, is the real contraction. -/
theorem coe_sum_mul {ι : Type*} (s : Finset ι) (f g : ι → ℝ) :
    (∑ i ∈ s, (f i : EReal) * (g i : EReal)) = ((∑ i ∈ s, f i * g i : ℝ) : EReal) := by
  simp only [← EReal.coe_mul, ← coe_sum]

/-! ### The fold -/

/-- A sum over nine indices, written out. -/
theorem sum_fin9 {M : Type*} [AddCommMonoid M] (g : Fin 9 → M) :
    ∑ i, g i = g 0 + g 1 + g 2 + g 3 + g 4 + g 5 + g 6 + g 7 + g 8 := by
  rw [Fin.sum_univ_castSucc, Fin.sum_univ_eight]
  rfl

/-- The folded form as a real: mask times (five folded terms plus the per-pillar offset). -/
def foldR (x y z e cx cy zc mk : ℝ) (w : Fin 9 → ℝ) : ℝ :=
  mk * ((((x * (w 0 + w 4) + y * (w 1 + w 5)) + z * w 2) + e * w 3)
    + ((cx * (w 6 - w 4) + cy * (w 7 - w 5)) + zc * w 8))

/-- The nine-term contraction of the masked features with the weights, over the reals. -/
theorem concat_real (x y z e cx cy zc mk : ℝ) (w : Fin 9 → ℝ) :
    (∑ i : Fin 9, ((![x, y, z, e, x - cx, y - cy, cx, cy, zc] : Fin 9 → ℝ) i * mk) * w i)
      = foldR x y z e cx cy zc mk w := by
  rw [sum_fin9]
  show (x * mk) * w 0 + (y * mk) * w 1 + (z * mk) * w 2 + (e * mk) * w 3 + ((x - cx) * mk) * w 4
      + ((y - cy) * mk) * w 5 + (cx * mk) * w 6 + (cy * mk) * w 7 + (zc * mk) * w 8 = _
  unfold foldR
  ring

/-- The nine-term contraction on the extended reals is the real folded value. -/
theorem concat_ereal (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = ((foldR x y z e cx cy zc mk w : ℝ) : EReal) := by
  rw [sum_fin9]
  show ((x : EReal) * (mk : EReal)) * (w 0 : EReal) + ((y : EReal) * (mk : EReal)) * (w 1 : EReal)
      + ((z : EReal) * (mk : EReal)) * (w 2 : EReal) + ((e : EReal) * (mk : EReal)) * (w 3 : EReal)
      + (((x : EReal) - (cx : EReal)) * (mk : EReal)) * (w 4 : EReal)
      + (((y : EReal) - (cy : EReal)) * (mk : EReal)) * (w 5 : EReal)
      + ((cx : EReal) * (mk : EReal)) * (w 6 : EReal) + ((cy : EReal) * (mk : EReal)) * (w 7 : EReal)
      + ((zc : EReal) * (mk : EReal)) * (w 8 : EReal) = _
  simp only [← EReal.coe_mul, ← EReal.coe_add, ← EReal.coe_sub]
  exact congrArg _ (by unfold foldR; ring)

/-- The folded spelling on the extended reals is the same real. -/
theorem folded_ereal (x y z e cx cy zc mk : ℝ) (w : Fin 9 → ℝ) :
    (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal)))
      = ((foldR x y z e cx cy zc mk w : ℝ) : EReal) := by
  simp only [← EReal.coe_mul, ← EReal.coe_add, ← EReal.coe_sub]
  rfl

/-- The fold: the nine-term contraction equals the folded spelling, on the extended reals. -/
theorem concat_eq_folded (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal))) :=
  (concat_ereal x y z e cx cy zc mk w).trans (folded_ereal x y z e cx cy zc mk w).symm

/-- The folded value is a real. -/
theorem concat_isReal (x y z e cx cy zc mk : ℝ) (w : Fin 9 → ℝ) :
    IsReal (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal)) :=
  ⟨_, concat_ereal x y z e cx cy zc mk w⟩

end Cert.Lib.FeatureFold

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.Algebra.lean ====
/-
  The one-pass softmax-weighted sum and the blockwise (online) one agree on real data.

  With every entry of x and of the three weight matrices a real number, every projection is a real (a finite sum of
  products of reals), every score is a real (a finite sum of products of reals, times the real 1/8), and a maximum
  folded from minus infinity over a nonempty family of reals is a real. So the one-pass shift is a real M, every
  block's own shift is a real, and the online recurrence on the extended reals is the recurrence on real data, whose
  final quotient is the one-pass softmax-weighted sum at any real shift, summed over four blocks of 1024. A sum over
  4096 positions is the sum over the four blocks of the sums over the 1024 places of a block, place u of block j
  being position 1024 j + u.
-/
import proofs.«146672_j2980707303948_2_alg».proof.Proof.Spec
import proofs.«146672_j2980707303948_2_alg».proof.Proof.LibOnlineSoftmax
import proofs.«146672_j2980707303948_2_alg».proof.Proof.LibOnlineE
import proofs.«146672_j2980707303948_2_alg».proof.Proof.LibFeatureFold
import proofs.«146672_j2980707303948_2_alg».proof.Proof.LibBlockSum

noncomputable section

namespace Attn

open Idealize.ShloMosaic Idealize.ShloMosaic.ValueIdx Cert.Lib.FeatureFold

namespace Alg

/-! ### The scale is the real 1/8 -/

theorem scale_eq : scale = ((1 / 8 : ℝ) : EReal) := by
  simp [scale, Ideal.ofBits, Ideal.ieee, -EReal.coe_mul]; norm_num

/-! ### A maximum folded from minus infinity over reals -/

/-- Folding max from minus infinity over a finite family of reals gives minus infinity (the family being empty) or
    a real. -/
theorem fold_max_bot {ι : Type*} (s : Finset ι) (f : ι → EReal) (h : ∀ i ∈ s, IsReal (f i)) :
    (s = ∅ ∧ s.fold max ⊥ f = ⊥) ∨ IsReal (s.fold max ⊥ f) := by
  classical
  induction s using Finset.induction_on with
  | empty => exact Or.inl ⟨rfl, Finset.fold_empty⟩
  | insert a s ha ih =>
    right
    rw [Finset.fold_insert ha]
    rcases ih (fun i hi => h i (Finset.mem_insert_of_mem hi)) with ⟨_, h0⟩ | h1
    · rw [h0, max_bot_right]; exact h a (Finset.mem_insert_self a s)
    · exact IsReal.max (h a (Finset.mem_insert_self a s)) h1

/-- Over a nonempty index type the folded maximum of reals is a real. -/
theorem fold_max_univ_isReal {ι : Type*} [Fintype ι] [Nonempty ι] (f : ι → EReal) (h : ∀ i, IsReal (f i)) :
    IsReal ((Finset.univ : Finset ι).fold max ⊥ f) := by
  rcases fold_max_bot Finset.univ f (fun i _ => h i) with ⟨he, _⟩ | hr
  · exact absurd he Finset.univ_nonempty.ne_empty
  · exact hr

/-! ### Projections, scores and maxima of real data are reals -/

theorem proj_isReal (x : SX.Idx → EReal) (W : SW.Idx → EReal) (hx : AllReal x) (hW : AllReal W)
    (b : Fin 4) (t : Fin 4096) (h : Fin 64) : IsReal (proj x W b t h) :=
  IsReal.sum _ _ fun c _ => IsReal.mul (hx (ix3 b t c)) (hW (ix2 h c))

theorem score_isReal (x : SX.Idx → EReal) (Wk Wq : SW.Idx → EReal) (hx : AllReal x) (hk : AllReal Wk)
    (hq : AllReal Wq) (b : Fin 4) (t u : Fin 4096) : IsReal (score x Wk Wq b t u) := by
  unfold score
  rw [scale_eq]
  exact IsReal.mul (IsReal.sum _ _ fun h _ => IsReal.mul (proj_isReal x Wq hx hq b t h) (proj_isReal x Wk hx hk b u h))
    (isReal_coe _)

/-- The one-pass shift of a row is a real. -/
theorem rowShift_real (x : SX.Idx → EReal) (Wk Wq : SW.Idx → EReal) (hx : AllReal x) (hk : AllReal Wk)
    (hq : AllReal Wq) (b : Fin 4) (t : Fin 4096) :
    ∃ M : ℝ, max negInf (rowMax x Wk Wq b t) = (M : EReal) := by
  unfold rowMax
  rw [negInf_eq, max_bot_left]
  exact fold_max_univ_isReal _ fun u => score_isReal x Wk Wq hx hk hq b t u

theorem sBlk_real (x : SX.Idx → EReal) (Wk Wq : SW.Idx → EReal) (hx : AllReal x) (hk : AllReal Wk)
    (hq : AllReal Wq) (b : Fin 4) (t : Fin 4096) (j : ℕ) (u : Fin 1024) :
    ∃ r : ℝ, sBlk x Wk Wq b t j u = (r : EReal) :=
  score_isReal x Wk Wq hx hk hq b t (at4 j u)

theorem vBlk_real (x : SX.Idx → EReal) (Wv : SW.Idx → EReal) (hx : AllReal x) (hv : AllReal Wv)
    (b : Fin 4) (h : Fin 64) (j : ℕ) (u : Fin 1024) :
    ∃ r : ℝ, vBlk x Wv b h j u = (r : EReal) :=
  proj_isReal x Wv hx hv b (at4 j u) h

/-- Every block's own shift is a real. -/
theorem bMax_real (x : SX.Idx → EReal) (Wk Wq : SW.Idx → EReal) (hx : AllReal x) (hk : AllReal Wk)
    (hq : AllReal Wq) (b : Fin 4) (t : Fin 4096) (j : ℕ) :
    ∃ r : ℝ, bMax x Wk Wq b t j = (r : EReal) := by
  unfold bMax
  rw [negInf_eq]
  exact fold_max_univ_isReal _ fun u => sBlk_real x Wk Wq hx hk hq b t j u

/-! ### A row of 4096 read as four blocks of 1024 -/

/-- Place e of block s is position 1024 s + e. -/
theorem at4_eq (s : Fin 4) (e : Fin 1024) : at4 s.val e = (finProdFinEquiv (s, e) : Fin (4 * 1024)) := by
  have h : 1024 * s.val + e.val < 4096 := by omega
  apply Fin.ext
  rw [at4, dif_pos h]
  show 1024 * s.val + e.val = e.val + 1024 * s.val
  omega

/-- A sum over the 4096 positions of a row is the sum over its four blocks of the sums over a block's 1024 places. -/
theorem sum_at4 {M : Type*} [AddCommMonoid M] (F : Fin 4096 → M) :
    ∑ u : Fin 4096, F u = ∑ j ∈ Finset.range 4, ∑ k : Fin 1024, F (at4 j k) := by
  rw [← Fin.sum_univ_eq_sum_range (fun j => ∑ k : Fin 1024, F (at4 j k)) 4]
  rw [show (∑ u : Fin 4096, F u) = ∑ s : Fin 4, ∑ e : Fin 1024, F (finProdFinEquiv (s, e)) from
    Cert.Lib.BlockSum.sum_fin_mul_fin 4 1024 F]
  refine Finset.sum_congr rfl fun s _ => Finset.sum_congr rfl fun e _ => ?_
  rw [at4_eq]

end Alg

/-- On real data the one-pass softmax-weighted sum is the blockwise one. -/
theorem onePass_eq_blockwise (x : SX.Idx → EReal) (Wk Wq Wv : SW.Idx → EReal)
    (hx : AllReal x) (hk : AllReal Wk) (hq : AllReal Wq) (hv : AllReal Wv) :
    onePass x Wk Wq Wv = blockwise x Wk Wq Wv := by
  funext i
  -- real witnesses: every block's scores, values and own shift, and the one-pass shift of the row
  choose s hs using fun (j : ℕ) (k : Fin 1024) => Alg.sBlk_real x Wk Wq hx hk hq (i 0) (i 1) j k
  choose v hvv using fun (j : ℕ) (k : Fin 1024) => Alg.vBlk_real x Wv hx hv (i 0) (i 2) j k
  choose bm hbm using fun (j : ℕ) => Alg.bMax_real x Wk Wq hx hk hq (i 0) (i 1) j
  obtain ⟨M, hM⟩ := Alg.rowShift_real x Wk Wq hx hk hq (i 0) (i 1)
  have hs' : ∀ (j : ℕ) (k : Fin 1024), score x Wk Wq (i 0) (i 1) (at4 j k) = ((s j k : ℝ) : EReal) := hs
  have hv' : ∀ (j : ℕ) (k : Fin 1024), proj x Wv (i 0) (at4 j k) (i 2) = ((v j k : ℝ) : EReal) := hvv
  haveI : NeZero 1024 := ⟨by norm_num⟩
  -- the blockwise side: the recurrence on real data, then its closed form at the shift M
  have hb : blockwise x Wk Wq Wv i = Ideal.div (OnlineSoftmax.a s v bm 4) (OnlineSoftmax.l s bm 4) := by
    show Ideal.div (OnlineE.aE (sBlk x Wk Wq (i 0) (i 1)) (vBlk x Wv (i 0) (i 2)) (bMax x Wk Wq (i 0) (i 1)) 4)
        (OnlineE.lE (sBlk x Wk Wq (i 0) (i 1)) (bMax x Wk Wq (i 0) (i 1)) 4) = _
    rw [OnlineE.aE_eq s v bm _ _ _ 4 (fun j _ k => hs j k) (fun j _ k => hvv j k) (fun j _ => hbm j),
      OnlineE.lE_eq s bm _ _ 4 (fun j _ k => hs j k) (fun j _ => hbm j)]
  rw [hb, OnlineSoftmax.final 4 (by norm_num) s v bm M]
  -- the one-pass side: the row read as four blocks
  show (∑ u : Fin 4096,
      Ideal.div (Ideal.exp (score x Wk Wq (i 0) (i 1) u - max negInf (rowMax x Wk Wq (i 0) (i 1))))
          (∑ u' : Fin 4096, Ideal.exp (score x Wk Wq (i 0) (i 1) u' - max negInf (rowMax x Wk Wq (i 0) (i 1))))
        * proj x Wv (i 0) u (i 2)) = _
  rw [hM, Alg.sum_at4, Alg.sum_at4 (fun u' => Ideal.exp (score x Wk Wq (i 0) (i 1) u' - (M : EReal)))]
  refine Finset.sum_congr rfl fun j _ => Finset.sum_congr rfl fun k _ => ?_
  simp only [hs', hv']

end Attn

end
-- ==== Proof.RefRead.lean ====
/-
  The reference program's result, read index by index, is the one-pass softmax-weighted sum of the specification.

  Stage by stage, at an index given by its coordinates (b, t, u) or (b, t, h):
  * the three contractions of x against a weight matrix are the projections of row (b, t);
  * the batched contraction of the query and key projections over the 64 head coordinates, times the scale, is the
    score of row t against row u;
  * the maximum along the last axis, folded from minus infinity, is the row maximum, and its maximum with minus
    infinity, kept as a column and broadcast along the row again, is the shift of row (b, t);
  * the exponentials of the shifted scores, their sum along the last axis (from zero) kept and broadcast the same way,
    and the quotient, are the softmax weights of row (b, t);
  * the batched contraction of the weights with the value projections over the 4096 key rows is the weighted sum.
-/
import proofs.«146672_j2980707303948_2_alg».proof.Proof.Gen.ReferenceIdeal.Read
import proofs.«146672_j2980707303948_2_alg».proof.Proof.Spec

noncomputable section

namespace Attn.Ref

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read

/-- The contents of an array of the shape of x, on the extended reals. -/
abbrev XT : Type := (⟨S4x4096x1024, .f32⟩ : BufTy).Contents (Elt Ideal)
/-- The contents of an array of the shape of a weight matrix, on the extended reals. -/
abbrev WT : Type := (⟨S64x1024, .f32⟩ : BufTy).Contents (Elt Ideal)

/-! ## The projections -/

/-- The contraction of x with the first weight matrix, at (b, t, h): the projection of row (b, t) against row h. -/
theorem v0_at (x : XT) (w : WT) (b : Fin 4) (t : Fin 4096) (h : Fin 64) :
    val_main_v0 (F := Ideal) x w (ix3 b t h) = Attn.proj x w b t h := by
  rw [val_main_v0_apply]
  unfold Attn.proj
  refine Finset.sum_congr rfl fun c _ => ?_
  have el : lidx_main_v0 (ix3 b t h) c = ix3 b t c :=
    funext fun a => Fin.ext (by match a with | ⟨0, _⟩ => rfl | ⟨1, _⟩ => rfl | ⟨2, _⟩ => rfl)
  have er : ridx_main_v0 (ix3 b t h) c = ix2 h c :=
    funext fun a => Fin.ext (by match a with | ⟨0, _⟩ => rfl | ⟨1, _⟩ => rfl)
  rw [el, er]

/-- The contraction of x with the second weight matrix, at (b, t, h). -/
theorem v1_at (x : XT) (w : WT) (b : Fin 4) (t : Fin 4096) (h : Fin 64) :
    val_main_v1 (F := Ideal) x w (ix3 b t h) = Attn.proj x w b t h := by
  rw [val_main_v1_apply]
  unfold Attn.proj
  refine Finset.sum_congr rfl fun c _ => ?_
  have el : lidx_main_v1 (ix3 b t h) c = ix3 b t c :=
    funext fun a => Fin.ext (by match a with | ⟨0, _⟩ => rfl | ⟨1, _⟩ => rfl | ⟨2, _⟩ => rfl)
  have er : ridx_main_v1 (ix3 b t h) c = ix2 h c :=
    funext fun a => Fin.ext (by match a with | ⟨0, _⟩ => rfl | ⟨1, _⟩ => rfl)
  rw [el, er]

/-- The contraction of x with the third weight matrix, at (b, t, h). -/
theorem v2_at (x : XT) (w : WT) (b : Fin 4) (t : Fin 4096) (h : Fin 64) :
    val_main_v2 (F := Ideal) x w (ix3 b t h) = Attn.proj x w b t h := by
  rw [val_main_v2_apply]
  unfold Attn.proj
  refine Finset.sum_congr rfl fun c _ => ?_
  have el : lidx_main_v2 (ix3 b t h) c = ix3 b t c :=
    funext fun a => Fin.ext (by match a with | ⟨0, _⟩ => rfl | ⟨1, _⟩ => rfl | ⟨2, _⟩ => rfl)
  have er : ridx_main_v2 (ix3 b t h) c = ix2 h c :=
    funext fun a => Fin.ext (by match a with | ⟨0, _⟩ => rfl | ⟨1, _⟩ => rfl)
  rw [el, er]

/-! ## The scores -/

/-- The scaled contraction of the query and key projections, at (b, t, u): the score of row t against row u. -/
theorem v5_at (x : XT) (wk wq : WT) (b : Fin 4) (t u : Fin 4096) :
    val_main_v5 (F := Ideal) x wk wq (ix3 b t u) = Attn.score x wk wq b t u := by
  rw [val_main_v5_apply, val_main_v3_apply, val_main_v4_apply, val_main_cst_apply]
  unfold Attn.score Attn.scale
  refine congrArg (· * Ideal.ofBits .f32 0x3E000000#32) (Finset.sum_congr rfl fun h _ => ?_)
  have el : lidx_main_v3 (ix3 b t u) h = ix3 b t h :=
    funext fun a => Fin.ext (by match a with | ⟨0, _⟩ => rfl | ⟨1, _⟩ => rfl | ⟨2, _⟩ => rfl)
  have er : ridx_main_v3 (ix3 b t u) h = ix3 b u h :=
    funext fun a => Fin.ext (by match a with | ⟨0, _⟩ => rfl | ⟨1, _⟩ => rfl | ⟨2, _⟩ => rfl)
  rw [el, er, v1_at, v0_at]

/-! ## The row maximum and the shift -/

/-- With coordinate u inserted on the last axis of (b, t): (b, t, u). -/
theorem lift_last (hred : S4x4096x4096.Reduces [2] S4x4096) (b : Fin 4) (t u : Fin 4096) :
    hred.lift (ix2 b t) u = ix3 b t u :=
  funext fun a => Fin.ext (by match a with | ⟨0, _⟩ => rfl | ⟨1, _⟩ => rfl | ⟨2, _⟩ => rfl)

/-- The maximum along the last axis, at (b, t): the fold of max from minus infinity over the scores of row (b, t). -/
theorem v6_at (x : XT) (wk wq : WT) (b : Fin 4) (t : Fin 4096) :
    val_main_v6 (F := Ideal) x wk wq (ix2 b t) = Attn.rowMax x wk wq b t := by
  have hred : S4x4096x4096.Reduces [2] S4x4096 := by decide
  unfold val_main_v6
  refine (Host.reduce_eq_fold_single (FloatOps.maximumf (F := Ideal) (φ := .f32)) (val_main_v5 (F := Ideal) x wk wq)
    (val_main_cst_0 (F := Ideal)) reducesTo_S4x4096x4096_S4x4096_d2 hred h_S_ (ix2 b t)).trans ?_
  rw [val_main_cst_0_apply]
  unfold Attn.rowMax Attn.negInf
  refine congrArg (Finset.fold max (Ideal.ofBits .f32 0xFF800000#32) · Finset.univ) (funext fun (u : Fin 4096) => ?_)
  exact (congrArg (val_main_v5 (F := Ideal) x wk wq) (lift_last hred b t u)).trans (v5_at x wk wq b t u)

/-- The maximum of minus infinity and the row maximum, at (b, t): the shift of row (b, t). -/
theorem v8_at (x : XT) (wk wq : WT) (b : Fin 4) (t : Fin 4096) :
    val_main_v8 (F := Ideal) x wk wq (ix2 b t) = max Attn.negInf (Attn.rowMax x wk wq b t) := by
  rw [val_main_v8_apply, val_main_v7_apply, val_main_cst_1_apply, v6_at]
  rfl

/-- The shift kept as a column and broadcast along the row, at (b, t, u): the shift of row (b, t). -/
theorem v10_at (x : XT) (wk wq : WT) (b : Fin 4) (t u : Fin 4096) :
    val_main_v10 (F := Ideal) x wk wq (ix3 b t u) = max Attn.negInf (Attn.rowMax x wk wq b t) := by
  rw [val_main_v10_apply, val_main_v9_apply]
  have e : idx_main_v9 (idx_main_v10 (ix3 b t u)) = ix2 b t :=
    funext fun a => Fin.ext (by match a with | ⟨0, _⟩ => rfl | ⟨1, _⟩ => rfl)
  rw [e, v8_at]

/-! ## The softmax weights -/

/-- The exponential of the shifted score, at (b, t, u). -/
theorem v12_at (x : XT) (wk wq : WT) (b : Fin 4) (t u : Fin 4096) :
    val_main_v12 (F := Ideal) x wk wq (ix3 b t u)
      = Ideal.exp (Attn.score x wk wq b t u - max Attn.negInf (Attn.rowMax x wk wq b t)) := by
  rw [val_main_v12_apply, val_main_v11_apply, v5_at, v10_at]
  rfl

/-- The sum of the exponentials along the last axis, from zero, at (b, t): the denominator of row (b, t). -/
theorem v13_at (x : XT) (wk wq : WT) (b : Fin 4) (t : Fin 4096) :
    val_main_v13 (F := Ideal) x wk wq (ix2 b t)
      = ∑ u : Fin 4096, Ideal.exp (Attn.score x wk wq b t u - max Attn.negInf (Attn.rowMax x wk wq b t)) := by
  rw [val_main_v13_apply, val_main_cst_2_apply, Ideal.ofBits_def, Ideal.ofBits_zero_f32, zero_add]
  refine Finset.sum_congr rfl fun u _ => ?_
  have e : idx_main_v13 (ix2 b t) u = ix3 b t u :=
    funext fun a => Fin.ext (by match a with | ⟨0, _⟩ => rfl | ⟨1, _⟩ => rfl | ⟨2, _⟩ => rfl)
  rw [e, v12_at]

/-- The denominator kept as a column and broadcast along the row, at (b, t, u): the denominator of row (b, t). -/
theorem v15_at (x : XT) (wk wq : WT) (b : Fin 4) (t u : Fin 4096) :
    val_main_v15 (F := Ideal) x wk wq (ix3 b t u)
      = ∑ u' : Fin 4096, Ideal.exp (Attn.score x wk wq b t u' - max Attn.negInf (Attn.rowMax x wk wq b t)) := by
  rw [val_main_v15_apply, val_main_v14_apply]
  have e : idx_main_v14 (idx_main_v15 (ix3 b t u)) = ix2 b t :=
    funext fun a => Fin.ext (by match a with | ⟨0, _⟩ => rfl | ⟨1, _⟩ => rfl)
  rw [e, v13_at]

/-- The quotient, at (b, t, u): the softmax weight of key row u in row (b, t). -/
theorem v16_at (x : XT) (wk wq : WT) (b : Fin 4) (t u : Fin 4096) :
    val_main_v16 (F := Ideal) x wk wq (ix3 b t u)
      = Ideal.div (Ideal.exp (Attn.score x wk wq b t u - max Attn.negInf (Attn.rowMax x wk wq b t)))
          (∑ u' : Fin 4096, Ideal.exp (Attn.score x wk wq b t u' - max Attn.negInf (Attn.rowMax x wk wq b t))) := by
  rw [val_main_v16_apply, v12_at, v15_at]
  rfl

/-! ## The weighted sum -/

/-- The contraction of the weights with the value projections over the key rows, at (b, t, h). -/
theorem v17_at (x : XT) (wk wq wv : WT) (b : Fin 4) (t : Fin 4096) (h : Fin 64) :
    val_main_v17 (F := Ideal) x wk wq wv (ix3 b t h)
      = ∑ u : Fin 4096,
          Ideal.div (Ideal.exp (Attn.score x wk wq b t u - max Attn.negInf (Attn.rowMax x wk wq b t)))
              (∑ u' : Fin 4096, Ideal.exp (Attn.score x wk wq b t u' - max Attn.negInf (Attn.rowMax x wk wq b t)))
            * Attn.proj x wv b u h := by
  rw [val_main_v17_apply]
  refine Finset.sum_congr rfl fun u _ => ?_
  have el : lidx_main_v17 (ix3 b t h) u = ix3 b t u :=
    funext fun a => Fin.ext (by match a with | ⟨0, _⟩ => rfl | ⟨1, _⟩ => rfl | ⟨2, _⟩ => rfl)
  have er : ridx_main_v17 (ix3 b t h) u = ix3 b u h :=
    funext fun a => Fin.ext (by match a with | ⟨0, _⟩ => rfl | ⟨1, _⟩ => rfl | ⟨2, _⟩ => rfl)
  rw [el, er, v16_at, v2_at]

/-- The reference's result is the one-pass softmax-weighted sum. -/
theorem result_eq (x : XT) (wk wq wv : WT) :
    val_main_v17 (F := Ideal) x wk wq wv = Attn.onePass x wk wq wv := by
  funext i
  obtain ⟨b, t, h, rfl⟩ : ∃ (b : Fin 4) (t : Fin 4096) (h : Fin 64), i = ix3 b t h := ⟨i 0, i 1, i 2, eq_ix3 i⟩
  exact v17_at x wk wq wv b t h

/-! ## The run -/

/-- From any memory with zero counters, every weakly fair execution of the reference terminates with its result the
    one-pass softmax-weighted sum of the arguments' launch contents, and the four arguments unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v17)
          = Attn.onePass (m' ((c.tc : Thread nD τ).loc main_arg0)) (m' ((c.tc : Thread nD τ).loc main_arg1))
              (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  (θ_run _ _ _).mono
    (fun _ h c => ⟨(h c).1.trans (by rw [val_main_v17_eq, result_eq]), (h c).2⟩)
    (Cert.ReferenceIdeal.Value.run (F := Ideal) m' ρ')

end Attn.Ref

end
-- ==== Proof.Finite.lean ====
/-
  From the precondition to "every entry is a real number".

  The precondition is one word: the conjunction, over the four argument arrays, of "every entry has absolute
  value strictly below plus infinity". A conjunction of one-bit words is 1 exactly when each word is 1; a
  reduction by "and" over every axis is 1 only if every reduced entry is 1; and an extended real whose
  absolute value max x (-x) lies strictly below plus infinity is neither infinity, hence a real number.
-/
import proofs.«146672_j2980707303948_2_alg».proof.Defs
import proofs.«146672_j2980707303948_2_alg».proof.Proof.Gen.Pre_finite_inputs
import proofs.«146672_j2980707303948_2_alg».proof.Proof.Spec
import Idealize.ShloMosaic.Lib.ReduceAll

noncomputable section

namespace Attn.Pre

open Idealize.ShloMosaic Idealize.SL.Sem

/-- The rank-0 shape has one index. -/
instance subsingleton_scalar_idx : Subsingleton Cert.Pre_finite_inputs.S_.Idx :=
  ⟨fun a b => funext fun d => d.elim0⟩

/-- The word 0x7F800000 is plus infinity. -/
theorem posInf_eq : Ideal.ofBits .f32 0x7F800000#32 = (⊤ : EReal) := by simp [Ideal.ofBits, Ideal.ieee]

/-- An extended real whose absolute value is strictly below plus infinity is a real number. -/
theorem real_of_abs_lt_top (x : EReal) (h : Ideal.cmp .olt (max x (-x)) (Ideal.ofBits .f32 0x7F800000#32) = 1#1) :
    ∃ r : ℝ, x = (r : EReal) := by
  rw [posInf_eq] at h
  induction x using EReal.rec with
  | bot => simp [Ideal.cmp] at h
  | coe r => exact ⟨r, rfl⟩
  | top => simp [Ideal.cmp] at h

/-- An array whose "all entries have absolute value below plus infinity" word is 1 holds only real numbers. -/
theorem allReal_of_all {s : Shape} {axes : List (Fin s.rank)} (a : FVec Ideal s .f32) (top : FVec Ideal s .f32)
    (htop : ∀ i, top i = Ideal.ofBits .f32 0x7F800000#32) (init : IVec Cert.Pre_finite_inputs.S_ 1)
    (hr : s.ReducesTo axes Cert.Pre_finite_inputs.S_) (hu : 0 < Cert.Pre_finite_inputs.S_.numel)
    (e : Host.reduce IntOp.andi (cmpf .olt (Host.absf a) top) init hr hu ValueIdx.ix0 = 1#1) :
    Attn.AllReal (s := s) a := fun i => by
  have h1 : Ideal.cmp .olt (max (a i) (-(a i))) (top i) = 1#1 :=
    Host.reduce_andi_all (cmpf .olt (Host.absf a) top) init hr hu ValueIdx.ix0 e i
  rw [htop i] at h1
  exact real_of_abs_lt_top (a i) h1

/-- Under the precondition every entry of each of the four argument arrays is a real number. -/
theorem allReal (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Attn.AllReal (s := Cert.KernelIdeal.S4x4096x1024)
        (m ((c.tc : Thread Cert.KernelIdeal.nD Cert.KernelIdeal.τ).loc Cert.KernelIdeal.main_arg0))
      ∧ Attn.AllReal (s := Cert.KernelIdeal.S64x1024)
        (m ((c.tc : Thread Cert.KernelIdeal.nD Cert.KernelIdeal.τ).loc Cert.KernelIdeal.main_arg1))
      ∧ Attn.AllReal (s := Cert.KernelIdeal.S64x1024)
        (m ((c.tc : Thread Cert.KernelIdeal.nD Cert.KernelIdeal.τ).loc Cert.KernelIdeal.main_arg2))
      ∧ Attn.AllReal (s := Cert.KernelIdeal.S64x1024)
        (m ((c.tc : Thread Cert.KernelIdeal.nD Cert.KernelIdeal.τ).loc Cert.KernelIdeal.main_arg3)) := by
  have h0 := congrFun (h c) ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨allReal_of_all _ _ (fun _ => rfl) _ _ _ h0', allReal_of_all _ _ (fun _ => rfl) _ _ _ h1,
    allReal_of_all _ _ (fun _ => rfl) _ _ _ h2, allReal_of_all _ _ (fun _ => rfl) _ _ _ h3⟩

end Attn.Pre

end
-- ==== Proof.AttnSteps.lean ====
/-
  The attention body as a pure recurrence on whole vectors. A point's data are the query block x0 (1024 rows of 64),
  the transposed key block x1 (64 rows of 4096) and the value block x2 (4096 rows of 64). Trip k reads columns
  1024 k … 1024 k + 1023 of x1 and rows 1024 k … 1024 k + 1023 of x2. The state is a column of running maxima, a
  column of running denominators and a 1024 × 64 matrix of running weighted sums; it starts at minus infinity,
  zero, zero; one trip maps it to the new maxima, the rescaled denominators plus the trip's sum of exponentials, and
  the rescaled sums plus the trip's exponentials times its values. The stored result is the final sums divided row
  by row by the final denominators.
-/
import proofs.«146672_j2980707303948_2_alg».proof.Proof.Gen.KernelIdeal.Skeleton
import Idealize.ShloMosaic.Lib.Pipeline.FrameBody

noncomputable section

namespace Attn.Steps

open Cert.KernelIdeal Cert.KernelIdeal.Gen
open Idealize.ShloMosaic

variable {F : FTy → Type} [FloatOps F]

/-- The keys trip `k` reads: a 64 × 1024 column band of the transposed key block. -/
def keysOf (x1 : Vec F S1x64x4096 .bf16) (k : Fin k1_t1_loop.trips) : Vec F S1x64x1024 .bf16 :=
  View.ld x1 (Rect.unit (s := S1x64x4096) (k1_off1 k) S1x64x1024.size (k1_off1_inb k))

/-- The values trip `k` reads: a 1024 × 64 row band of the value block. -/
def valsOf (x2 : Vec F S1x4096x64 .bf16) (k : Fin k1_t1_loop.trips) : Vec F S1x1024x64 .bf16 :=
  View.ld x2 (Rect.unit (s := S1x4096x64) (k1_off2 k) S1x1024x64.size (k1_off2_inb k))

/-- Running maxima, running denominators, running weighted sums. -/
abbrev St (F : FTy → Type) [FloatOps F] : Type := FVec F S1024x1 .f32 × FVec F S1024x1 .f32 × FVec F S1024x64 .f32

/-- Before the first trip: minus infinity, zero, zero. -/
def start : St F := (k1_pay1, k1_pay2, k1_pay3)

/-- One trip. -/
def step (q : FVec F S1024x64 .bf16) (x1 : Vec F S1x64x4096 .bf16) (x2 : Vec F S1x4096x64 .bf16)
    (k : Fin k1_t1_loop.trips) (s : St F) : St F :=
  (k1_pay6 (k1_pay9 q (keysOf x1 k) s.1),
   k1_pay12 q (keysOf x1 k) s.1 s.2.1,
   k1_pay5 (k1_pay13 q (keysOf x1 k) (valsOf x2 k) s.1 s.2.2))

/-- The state after `j` trips (past the last trip, unchanged). -/
def afterTrips (q : FVec F S1024x64 .bf16) (x1 : Vec F S1x64x4096 .bf16) (x2 : Vec F S1x4096x64 .bf16) : ℕ → St F
  | 0 => start
  | j + 1 => if h : j < k1_t1_loop.trips then step q x1 x2 ⟨j, h⟩ (afterTrips q x1 x2 j) else afterTrips q x1 x2 j

theorem afterTrips_succ (q : FVec F S1024x64 .bf16) (x1 : Vec F S1x64x4096 .bf16) (x2 : Vec F S1x4096x64 .bf16)
    (k : Fin k1_t1_loop.trips) :
    afterTrips q x1 x2 (k.val + 1) = step q x1 x2 k (afterTrips q x1 x2 k.val) := by
  rw [afterTrips]; exact dif_pos k.isLt

/-- The loop makes four trips. -/
theorem trips_eq : k1_t1_loop.trips = 4 := by decide

/-- What the body stores into the output block. -/
def result (x0 : Vec F S1x1024x64 .bf16) (x1 : Vec F S1x64x4096 .bf16) (x2 : Vec F S1x4096x64 .bf16) : FVec F S1x1024x64 .f32 :=
  k1_pay7 (afterTrips (k1_pay4 x0) x1 x2 4).2.2 (afterTrips (k1_pay4 x0) x1 x2 4).2.1

end Attn.Steps

end
-- ==== Proof.LibLastAxis.lean ====
/-
  Two general facts over the extended reals, for any extents.

  * `max_last_apply`: a vector maximum of an `[a, b]` matrix along its LAST axis, read at row `p`, is the fold of
    `max` from the accumulator's value over the `b` lanes of that row (the companion of the last-axis sum and of
    the first-axis maximum).
  * `sum_mul_coe`: a finite sum of extended reals multiplied by a nonnegative REAL is the sum of the products,
    whatever the summands are — infinities of either sign included — because multiplication by a nonnegative
    finite factor distributes over every sum of two extended reals. It is what lets a positive scale move
    across a contraction without any finiteness of the operands.
-/
import Idealize.ShloMosaic.PureOps.Ideal.Laws
import Idealize.ShloMosaic.Lib.ValueIdx

noncomputable section

namespace Cert.LibLastAxis

open Idealize.ShloMosaic Idealize.ShloMosaic.ValueIdx

/-- A vector maximum along the last axis of a matrix, at row `p`: the fold of `max` from the accumulator's value
    over the lanes. -/
theorem max_last_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ x acc h hφ hacc (ix1 p)
      = (Finset.univ : Finset (Fin b)).fold max (Ideal.ofBits φ acc) fun k => x (ix2 p k) := by
  refine (Ideal.multiReduction_maximumf_single x acc h hφ hacc (ix1 p)).trans ?_
  refine congrArg (Finset.fold max (Ideal.ofBits φ acc) · Finset.univ) (funext fun k => ?_)
  exact congrArg x (funext fun c => Fin.ext (by match c with | ⟨0, _⟩ => rfl | ⟨1, _⟩ => rfl))

/-- A sum of extended reals times a nonnegative real is the sum of the products. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

end Cert.LibLastAxis

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibSoftmaxRow.lean ====
/-
  The two keepdims steps of a row softmax over an `[a, b]` matrix in the vector unit's spelling, read at an index given
  by its coordinates, on the extended reals, for any extents:

  * `exp_sub_rowmax_apply`: `exp (s - broadcast (max of s along the last axis, kept as a column))` at `(r, k)` is
    `exp (s (r, k) - M r)`, `M r` the fold of `max` from the accumulator's value over row `r`;
  * `recip_rowsum_apply`: `c / (sum of p along the last axis, kept as a column)`, `c` a splat scalar, at `(r, u)` is
    `c / Σ_k p (r, k)` — the reciprocal of the softmax denominator when `c` is one;
  * `mul_col_apply`: a matrix times a column broadcast across the lanes, at `(r, k)`, is the entry times the column's
    entry of row `r` (the normalisation applied to the numerators, or to a product's rows afterwards).
-/
import Idealize.ShloMosaic.PureOps.Ideal.Laws
import Idealize.ShloMosaic.Lib.ValueIdx
import proofs.«146672_j2980707303948_2_alg».proof.Proof.LibLastAxis
import proofs.«146672_j2980707303948_2_alg».proof.Proof.LibColumn

noncomputable section

namespace Cert.LibSoftmaxRow

open Idealize.ShloMosaic Idealize.ShloMosaic.ValueIdx

variable {a b : ℕ}

/-- The shifted exponentials: at `(r, k)`, `exp` of the entry minus row `r`'s maximum. -/
theorem exp_sub_rowmax_apply (s : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    exp (subf s (broadcastTo ⟨2, ![a, b]⟩
        (shapeCast ⟨2, ![a, 1]⟩ (multiReduction .maximumf [1] ⟨1, ![a]⟩ s acc h hφ hacc) hc) hb)) (ix2 r k)
      = Ideal.exp (s (ix2 r k) - (Finset.univ : Finset (Fin b)).fold max (Ideal.ofBits .f32 acc) fun k' => s (ix2 r k')) := by
  show Ideal.exp (s (ix2 r k) - broadcastTo ⟨2, ![a, b]⟩
        (shapeCast ⟨2, ![a, 1]⟩ (multiReduction .maximumf [1] ⟨1, ![a]⟩ s acc h hφ hacc) hc) hb (ix2 r k)) = _
  rw [LibColumn.broadcastTo_a1_ab_apply _ hb r k, LibColumn.shapeCast_a_a1_apply _ hc r 0,
    LibLastAxis.max_last_apply s acc h hφ hacc r]

/-- A splat scalar over the column of row sums: at `(r, u)`, the scalar divided by row `r`'s sum. -/
theorem recip_rowsum_apply (p : FVec Ideal ⟨2, ![a, b]⟩ .f32) (one : BitVec (FTy.bits .f32))
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (r : Fin a) (u : Fin 1) :
    divf (broadcast ⟨2, ![a, 1]⟩ (Scalar.ofBits (F := Ideal) .f32 one))
        (shapeCast ⟨2, ![a, 1]⟩ (multiReduction .add [1] ⟨1, ![a]⟩ p 0x00000000#32 h hφ hacc) hc) (ix2 r u)
      = Ideal.div (Ideal.ofBits .f32 one) (∑ k : Fin b, p (ix2 r k)) := by
  show Ideal.div (Ideal.ofBits .f32 one)
      (shapeCast ⟨2, ![a, 1]⟩ (multiReduction .add [1] ⟨1, ![a]⟩ p 0x00000000#32 h hφ hacc) hc (ix2 r u)) = _
  rw [LibColumn.shapeCast_a_a1_apply _ hc r u, LibColumn.sum_last_apply p h hφ hacc r]

/-- A matrix times a column broadcast across its lanes: at `(r, k)`, the entry times the column's entry of row `r`. -/
theorem mul_col_apply {c : ℕ} (x : FVec Ideal ⟨2, ![a, c]⟩ .f32) (col : FVec Ideal ⟨2, ![a, 1]⟩ .f32)
    (hb : (⟨2, ![a, 1]⟩ : Shape).Broadcasts ⟨2, ![a, c]⟩) (r : Fin a) (k : Fin c) :
    mulf x (broadcastTo ⟨2, ![a, c]⟩ col hb) (ix2 r k) = x (ix2 r k) * col (ix2 r (0 : Fin 1)) := by
  show x (ix2 r k) * broadcastTo ⟨2, ![a, c]⟩ col hb (ix2 r k) = _
  rw [LibColumn.broadcastTo_a1_ab_apply col hb r k]

end Cert.LibSoftmaxRow

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.AttnPay.lean ====
/-
  The pure values of the attention kernel's body, entry by entry, on the extended reals.

  One trip of the body meets a block of 1024 key/value rows. With q the [1024, 64] query block, kT the
  [64, 1024] transposed key block, v the [1024, 64] value block, and m, l, a the running shift (a column),
  the running denominator (a column) and the running weighted sum ([1024, 64]) carried from the earlier trips:

    s (r, u)  = (Σ_h q (r, h) * kT (h, u)) * 1/8                          the block's scaled scores
    m' r      = max (m r) (max_u s (r, u)), the inner maximum folded from minus infinity
    α r       = exp (m r - m' r)                                          the rescaling of what was carried
    p (r, u)  = exp (s (r, u) - m' r)                                     the block's shifted exponentials
    l' r      = α r * l r + Σ_u p (r, u)
    a' (r, h) = α r * a (r, h) + Σ_u p (r, u) * v (u, h)

  Before the first trip the shift is minus infinity and the denominator and the sum are zero; after the last the
  result is a (r, h) / l r. Each lemma below reads one of these arrays at an index given by its coordinates; the
  unit axes (a column's second coordinate, a block's leading coordinate) are written 0.
-/
import proofs.«146672_j2980707303948_2_alg».proof.Proof.Gen.KernelIdeal.Skeleton
import proofs.«146672_j2980707303948_2_alg».proof.Proof.Spec
import proofs.«146672_j2980707303948_2_alg».proof.Proof.LibLastAxis
import proofs.«146672_j2980707303948_2_alg».proof.Proof.LibColumn
import proofs.«146672_j2980707303948_2_alg».proof.Proof.LibSoftmaxRow
import proofs.«146672_j2980707303948_2_alg».proof.Proof.LibRowMax
import Idealize.ShloMosaic.Lib.ValueLayout
import Idealize.ShloMosaic.Lib.Pipeline.Value

noncomputable section

namespace Attn.Pay

open Idealize.ShloMosaic Idealize.ShloMosaic.ValueIdx Cert.KernelIdeal Cert.KernelIdeal.Gen

/-! ## The starting values -/

/-- The shift starts at minus infinity in every row. -/
theorem pay1_apply (r : Fin 1024) : k1_pay1 (F := Ideal) (ix2 r (0 : Fin 1)) = Attn.negInf := by
  unfold k1_pay1
  exact congrFun (shapeCast_self _ _) _

/-- The denominator starts at zero in every row. -/
theorem pay2_apply (r : Fin 1024) : k1_pay2 (F := Ideal) (ix2 r (0 : Fin 1)) = 0 := by
  unfold k1_pay2
  exact (congrFun (shapeCast_self _ _) _).trans Ideal.ofBits_zero_f32

/-- The weighted sum starts at zero in every entry. -/
theorem pay3_apply (r : Fin 1024) (h : Fin 64) : k1_pay3 (F := Ideal) (ix2 r h) = 0 := by
  unfold k1_pay3
  exact (congrFun (shapeCast_self _ _) _).trans Ideal.ofBits_zero_f32

/-! ## Casts that move nothing -/

/-- The query block with its leading unit axis dropped. -/
theorem pay4_apply (v12 : Vec Ideal S1x1024x64 .bf16) (r : Fin 1024) (h : Fin 64) :
    k1_pay4 v12 (ix2 r h) = v12 (ix3 (0 : Fin 1) r h) := by
  unfold k1_pay4
  exact shapeCast_1ab_ab_apply v12 shapeCasts_S1x1024x64_S1024x64 r h

/-- A cast to the same shape is the identity (the weighted sum as it is stored). -/
theorem pay5_eq (v57 : FVec Ideal S1024x64 .f32) : k1_pay5 v57 = v57 := by
  unfold k1_pay5
  exact shapeCast_self _ _

/-- A cast to the same shape is the identity (the shift as it is stored). -/
theorem pay6_eq (v38 : FVec Ideal S1024x1 .f32) : k1_pay6 v38 = v38 := by
  unfold k1_pay6
  exact shapeCast_self _ _

/-! ## One block of the recurrence -/

/-- The block's scaled scores: row r of the queries against column u of the transposed keys, over the 64 head
    coordinates, times 1/8. -/
theorem pay8_apply (v13 : FVec Ideal S1024x64 .bf16) (v27 : Vec Ideal S1x64x1024 .bf16) (r u : Fin 1024) :
    k1_pay8 v13 v27 (ix2 r u)
      = (∑ h : Fin 64, v13 (ix2 r h) * v27 (ix3 (0 : Fin 1) h u)) * Attn.scale := by
  unfold k1_pay8
  show FloatOps.matmul dot_S1024x64_S64x1024_S1024x1024_1_0_0_1_n_n none v13
        (shapeCast S64x1024 v27 shapeCasts_S1x64x1024_S64x1024) (constant S1024x1024 .f32 0x00000000#32) (ix2 r u)
      * Attn.scale = _
  refine congrArg (· * Attn.scale) ?_
  refine (Cert.LibRowMax.matmul_plain_apply dot_S1024x64_S64x1024_S1024x1024_1_0_0_1_n_n_wf none v13
    (shapeCast S64x1024 v27 shapeCasts_S1x64x1024_S64x1024) r u).trans ?_
  exact Finset.sum_congr rfl fun h _ =>
    congrArg (v13 (ix2 r h) * ·) (shapeCast_1ab_ab_apply v27 shapeCasts_S1x64x1024_S64x1024 h u)

/-- The vector exponential reads pointwise. -/
theorem exp_apply {s : Shape} {φ : FTy} (a : FVec Ideal s φ) (i : s.Idx) : exp a i = Ideal.exp (a i) := rfl

/-- The new shift of row r: the larger of the carried shift and the block's maximum, folded from minus infinity. -/
theorem pay9_apply (v13 : FVec Ideal S1024x64 .bf16) (v27 : Vec Ideal S1x64x1024 .bf16) (v35 : Vec Ideal S1024x1 .f32)
    (r : Fin 1024) :
    k1_pay9 v13 v27 v35 (ix2 r (0 : Fin 1))
      = max (v35 (ix2 r (0 : Fin 1)))
          ((Finset.univ : Finset (Fin 1024)).fold max Attn.negInf fun u => k1_pay8 v13 v27 (ix2 r u)) := by
  unfold k1_pay9
  refine (maximumf_apply v35 _ (ix2 r (0 : Fin 1))).trans ?_
  refine congrArg (max (v35 (ix2 r (0 : Fin 1)))) ?_
  refine (Cert.LibColumn.shapeCast_a_a1_apply _ shapeCasts_S1024_S1024x1 r (0 : Fin 1)).trans ?_
  exact Cert.LibLastAxis.max_last_apply (k1_pay8 v13 v27) 0xFF800000#32 reduces_S1024x1024_S1024 (.inl rfl) rfl r

/-- The rescaling of what was carried: the exponential of the old shift minus the new one. -/
theorem pay10_apply (v13 : FVec Ideal S1024x64 .bf16) (v27 : Vec Ideal S1x64x1024 .bf16) (v35 : Vec Ideal S1024x1 .f32)
    (r : Fin 1024) :
    k1_pay10 v13 v27 v35 (ix2 r (0 : Fin 1))
      = Ideal.exp (v35 (ix2 r (0 : Fin 1)) - k1_pay9 v13 v27 v35 (ix2 r (0 : Fin 1))) := by
  unfold k1_pay10
  refine (exp_apply _ (ix2 r (0 : Fin 1))).trans ?_
  exact congrArg Ideal.exp (subf_apply v35 (k1_pay9 v13 v27 v35) (ix2 r (0 : Fin 1)))

/-- The block's shifted exponentials: the score minus the row's new shift, exponentiated. -/
theorem pay11_apply (v13 : FVec Ideal S1024x64 .bf16) (v27 : Vec Ideal S1x64x1024 .bf16) (v35 : Vec Ideal S1024x1 .f32)
    (r u : Fin 1024) :
    k1_pay11 v13 v27 v35 (ix2 r u)
      = Ideal.exp (k1_pay8 v13 v27 (ix2 r u) - k1_pay9 v13 v27 v35 (ix2 r (0 : Fin 1))) := by
  unfold k1_pay11
  refine (exp_apply _ (ix2 r u)).trans ?_
  refine congrArg Ideal.exp ?_
  refine (subf_apply (k1_pay8 v13 v27) _ (ix2 r u)).trans ?_
  exact congrArg (k1_pay8 v13 v27 (ix2 r u) - ·)
    (Cert.LibColumn.broadcastTo_a1_ab_apply (k1_pay9 v13 v27 v35) broadcasts_S1024x1_S1024x1024 r u)

/-- The new denominator of row r: the carried one rescaled, plus the block's exponentials summed over the row. -/
theorem pay12_apply (v13 : FVec Ideal S1024x64 .bf16) (v27 : Vec Ideal S1x64x1024 .bf16) (v35 : Vec Ideal S1024x1 .f32)
    (v44 : Vec Ideal S1024x1 .f32) (r : Fin 1024) :
    k1_pay12 v13 v27 v35 v44 (ix2 r (0 : Fin 1))
      = k1_pay10 v13 v27 v35 (ix2 r (0 : Fin 1)) * v44 (ix2 r (0 : Fin 1))
        + ∑ u : Fin 1024, k1_pay11 v13 v27 v35 (ix2 r u) := by
  unfold k1_pay12
  refine (congrFun (shapeCast_self _ shapeCasts_S1024x1_S1024x1) (ix2 r (0 : Fin 1))).trans ?_
  refine (addf_apply (mulf (k1_pay10 v13 v27 v35) v44) _ (ix2 r (0 : Fin 1))).trans ?_
  refine congrArg₂ (· + ·) (mulf_apply (k1_pay10 v13 v27 v35) v44 (ix2 r (0 : Fin 1))) ?_
  refine (Cert.LibColumn.shapeCast_a_a1_apply _ shapeCasts_S1024_S1024x1 r (0 : Fin 1)).trans ?_
  exact Cert.LibColumn.sum_last_apply (k1_pay11 v13 v27 v35) reduces_S1024x1024_S1024 (.inl rfl) rfl r

/-- The new weighted sum at (r, h): the carried one rescaled, plus the block's exponentials of row r against
    column h of the value block. -/
theorem pay13_apply (v13 : FVec Ideal S1024x64 .bf16) (v27 : Vec Ideal S1x64x1024 .bf16)
    (v30 : Vec Ideal S1x1024x64 .bf16) (v35 : Vec Ideal S1024x1 .f32) (v54 : Vec Ideal S1024x64 .f32)
    (r : Fin 1024) (h : Fin 64) :
    k1_pay13 v13 v27 v30 v35 v54 (ix2 r h)
      = k1_pay10 v13 v27 v35 (ix2 r (0 : Fin 1)) * v54 (ix2 r h)
        + ∑ u : Fin 1024, k1_pay11 v13 v27 v35 (ix2 r u) * v30 (ix3 (0 : Fin 1) u h) := by
  unfold k1_pay13
  refine (addf_apply
    (mulf (broadcastTo S1024x64 (k1_pay10 v13 v27 v35) broadcasts_S1024x1_S1024x64) v54) _ (ix2 r h)).trans ?_
  refine congrArg₂ (· + ·) ?_ ?_
  · refine (mulf_apply (broadcastTo S1024x64 (k1_pay10 v13 v27 v35) broadcasts_S1024x1_S1024x64) v54 (ix2 r h)).trans ?_
    exact congrArg (· * v54 (ix2 r h))
      (Cert.LibColumn.broadcastTo_a1_ab_apply (k1_pay10 v13 v27 v35) broadcasts_S1024x1_S1024x64 r h)
  · refine (Cert.LibRowMax.matmul_plain_apply dot_S1024x1024_S1024x64_S1024x64_1_0_0_1_n_n_wf none
      (truncf .bf16 (k1_pay11 v13 v27 v35) bitsLt_bf16_f32)
      (shapeCast S1024x64 v30 shapeCasts_S1x1024x64_S1024x64) r h).trans ?_
    exact Finset.sum_congr rfl fun u _ =>
      congrArg₂ (· * ·) (truncf_apply (k1_pay11 v13 v27 v35) bitsLt_bf16_f32 (ix2 r u))
        (shapeCast_1ab_ab_apply v30 shapeCasts_S1x1024x64_S1024x64 u h)

/-! ## The result -/

/-- The stored result at (0, r, h): the final weighted sum over the final denominator of row r. -/
theorem pay7_apply (v15 : Vec Ideal S1024x64 .f32) (v16 : Vec Ideal S1024x1 .f32) (r : Fin 1024) (h : Fin 64) :
    k1_pay7 v15 v16 (ix3 (0 : Fin 1) r h) = Ideal.div (v15 (ix2 r h)) (v16 (ix2 r (0 : Fin 1))) := by
  unfold k1_pay7
  refine (shapeCast_ab_1ab_apply _ shapeCasts_S1024x64_S1x1024x64 (0 : Fin 1) r h).trans ?_
  refine (divf_apply v15 _ (ix2 r h)).trans ?_
  exact congrArg (Ideal.div (v15 (ix2 r h)))
    (Cert.LibColumn.broadcastTo_a1_ab_apply v16 broadcasts_S1024x1_S1024x64 r h)

end Attn.Pay

end
-- ==== Proof.AttnIndex.lean ====
/-
  The attention body's recurrence, read at one entry, is the online softmax recurrence.

  Fix a query row r and a head coordinate h. Trip k of the body reads key columns and value rows
  1024 k .. 1024 k + 1023, so its scores are the row's scores against those keys and its values the entries of
  those value rows at h. Entry r of the running maxima, entry r of the running denominators and entry (r, h)
  of the running weighted sums then follow the recurrence of the online softmax over four blocks of 1024, and
  the stored entry (r, h) is the final sum over the final denominator.
-/
import proofs.«146672_j2980707303948_2_alg».proof.Proof.AttnSteps
import proofs.«146672_j2980707303948_2_alg».proof.Proof.Spec
import proofs.«146672_j2980707303948_2_alg».proof.Proof.AttnPay
import Idealize.ShloMosaic.Lib.ValueIdx

noncomputable section

namespace Attn.Index

open Idealize.ShloMosaic Idealize.ShloMosaic.ValueIdx Cert.KernelIdeal Cert.KernelIdeal.Gen Attn.Steps

/-! ## The bands a trip reads -/

/-- Inside the row of 4096, entry u of block j < 4 sits at position 1024 j + u. -/
theorem at4_val (j : ℕ) (hj : j < 4) (u : Fin 1024) : (Attn.at4 j u).val = 1024 * j + u.val := by
  unfold Attn.at4
  rw [dif_pos (by have := u.isLt; omega)]

/-- A trip counter is below four. -/
theorem trip_lt (k : Fin k1_t1_loop.trips) : k.val < 4 := by
  exact lt_of_lt_of_eq k.isLt trips_eq

/-- The keys of trip k: column u of the band is column 1024 k + u of the transposed key block. -/
theorem keysOf_apply (x1 : Vec Ideal S1x64x4096 .bf16) (k : Fin k1_t1_loop.trips) (h' : Fin 64) (u : Fin 1024) :
    keysOf x1 k (ix3 (0 : Fin 1) h' u) = x1 (ix3 (0 : Fin 1) h' (Attn.at4 k.val u)) := by
  unfold keysOf
  show x1 ((Rect.unit (s := S1x64x4096) (k1_off1 k) S1x64x1024.size (k1_off1_inb k)).idx (ix3 (0 : Fin 1) h' u)) = _
  congr 1
  funext a
  apply Fin.ext
  show k1_off1 k a + 1 * ((ix3 (0 : Fin 1) h' u) a).val = ((ix3 (0 : Fin 1) h' (Attn.at4 k.val u)) a).val
  rw [k1_off1_eq k]
  match a with
  | ⟨0, _⟩ => rfl
  | ⟨1, _⟩ => show 0 + 1 * h'.val = h'.val; omega
  | ⟨2, _⟩ =>
    show 1024 * k.val + 1 * u.val = (Attn.at4 k.val u).val
    rw [at4_val _ (trip_lt k)]
    omega

/-- The values of trip k: row u of the band is row 1024 k + u of the value block. -/
theorem valsOf_apply (x2 : Vec Ideal S1x4096x64 .bf16) (k : Fin k1_t1_loop.trips) (u : Fin 1024) (h : Fin 64) :
    valsOf x2 k (ix3 (0 : Fin 1) u h) = x2 (ix3 (0 : Fin 1) (Attn.at4 k.val u) h) := by
  unfold valsOf
  show x2 ((Rect.unit (s := S1x4096x64) (k1_off2 k) S1x1024x64.size (k1_off2_inb k)).idx (ix3 (0 : Fin 1) u h)) = _
  congr 1
  funext a
  apply Fin.ext
  show k1_off2 k a + 1 * ((ix3 (0 : Fin 1) u h) a).val = ((ix3 (0 : Fin 1) (Attn.at4 k.val u) h) a).val
  rw [k1_off2_eq k]
  match a with
  | ⟨0, _⟩ => rfl
  | ⟨1, _⟩ =>
    show 1024 * k.val + 1 * u.val = (Attn.at4 k.val u).val
    rw [at4_val _ (trip_lt k)]
    omega
  | ⟨2, _⟩ => show 0 + 1 * h.val = h.val; omega

/-! ## The row's blocks -/

section Row
variable (x0 : Vec Ideal S1x1024x64 .bf16) (x1 : Vec Ideal S1x64x4096 .bf16) (x2 : Vec Ideal S1x4096x64 .bf16)

/-- Block j of the scaled scores of query row r: against key 1024 j + u, over the 64 head coordinates, times 1/8. -/
def sE (r : Fin 1024) (j : ℕ) (u : Fin 1024) : EReal :=
  (∑ h' : Fin 64, x0 (ix3 (0 : Fin 1) r h') * x1 (ix3 (0 : Fin 1) h' (Attn.at4 j u))) * Attn.scale

/-- Block j of column h of the values. -/
def vE (h : Fin 64) (j : ℕ) (u : Fin 1024) : EReal := x2 (ix3 (0 : Fin 1) (Attn.at4 j u) h)

/-- The maximum of block j of the scores of row r, folded from minus infinity. -/
def bE (r : Fin 1024) (j : ℕ) : EReal :=
  (Finset.univ : Finset (Fin 1024)).fold max Attn.negInf fun u => sE x0 x1 r j u

/-! ## One trip, entry by entry -/

/-- The trip's scores are the row's block of scores. -/
theorem score_apply (k : Fin k1_t1_loop.trips) (r u : Fin 1024) :
    k1_pay8 (k1_pay4 x0) (keysOf x1 k) (ix2 r u) = sE x0 x1 r k.val u := by
  refine (Attn.Pay.pay8_apply _ _ r u).trans ?_
  unfold sE
  refine congrArg (· * Attn.scale) (Finset.sum_congr rfl fun h' _ => ?_)
  rw [Attn.Pay.pay4_apply x0 r h', keysOf_apply x1 k h' u]

/-- The new maximum of row r: the old one against the block's. -/
theorem max_apply (k : Fin k1_t1_loop.trips) (m : FVec Ideal S1024x1 .f32) (r : Fin 1024) :
    k1_pay9 (k1_pay4 x0) (keysOf x1 k) m (ix2 r (0 : Fin 1)) = max (m (ix2 r (0 : Fin 1))) (bE x0 x1 r k.val) := by
  refine (Attn.Pay.pay9_apply _ _ m r).trans ?_
  unfold bE
  exact congrArg (max (m (ix2 r (0 : Fin 1)))) (Finset.fold_congr fun u _ => score_apply x0 x1 k r u)

/-- The rescaling of what row r carried. -/
theorem alpha_apply (k : Fin k1_t1_loop.trips) (m : FVec Ideal S1024x1 .f32) (r : Fin 1024) :
    k1_pay10 (k1_pay4 x0) (keysOf x1 k) m (ix2 r (0 : Fin 1))
      = Ideal.exp (m (ix2 r (0 : Fin 1)) - max (m (ix2 r (0 : Fin 1))) (bE x0 x1 r k.val)) := by
  refine (Attn.Pay.pay10_apply _ _ m r).trans ?_
  rw [max_apply x0 x1 k m r]

/-- The block's shifted exponentials. -/
theorem p_apply (k : Fin k1_t1_loop.trips) (m : FVec Ideal S1024x1 .f32) (r u : Fin 1024) :
    k1_pay11 (k1_pay4 x0) (keysOf x1 k) m (ix2 r u)
      = Ideal.exp (sE x0 x1 r k.val u - max (m (ix2 r (0 : Fin 1))) (bE x0 x1 r k.val)) := by
  refine (Attn.Pay.pay11_apply _ _ m r u).trans ?_
  rw [max_apply x0 x1 k m r, score_apply x0 x1 k r u]

/-- Entry r of the maxima after a trip. -/
theorem step_max (k : Fin k1_t1_loop.trips) (s : St Ideal) (r : Fin 1024) :
    (step (k1_pay4 x0) x1 x2 k s).1 (ix2 r (0 : Fin 1)) = max (s.1 (ix2 r (0 : Fin 1))) (bE x0 x1 r k.val) := by
  show k1_pay6 (k1_pay9 (k1_pay4 x0) (keysOf x1 k) s.1) (ix2 r (0 : Fin 1)) = _
  rw [Attn.Pay.pay6_eq]
  exact max_apply x0 x1 k s.1 r

/-- Entry r of the denominators after a trip. -/
theorem step_den (k : Fin k1_t1_loop.trips) (s : St Ideal) (r : Fin 1024) :
    (step (k1_pay4 x0) x1 x2 k s).2.1 (ix2 r (0 : Fin 1))
      = Ideal.exp (s.1 (ix2 r (0 : Fin 1)) - max (s.1 (ix2 r (0 : Fin 1))) (bE x0 x1 r k.val)) * s.2.1 (ix2 r (0 : Fin 1))
        + ∑ u : Fin 1024, Ideal.exp (sE x0 x1 r k.val u - max (s.1 (ix2 r (0 : Fin 1))) (bE x0 x1 r k.val)) := by
  show k1_pay12 (k1_pay4 x0) (keysOf x1 k) s.1 s.2.1 (ix2 r (0 : Fin 1)) = _
  refine (Attn.Pay.pay12_apply _ _ s.1 s.2.1 r).trans ?_
  rw [alpha_apply x0 x1 k s.1 r]
  exact congrArg (_ + ·) (Finset.sum_congr rfl fun u _ => p_apply x0 x1 k s.1 r u)

/-- Entry (r, h) of the weighted sums after a trip. -/
theorem step_sum (k : Fin k1_t1_loop.trips) (s : St Ideal) (r : Fin 1024) (h : Fin 64) :
    (step (k1_pay4 x0) x1 x2 k s).2.2 (ix2 r h)
      = Ideal.exp (s.1 (ix2 r (0 : Fin 1)) - max (s.1 (ix2 r (0 : Fin 1))) (bE x0 x1 r k.val)) * s.2.2 (ix2 r h)
        + ∑ u : Fin 1024, Ideal.exp (sE x0 x1 r k.val u - max (s.1 (ix2 r (0 : Fin 1))) (bE x0 x1 r k.val))
            * vE x2 h k.val u := by
  show k1_pay5 (k1_pay13 (k1_pay4 x0) (keysOf x1 k) (valsOf x2 k) s.1 s.2.2) (ix2 r h) = _
  rw [Attn.Pay.pay5_eq]
  refine (Attn.Pay.pay13_apply _ _ _ s.1 s.2.2 r h).trans ?_
  rw [alpha_apply x0 x1 k s.1 r]
  refine congrArg (_ + ·) (Finset.sum_congr rfl fun u _ => ?_)
  rw [p_apply x0 x1 k s.1 r u, valsOf_apply x2 k u h]
  rfl

/-! ## The recurrence -/

/-- After j ≤ 4 trips, entry r of the maxima, entry r of the denominators and entry (r, h) of the weighted sums
    are the online softmax recurrence's running shift, denominator and weighted sum after j blocks. -/
theorem inv (r : Fin 1024) (h : Fin 64) : ∀ j : ℕ, j ≤ 4 →
    (afterTrips (k1_pay4 x0) x1 x2 j).1 (ix2 r (0 : Fin 1)) = OnlineE.mE (bE x0 x1 r) j
      ∧ (afterTrips (k1_pay4 x0) x1 x2 j).2.1 (ix2 r (0 : Fin 1)) = OnlineE.lE (sE x0 x1 r) (bE x0 x1 r) j
      ∧ (afterTrips (k1_pay4 x0) x1 x2 j).2.2 (ix2 r h) = OnlineE.aE (sE x0 x1 r) (vE x2 h) (bE x0 x1 r) j
  | 0, _ => ⟨(Attn.Pay.pay1_apply r).trans Attn.negInf_eq, Attn.Pay.pay2_apply r, Attn.Pay.pay3_apply r h⟩
  | j + 1, hj => by
    obtain ⟨hm, hl, ha⟩ := inv r h j (by omega)
    have hk : j < k1_t1_loop.trips := by rw [trips_eq]; omega
    have e : afterTrips (k1_pay4 x0) x1 x2 (j + 1)
        = step (k1_pay4 x0) x1 x2 ⟨j, hk⟩ (afterTrips (k1_pay4 x0) x1 x2 j) :=
      afterTrips_succ (k1_pay4 x0) x1 x2 ⟨j, hk⟩
    rw [e]
    refine ⟨?_, ?_, ?_⟩
    · rw [step_max x0 x1 x2 ⟨j, hk⟩ _ r, hm]
      rfl
    · rw [step_den x0 x1 x2 ⟨j, hk⟩ _ r, hm, hl]
      rfl
    · rw [step_sum x0 x1 x2 ⟨j, hk⟩ _ r h, hm, ha]
      rfl

/-- The stored entry (r, h): the final weighted sum over the final denominator of the recurrence. -/
theorem result_apply (r : Fin 1024) (h : Fin 64) :
    result (F := Ideal) x0 x1 x2 (ix3 (0 : Fin 1) r h)
      = Ideal.div (OnlineE.aE (sE x0 x1 r) (vE x2 h) (bE x0 x1 r) 4) (OnlineE.lE (sE x0 x1 r) (bE x0 x1 r) 4) := by
  obtain ⟨_, hl, ha⟩ := inv x0 x1 x2 r h 4 (le_refl 4)
  unfold result
  refine (Attn.Pay.pay7_apply _ _ r h).trans ?_
  rw [hl, ha]

end Row

end Attn.Index

end
-- ==== Proof.LibWholeBuffer.lean ====
/-
  Whole-buffer accesses, over any shape: a store through the rectangle that starts at zero and has the buffer's own
  extents leaves its payload as the buffer's contents, whatever the buffer held; a load through that rectangle reads
  the contents; and a load of what one such store left reads that store's payload.
-/
import Idealize.ShloMosaic.Lib.Pipeline.FrameBody
import Idealize.ShloMosaic.Lib.Pipeline.Value

noncomputable section

namespace Idealize.ShloMosaic.WholeBuffer

open Idealize.ShloMosaic

variable {sig : RefSig} {κ : Kind} {sp : Space} {S : Shape} {e : EltTy} {Val : EltTy → Type} [∀ e, Nonempty (Val e)]

/-- One store through the whole-buffer rectangle, whatever the buffer held: the contents read back are the payload. -/
theorem read_store (v : View sig κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-- A load through the whole-buffer rectangle reads the contents. -/
theorem load (v : View sig κ sp S e) (f : v.ty.Contents Val) (X : S.Idx → Val e) (hf : v.read Val f = X)
    {off : Fin S.rank → Nat} (hz : off = fun _ => 0) (inb : ∀ a, off a + S.size a ≤ S.size a) :
    v.readAt Val (Rect.unit off S.size inb).toLoadRect f = X := by
  rw [View.readAt_eq_ld, hf, View.ld_unit_zero hz]

/-- A load through it of what one store through it left reads that store's payload. -/
theorem load_store (v : View sig κ sp S e) {off : Fin S.rank → Nat} (hz : off = fun _ => 0)
    (inb : ∀ a, off a + S.size a ≤ S.size a) (w : S.Idx → Val e) :
    v.readCov [(⟨Rect.unit off S.size inb, w⟩ : View.Piece Val S e)] (Rect.unit off S.size inb).toLoadRect = w :=
  View.readCov_unit_zero v hz inb w

/-- The two-coordinate zero offset, however it is spelt. -/
theorem zero2 : (![0, 0] : Fin 2 → Nat) = fun _ => 0 := funext fun a => by fin_cases a <;> rfl

end Idealize.ShloMosaic.WholeBuffer

end
-- ==== Proof.AttnTrips.lean ====
/-
  The attention body's scratch buffers, read after each trip of its loop, hold the state of the pure four-trip
  recurrence, and the block it stores is that recurrence's result.

  Every access of the body to a scratch buffer is through the rectangle that starts at zero and has the buffer's own
  extents: a load reads the contents, a store leaves its payload whatever was there. One trip loads the running maxima,
  denominators and weighted sums it finds, the trip's band of keys and band of values, and stores the new maxima,
  denominators and sums: read back, the three buffers hold one step of the recurrence applied to what they held. By
  induction on the trips, after j trips from the reset contents (minus infinity, zero, zero) they hold the state after
  j steps; after the fourth, the body divides the sums by the denominators and stores the quotient as the whole block.
-/
import proofs.«146672_j2980707303948_2_alg».proof.Proof.AttnRegionIdeal
import proofs.«146672_j2980707303948_2_alg».proof.Proof.AttnSteps
import proofs.«146672_j2980707303948_2_alg».proof.Proof.LibWholeBuffer

noncomputable section

namespace Attn.Trips

open Cert.KernelIdeal Cert.KernelIdeal.Gen Cert.KernelIdeal.Hand
open Idealize.ShloMosaic Idealize.ShloMosaic.TcCoe Idealize.ShloMosaic.Tactic
open Idealize.SL Idealize.SL.Sem
open Attn.Steps

variable {F : FTy → Type} [FloatOps F]

/-- The three-coordinate zero offset, however it is spelt. -/
theorem zero3 : (![0, 0, 0] : Fin 3 → Nat) = fun _ => 0 := funext fun a => by fin_cases a <;> rfl

section Trips

variable (𝒱 : Variants) (c : Dev nD) (bd : Option 𝒱.V) (i : grid1.Coords)
  (arg2 : Memref sig .tc .vmem S1x1024x64 .bf16) (harg2 : arg2.IsWhole) (arg3 : Memref sig .tc .vmem S1x64x4096 .bf16) (harg3 : arg3.IsWhole)
  (arg4 : Memref sig .tc .vmem S1x4096x64 .bf16) (harg4 : arg4.IsWhole) (arg5 : Memref sig .tc .vmem S1x1024x64 .f32) (harg5 : arg5.IsWhole)
  (arg6 : Memref sig .tc .vmem S1024x1 .f32) (harg6 : arg6.IsWhole) (arg7 : Memref sig .tc .vmem S1024x1 .f32) (harg7 : arg7.IsWhole)
  (arg8 : Memref sig .tc .vmem S1024x64 .f32) (harg8 : arg8.IsWhole)

/-! ## One trip -/

/-- The pieces one trip leaves in the three scratch buffers, as functions of what it finds there: one whole-buffer
    store each, of the new maxima, the new denominators and the new weighted sums. -/
theorem trip_pieces (v12 : Vec F S1x1024x64 .bf16) (X3 : BufTy.Contents (Elt F) arg3.view.ty) (X4 : BufTy.Contents (Elt F) arg4.view.ty)
    (k : Fin k1_t1_loop.trips) (f6 : BufTy.Contents (Elt F) arg6.view.ty) (f7 : BufTy.Contents (Elt F) arg7.view.ty)
    (f8 : BufTy.Contents (Elt F) arg8.view.ty) :
    tripL_k1_t1 (F := F) 𝒱 c bd i arg2 harg2 arg3 harg3 arg4 harg4 arg5 harg5 arg6 harg6 arg7 harg7 arg8 harg8 v12 X3 X4 k f6 f7 f8
      = ([(⟨Rect.unit (s := S1024x1) ![0, 0] S1024x1.size inb_S1024x1_S1024x1_0_0,
              k1_pay6 (k1_pay9 (k1_pay4 v12)
                (View.readAt (Elt F) arg3.view (Rect.unit (s := S1x64x4096) (k1_off1 k) S1x64x1024.size (k1_off1_inb k)).toLoadRect X3)
                (View.readAt (Elt F) arg6.view (Rect.unit (s := S1024x1) ![0, 0] S1024x1.size inb_S1024x1_S1024x1_0_0).toLoadRect f6))⟩
            : View.Piece (Elt F) S1024x1 .f32)],
         [(⟨Rect.unit (s := S1024x1) ![0, 0] S1024x1.size inb_S1024x1_S1024x1_0_0,
              k1_pay12 (k1_pay4 v12)
                (View.readAt (Elt F) arg3.view (Rect.unit (s := S1x64x4096) (k1_off1 k) S1x64x1024.size (k1_off1_inb k)).toLoadRect X3)
                (View.readAt (Elt F) arg6.view (Rect.unit (s := S1024x1) ![0, 0] S1024x1.size inb_S1024x1_S1024x1_0_0).toLoadRect f6)
                (View.readAt (Elt F) arg7.view (Rect.unit (s := S1024x1) ![0, 0] S1024x1.size inb_S1024x1_S1024x1_0_0).toLoadRect f7)⟩
            : View.Piece (Elt F) S1024x1 .f32)],
         [(⟨Rect.unit (s := S1024x64) ![0, 0] S1024x64.size inb_S1024x64_S1024x64_0_0,
              k1_pay5 (k1_pay13 (k1_pay4 v12)
                (View.readAt (Elt F) arg3.view (Rect.unit (s := S1x64x4096) (k1_off1 k) S1x64x1024.size (k1_off1_inb k)).toLoadRect X3)
                (View.readAt (Elt F) arg4.view (Rect.unit (s := S1x4096x64) (k1_off2 k) S1x1024x64.size (k1_off2_inb k)).toLoadRect X4)
                (View.readAt (Elt F) arg6.view (Rect.unit (s := S1024x1) ![0, 0] S1024x1.size inb_S1024x1_S1024x1_0_0).toLoadRect f6)
                (View.readAt (Elt F) arg8.view (Rect.unit (s := S1024x64) ![0, 0] S1024x64.size inb_S1024x64_S1024x64_0_0).toLoadRect f8))⟩
            : View.Piece (Elt F) S1024x64 .f32)]) := by
  unfold tripL_k1_t1 trip_k1_t1
  rfl

/-- One trip, on the buffers' contents read back: from buffers that read as a state, the trip's pieces leave buffers
    that read as one step of the recurrence applied to it. -/
theorem trip_reads (v12 : Vec F S1x1024x64 .bf16) (x1 : Vec F S1x64x4096 .bf16) (x2 : Vec F S1x4096x64 .bf16)
    (k : Fin k1_t1_loop.trips) (f6 : BufTy.Contents (Elt F) arg6.view.ty) (f7 : BufTy.Contents (Elt F) arg7.view.ty)
    (f8 : BufTy.Contents (Elt F) arg8.view.ty) (s : St F)
    (h6 : arg6.view.read (Elt F) f6 = s.1) (h7 : arg7.view.read (Elt F) f7 = s.2.1) (h8 : arg8.view.read (Elt F) f8 = s.2.2) :
    arg6.view.read (Elt F) (arg6.view.writes (Elt F) f6
        (tripL_k1_t1 (F := F) 𝒱 c bd i arg2 harg2 arg3 harg3 arg4 harg4 arg5 harg5 arg6 harg6 arg7 harg7 arg8 harg8 v12 (harg3.unread x1) (harg4.unread x2) k f6 f7 f8).1)
      = (step (k1_pay4 v12) x1 x2 k s).1
    ∧ arg7.view.read (Elt F) (arg7.view.writes (Elt F) f7
        (tripL_k1_t1 (F := F) 𝒱 c bd i arg2 harg2 arg3 harg3 arg4 harg4 arg5 harg5 arg6 harg6 arg7 harg7 arg8 harg8 v12 (harg3.unread x1) (harg4.unread x2) k f6 f7 f8).2.1)
      = (step (k1_pay4 v12) x1 x2 k s).2.1
    ∧ arg8.view.read (Elt F) (arg8.view.writes (Elt F) f8
        (tripL_k1_t1 (F := F) 𝒱 c bd i arg2 harg2 arg3 harg3 arg4 harg4 arg5 harg5 arg6 harg6 arg7 harg7 arg8 harg8 v12 (harg3.unread x1) (harg4.unread x2) k f6 f7 f8).2.2)
      = (step (k1_pay4 v12) x1 x2 k s).2.2 := by
  have hk : View.readAt (Elt F) arg3.view (Rect.unit (s := S1x64x4096) (k1_off1 k) S1x64x1024.size (k1_off1_inb k)).toLoadRect (harg3.unread x1)
      = keysOf x1 k := by
    rw [View.readAt_eq_ld, harg3.read_unread]; rfl
  have hv : View.readAt (Elt F) arg4.view (Rect.unit (s := S1x4096x64) (k1_off2 k) S1x1024x64.size (k1_off2_inb k)).toLoadRect (harg4.unread x2)
      = valsOf x2 k := by
    rw [View.readAt_eq_ld, harg4.read_unread]; rfl
  have l6 := WholeBuffer.load arg6.view f6 s.1 h6 WholeBuffer.zero2 inb_S1024x1_S1024x1_0_0
  have l7 := WholeBuffer.load arg7.view f7 s.2.1 h7 WholeBuffer.zero2 inb_S1024x1_S1024x1_0_0
  have l8 := WholeBuffer.load arg8.view f8 s.2.2 h8 WholeBuffer.zero2 inb_S1024x64_S1024x64_0_0
  rw [trip_pieces]
  dsimp only
  rw [hk, hv, l6, l7, l8]
  exact ⟨WholeBuffer.read_store arg6.view f6 WholeBuffer.zero2 inb_S1024x1_S1024x1_0_0 _,
    WholeBuffer.read_store arg7.view f7 WholeBuffer.zero2 inb_S1024x1_S1024x1_0_0 _,
    WholeBuffer.read_store arg8.view f8 WholeBuffer.zero2 inb_S1024x64_S1024x64_0_0 _⟩

/-! ## The trips, one after another -/

/-- After j trips, the three scratch buffers read as the state of the recurrence after j steps. -/
def ReadsAs (v12 : Vec F S1x1024x64 .bf16) (x1 : Vec F S1x64x4096 .bf16) (x2 : Vec F S1x4096x64 .bf16)
    (G6 : BufTy.Contents (Elt F) arg6.view.ty) (G7 : BufTy.Contents (Elt F) arg7.view.ty) (G8 : BufTy.Contents (Elt F) arg8.view.ty)
    (j : ℕ) : Prop :=
  arg6.view.read (Elt F) (arg6.view.writes (Elt F) G6 (pb_k1_t1 (F := F) 𝒱 c bd i arg2 harg2 arg3 harg3 arg4 harg4 arg5 harg5 arg6 harg6 arg7 harg7 arg8 harg8 v12 (harg3.unread x1) (harg4.unread x2) G6 G7 G8 j).1) = (afterTrips (k1_pay4 v12) x1 x2 j).1
  ∧ arg7.view.read (Elt F) (arg7.view.writes (Elt F) G7 (pb_k1_t1 (F := F) 𝒱 c bd i arg2 harg2 arg3 harg3 arg4 harg4 arg5 harg5 arg6 harg6 arg7 harg7 arg8 harg8 v12 (harg3.unread x1) (harg4.unread x2) G6 G7 G8 j).2.1) = (afterTrips (k1_pay4 v12) x1 x2 j).2.1
  ∧ arg8.view.read (Elt F) (arg8.view.writes (Elt F) G8 (pb_k1_t1 (F := F) 𝒱 c bd i arg2 harg2 arg3 harg3 arg4 harg4 arg5 harg5 arg6 harg6 arg7 harg7 arg8 harg8 v12 (harg3.unread x1) (harg4.unread x2) G6 G7 G8 j).2.2) = (afterTrips (k1_pay4 v12) x1 x2 j).2.2

/-- One more trip. -/
theorem readsAs_succ (v12 : Vec F S1x1024x64 .bf16) (x1 : Vec F S1x64x4096 .bf16) (x2 : Vec F S1x4096x64 .bf16)
    (G6 : BufTy.Contents (Elt F) arg6.view.ty) (G7 : BufTy.Contents (Elt F) arg7.view.ty) (G8 : BufTy.Contents (Elt F) arg8.view.ty)
    (k : Fin k1_t1_loop.trips)
    (h : ReadsAs (F := F) 𝒱 c bd i arg2 harg2 arg3 harg3 arg4 harg4 arg5 harg5 arg6 harg6 arg7 harg7 arg8 harg8 v12 x1 x2 G6 G7 G8 k.val) :
    ReadsAs (F := F) 𝒱 c bd i arg2 harg2 arg3 harg3 arg4 harg4 arg5 harg5 arg6 harg6 arg7 harg7 arg8 harg8 v12 x1 x2 G6 G7 G8 (k.val + 1) := by
  unfold ReadsAs at h ⊢
  rw [pb_k1_t1_succ, afterTrips_succ]
  dsimp only
  rw [View.writes_append, View.writes_append, View.writes_append]
  exact trip_reads 𝒱 c bd i arg2 harg2 arg3 harg3 arg4 harg4 arg5 harg5 arg6 harg6 arg7 harg7 arg8 harg8 v12 x1 x2 k _ _ _ _ h.1 h.2.1 h.2.2

/-- From buffers reset to minus infinity, zero and zero: after any number of trips up to the loop's count. -/
theorem readsAs_all (v12 : Vec F S1x1024x64 .bf16) (x1 : Vec F S1x64x4096 .bf16) (x2 : Vec F S1x4096x64 .bf16)
    (G6 : BufTy.Contents (Elt F) arg6.view.ty) (G7 : BufTy.Contents (Elt F) arg7.view.ty) (G8 : BufTy.Contents (Elt F) arg8.view.ty)
    (g6 : arg6.view.read (Elt F) G6 = k1_pay1) (g7 : arg7.view.read (Elt F) G7 = k1_pay2) (g8 : arg8.view.read (Elt F) G8 = k1_pay3) :
    ∀ j : ℕ, j ≤ k1_t1_loop.trips → ReadsAs (F := F) 𝒱 c bd i arg2 harg2 arg3 harg3 arg4 harg4 arg5 harg5 arg6 harg6 arg7 harg7 arg8 harg8 v12 x1 x2 G6 G7 G8 j
  | 0, _ => ⟨g6, g7, g8⟩
  | j + 1, hj =>
    readsAs_succ 𝒱 c bd i arg2 harg2 arg3 harg3 arg4 harg4 arg5 harg5 arg6 harg6 arg7 harg7 arg8 harg8 v12 x1 x2 G6 G7 G8 ⟨j, hj⟩
      (readsAs_all v12 x1 x2 G6 G7 G8 g6 g7 g8 j (Nat.le_of_lt hj))

end Trips

/-! ## The stored block -/

/-- What the body leaves in its output block is the result of the four-trip recurrence on the point's query block,
    transposed key block and value block. -/
theorem attnOut_eq (c : Dev nD) (i : grid1.Coords)
    (arg2 : Memref sig .tc .vmem S1x1024x64 .bf16) (harg2 : arg2.IsWhole) (arg3 : Memref sig .tc .vmem S1x64x4096 .bf16) (harg3 : arg3.IsWhole)
    (arg4 : Memref sig .tc .vmem S1x4096x64 .bf16) (harg4 : arg4.IsWhole) (arg5 : Memref sig .tc .vmem S1x1024x64 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x64 .f32) (harg8 : arg8.IsWhole)
    (x0 : Vec F S1x1024x64 .bf16) (x1 : Vec F S1x64x4096 .bf16) (x2 : Vec F S1x4096x64 .bf16) :
    attnOut (F := F) c i arg2 harg2 arg3 harg3 arg4 harg4 arg5 harg5 arg6 harg6 arg7 harg7 arg8 harg8 x0 x1 x2 = result x0 x1 x2 := by
  have hN : Scf.trips k1_t1_loop.lb k1_t1_loop.ub k1_t1_loop.st = 4 := by decide
  have hq : View.readAt (Elt F) arg2.view
      (Rect.unit (s := S1x1024x64) ![0, 0, 0] S1x1024x64.size inb_S1x1024x64_S1x1024x64_0_0_0).toLoadRect (harg2.unread x0) = x0 :=
    WholeBuffer.load arg2.view (harg2.unread x0) x0 (harg2.read_unread x0) zero3 inb_S1x1024x64_S1x1024x64_0_0_0
  have g6 := WholeBuffer.read_store arg6.view (arg6.view.junk (Val := Elt F)) WholeBuffer.zero2 inb_S1024x1_S1024x1_0_0 (k1_pay1 (F := F))
  have g7 := WholeBuffer.read_store arg7.view (arg7.view.junk (Val := Elt F)) WholeBuffer.zero2 inb_S1024x1_S1024x1_0_0 (k1_pay2 (F := F))
  have g8 := WholeBuffer.read_store arg8.view (arg8.view.junk (Val := Elt F)) WholeBuffer.zero2 inb_S1024x64_S1024x64_0_0 (k1_pay3 (F := F))
  obtain ⟨-, r7, r8⟩ := readsAs_all (F := F) Variants.none c none i arg2 harg2 arg3 harg3 arg4 harg4 arg5 harg5 arg6 harg6 arg7 harg7 arg8 harg8 x0 x1 x2 _ _ _ g6 g7 g8 4 (by decide)
  unfold attnOut attnRun
  dsimp only
  sl_unfold_words
  rw [hq, hN, View.writes_append, View.writes_append]
  rw [WholeBuffer.load arg8.view _ _ r8 WholeBuffer.zero2 inb_S1024x64_S1024x64_0_0,
    WholeBuffer.load arg7.view _ _ r7 WholeBuffer.zero2 inb_S1024x1_S1024x1_0_0]
  exact WholeBuffer.read_store outView _ zero3 inb_S1x1024x64_S1x1024x64_0_0_0 _

end Attn.Trips

end
-- ==== Proof.AttnArrays.lean ====
/-
  The array the attention region leaves.

  A grid point (b, i) of the attention region reads rows 1024 i … 1024 i + 1023 of batch b of the query array and
  the whole of batch b of the transposed key array and of the value array, and writes back rows 1024 i … of batch b
  of the output. Entry (0, r, h) of the block it stores is the online-softmax quotient of row r of its query block
  against its key and value blocks; read at the array's own coordinates it is the array-level formula at
  (b, 1024 i + r, h): every point writes back its block of ONE whole-array function, and the sixteen blocks cover the
  array, so the array ends holding that function.
-/
import proofs.«146672_j2980707303948_2_alg».proof.Proof.RunIdeal
import proofs.«146672_j2980707303948_2_alg».proof.Proof.AttnSteps
import proofs.«146672_j2980707303948_2_alg».proof.Proof.AttnForms
import proofs.«146672_j2980707303948_2_alg».proof.Proof.AttnIndex
import proofs.«146672_j2980707303948_2_alg».proof.Proof.AttnTrips
import Idealize.ShloMosaic.Lib.Pipeline.Value

set_option maxRecDepth 16384

noncomputable section

namespace Attn.Arr

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- One point's stored block, entry by entry, is the array-level formula at the entry's place in the output array:
    the query block is rows 1024 i … of batch b of the query array, the key and value blocks the whole of batch b. -/
theorem pointValue (x0 : Vec Ideal S1x1024x64 .bf16) (x1 : Vec Ideal S1x64x4096 .bf16) (x2 : Vec Ideal S1x4096x64 .bf16)
    (Q : Attn.SO.Idx → EReal) (KT : Attn.SKT.Idx → EReal) (Vv : Attn.SO.Idx → EReal) (b : Fin 4) (t : Fin 4096) (r : Fin 1024) (h : Fin 64)
    (hx0 : ∀ h' : Fin 64, x0 (ix3 (0 : Fin 1) r h') = Q (ix3 b t h'))
    (hx1 : ∀ (h' : Fin 64) (u : Fin 4096), x1 (ix3 (0 : Fin 1) h' u) = KT (ix3 b h' u))
    (hx2 : ∀ (u : Fin 4096), x2 (ix3 (0 : Fin 1) u h) = Vv (ix3 b u h)) :
    Attn.Steps.result (F := Ideal) x0 x1 x2 (ix3 (0 : Fin 1) r h) = Attn.formOf Q KT Vv (ix3 b t h) := by
  refine (Attn.Index.result_apply x0 x1 x2 r h).trans ?_
  have hs : Attn.Index.sE x0 x1 r = Attn.sOf Q KT b t := by
    funext j u
    unfold Attn.Index.sE Attn.sOf
    refine congrArg (· * Attn.scale) (Finset.sum_congr rfl fun h' _ => ?_)
    exact congrArg₂ (· * ·) (hx0 h') (hx1 h' (Attn.at4 j u))
  have hv : Attn.Index.vE x2 h = Attn.vOf Vv b h := by
    funext j u
    unfold Attn.Index.vE Attn.vOf
    exact hx2 (Attn.at4 j u)
  have hb : Attn.Index.bE x0 x1 r = Attn.bOf Q KT b t := by
    funext j
    unfold Attn.Index.bE Attn.bOf
    rw [hs]
  show _ = Ideal.div (OnlineE.aE (Attn.sOf Q KT b t) (Attn.vOf Vv b h) (Attn.bOf Q KT b t) 4)
    (OnlineE.lE (Attn.sOf Q KT b t) (Attn.bOf Q KT b t) 4)
  rw [hb, hs, hv]

section

variable (V : (c : Dev nD) → (b : Ref sig .tc) → Buf (Elt Ideal) ((c : Thread nD τ).loc b))

/-- The printed index maps over the sixteen grid points: the query and output blocks move together along the batch and
    row-block axes; the key and value blocks follow the batch only. -/
theorem idxFacts : ∀ t : Fin cfg1.N,
    win1_0.index t (0 : Fin 3) = win1_3.index t (0 : Fin 3) ∧ win1_0.index t (1 : Fin 3) = win1_3.index t (1 : Fin 3) ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 3 ∧ win1_3.index t (1 : Fin 3) ≤ 3 ∧ win1_3.index t (2 : Fin 3) = 0 :=
  (by decide +kernel : ∀ t : Fin grid1.N, _)

/-- Every (batch, row block) pair is some point's. -/
theorem idxOnto : ∀ (q0 : Fin 4) (q1 : Fin 4), ∃ t : Fin cfg1.N, win1_3.index t = ![q0.val, q1.val, 0] :=
  (by decide +kernel : ∀ (q0 : Fin 4) (q1 : Fin 4), ∃ t : Fin grid1.N, win1_3.index t = ![q0.val, q1.val, 0])

/-- What point `t` writes back is its block of the array-level formula of the three arrays the region finds. -/
theorem flushedOut (c : Dev nD) (t : Fin cfg1.N) :
    (dat1 (F := Ideal) V c).flushed 3 t = ((cfg1.win 3).blk t).view.read (Elt Ideal)
      (Attn.formOf (V c main_v1_0) (V c main_v1_1) (V c main_v1_2)) := by
  show (cfg1.win 3).cut (grid1.coords t) ((dat1 (F := Ideal) V c).after 3 t) = _
  rw [after1_3]
  have hout : outAt1 V c t = Attn.Steps.result (blk1 V c 0 t) (blk1 V c 1 t) (blk1 V c 2 t) := by
    unfold outAt1
    exact Attn.Trips.attnOut_eq ..
  rw [hout]
  obtain ⟨e00, e01, e02, e10, e11, e12, e20, e21, e22, b0, b1, e32⟩ := idxFacts t
  funext j
  obtain ⟨r, h, rfl⟩ : ∃ (r : Fin 1024) (h : Fin 64), j = ix3 (0 : Fin 1) r h := ⟨j 1, j 2, by
    funext a; match a with
    | ⟨0, _⟩ => exact Fin.ext (by have : (j 0).val < 1 := (j 0).isLt; show (j 0).val = 0; omega)
    | ⟨1, _⟩ => rfl
    | ⟨2, _⟩ => rfl⟩
  have hb : win1_3.index t (0 : Fin 3) < 4 := by omega
  have hr : r.val < 1024 := r.isLt
  have ht : 1024 * win1_3.index t (1 : Fin 3) + r.val < 4096 := by omega
  -- the entry's place in the output array
  have hemb : ((cfg1.win 3).blk t).view.emb (ix3 (0 : Fin 1) r h)
      = @ix3 4 4096 64 ⟨win1_3.index t (0 : Fin 3), hb⟩ ⟨1024 * win1_3.index t (1 : Fin 3) + r.val, ht⟩ h := by
    funext a; apply Fin.ext
    match a with
    | ⟨0, _⟩ => show win1_3.index t (0 : Fin 3) * 1 + 1 * 0 = win1_3.index t (0 : Fin 3); omega
    | ⟨1, _⟩ => show win1_3.index t (1 : Fin 3) * 1024 + 1 * r.val = 1024 * win1_3.index t (1 : Fin 3) + r.val; omega
    | ⟨2, _⟩ => show win1_3.index t (2 : Fin 3) * 64 + 1 * h.val = h.val; omega
  refine (pointValue (blk1 V c 0 t) (blk1 V c 1 t) (blk1 V c 2 t) (V c main_v1_0) (V c main_v1_1) (V c main_v1_2)
    ⟨win1_3.index t (0 : Fin 3), hb⟩ ⟨1024 * win1_3.index t (1 : Fin 3) + r.val, ht⟩ r h ?_ ?_ ?_).trans
    (congrArg (Attn.formOf (V c main_v1_0) (V c main_v1_1) (V c main_v1_2)) hemb.symm)
  · intro h'
    show V c main_v1_0 (((cfg1.win 0).blk t).view.emb (ix3 (0 : Fin 1) r h')) = V c main_v1_0 _
    refine congrArg (V c main_v1_0) (funext fun a => Fin.ext ?_)
    match a with
    | ⟨0, _⟩ => show win1_0.index t (0 : Fin 3) * 1 + 1 * 0 = win1_3.index t (0 : Fin 3); omega
    | ⟨1, _⟩ => show win1_0.index t (1 : Fin 3) * 1024 + 1 * r.val = 1024 * win1_3.index t (1 : Fin 3) + r.val; omega
    | ⟨2, _⟩ => show win1_0.index t (2 : Fin 3) * 64 + 1 * h'.val = h'.val; omega
  · intro h' u
    show V c main_v1_1 (((cfg1.win 1).blk t).view.emb (ix3 (0 : Fin 1) h' u)) = V c main_v1_1 _
    refine congrArg (V c main_v1_1) (funext fun a => Fin.ext ?_)
    match a with
    | ⟨0, _⟩ => show win1_1.index t (0 : Fin 3) * 1 + 1 * 0 = win1_3.index t (0 : Fin 3); omega
    | ⟨1, _⟩ => show win1_1.index t (1 : Fin 3) * 64 + 1 * h'.val = h'.val; omega
    | ⟨2, _⟩ => show win1_1.index t (2 : Fin 3) * 4096 + 1 * u.val = u.val; omega
  · intro u
    show V c main_v1_2 (((cfg1.win 2).blk t).view.emb (ix3 (0 : Fin 1) u h)) = V c main_v1_2 _
    refine congrArg (V c main_v1_2) (funext fun a => Fin.ext ?_)
    match a with
    | ⟨0, _⟩ => show win1_2.index t (0 : Fin 3) * 1 + 1 * 0 = win1_3.index t (0 : Fin 3); omega
    | ⟨1, _⟩ => show win1_2.index t (1 : Fin 3) * 4096 + 1 * u.val = u.val; omega
    | ⟨2, _⟩ => show win1_2.index t (2 : Fin 3) * 64 + 1 * h.val = h.val; omega

/-- An index of the output array is in point t's block iff each coordinate is in the block's range on its axis. -/
theorem mem_blk (t : Fin cfg1.N) (i : S4x4096x64.Idx) :
    i ∈ ((cfg1.win 3).blk t).view.set
      ↔ ∀ a : Fin 3, win1_3.index t a * S1x1024x64.size a ≤ (i a).val
          ∧ (i a).val < win1_3.index t a * S1x1024x64.size a + S1x1024x64.size a := by
  show i ∈ ((View.whole main_v2).slice (win1_3.rect t)).set ↔ _
  rw [View.set_slice_whole, Rect.mem_set_unit]
  exact Iff.rfl

/-- Every index of the output array is in some point's block: row r of batch b in the block of point (b, r / 1024). -/
theorem cover (i : S4x4096x64.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 64 := (i 2).isLt
  obtain ⟨t, ht⟩ := idxOnto ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 64 ≤ (i 2).val ∧ (i 2).val < win1_3.index t (2 : Fin 3) * 64 + 64
    omega

/-- The output array after the region: the array-level formula of the three arrays the region finds. -/
theorem outArr (c : Dev nD) :
    (dat1 (F := Ideal) V c).arrAt 3 cfg1.N = Attn.formOf (V c main_v1_0) (V c main_v1_1) (V c main_v1_2) :=
  (dat1 (F := Ideal) V c).arrAt_eq_of_cover 3 (Attn.formOf (V c main_v1_0) (V c main_v1_1) (V c main_v1_2))
    (fun t _ => flushedOut V c t) cover

end

end Attn.Arr

end
-- ==== Proof.KernelValue.lean ====
/-
  The kernel's value. The attention region finds three arrays: what the projection region's write-backs left. Each is
  a projection of x — a row of x against a row of the stacked weight matrix, and rows h, 64 + h, 128 + h of the stack
  are row h of the query, key and value weights — the key array transposed. So the attention region's result, the
  online-softmax quotient over those arrays, is the specification's blockwise form of the four arguments.

  The algebraic claim: the kernel's run ends with the result array at the blockwise form, the reference's with its
  result at the one-pass form of arguments that agree, and on finite arguments the two forms are equal.
-/
import proofs.«146672_j2980707303948_2_alg».proof.Proof.RunIdeal
import proofs.«146672_j2980707303948_2_alg».proof.Proof.ProjArrays
import proofs.«146672_j2980707303948_2_alg».proof.Proof.Stacked
import proofs.«146672_j2980707303948_2_alg».proof.Proof.AttnForms
import proofs.«146672_j2980707303948_2_alg».proof.Proof.Algebra
import proofs.«146672_j2980707303948_2_alg».proof.Proof.RefRead
import proofs.«146672_j2980707303948_2_alg».proof.Proof.Finite
import proofs.«146672_j2980707303948_2_alg».proof.Proof.AttnArrays

set_option maxRecDepth 16384

noncomputable section

namespace Attn.Kernel

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-- A row of x against a row of the stacked weights is the projection by the weight matrix that row came from. -/
theorem proj_of_rows (X : Attn.SX.Idx → EReal) (Wst : (⟨2, ![192, 1024]⟩ : Shape).Idx → EReal) (W : Attn.SW.Idx → EReal)
    (row : Fin 64 → Fin 192) (hW : ∀ (h : Fin 64) (k : Fin 1024), Wst (ix2 (row h) k) = W (ix2 h k))
    (b : Fin 4) (t : Fin 4096) (h : Fin 64) :
    (∑ k : Fin 1024, X (ix3 b t k) * Wst (ix2 (row h) k)) = Attn.proj X W b t h := by
  unfold Attn.proj
  exact Finset.sum_congr rfl fun k _ => by rw [hW h k]

/-- The projection region finds x as launched: the host stretch writes the stacked weights only. -/
theorem entry_x : (E1 m c main_arg0 : S4x4096x1024.Idx → EReal) = m ((c.tc : Thread nD τ).loc main_arg0) :=
  Attn.Stacked.after_arg0 m c

/-- The query array the attention region finds is the projection of x by the query weights. -/
theorem q_found (b : Fin 4) (t : Fin 4096) (h : Fin 64) :
    (E2 m c main_v1_0 : S4x4096x64.Idx → EReal) (ix3 b t h)
      = Attn.proj (m ((c.tc : Thread nD τ).loc main_arg0)) (m ((c.tc : Thread nD τ).loc main_arg2)) b t h := by
  have e : (E2 m c main_v1_0 : S4x4096x64.Idx → EReal) = Attn.ProjArr.qArr (E1 m c main_arg0) (E1 m c main_v0) :=
    (W2_arr m c 2).trans (Attn.ProjArr.arr2 (E1 m) c)
  rw [e, Attn.ProjArr.qArr_apply, entry_x]
  exact proj_of_rows _ _ _ (fun h => ⟨h.val, by have := h.isLt; omega⟩) (Attn.Stacked.stacked_q m c) b t h

/-- The transposed key array it finds is the projection of x by the key weights, transposed. -/
theorem k_found (b : Fin 4) (h : Fin 64) (t : Fin 4096) :
    (E2 m c main_v1_1 : S4x64x4096.Idx → EReal) (ix3 b h t)
      = Attn.proj (m ((c.tc : Thread nD τ).loc main_arg0)) (m ((c.tc : Thread nD τ).loc main_arg1)) b t h := by
  have e : (E2 m c main_v1_1 : S4x64x4096.Idx → EReal) = Attn.ProjArr.ktArr (E1 m c main_arg0) (E1 m c main_v0) :=
    (W2_arr m c 3).trans (Attn.ProjArr.arr3 (E1 m) c)
  rw [e, Attn.ProjArr.ktArr_apply, entry_x]
  exact proj_of_rows _ _ _ (fun h => ⟨64 + h.val, by have := h.isLt; omega⟩) (Attn.Stacked.stacked_k m c) b t h

/-- The value array it finds is the projection of x by the value weights. -/
theorem v_found (b : Fin 4) (t : Fin 4096) (h : Fin 64) :
    (E2 m c main_v1_2 : S4x4096x64.Idx → EReal) (ix3 b t h)
      = Attn.proj (m ((c.tc : Thread nD τ).loc main_arg0)) (m ((c.tc : Thread nD τ).loc main_arg3)) b t h := by
  have e : (E2 m c main_v1_2 : S4x4096x64.Idx → EReal) = Attn.ProjArr.vArr (E1 m c main_arg0) (E1 m c main_v0) :=
    (W2_arr m c 4).trans (Attn.ProjArr.arr4 (E1 m) c)
  rw [e, Attn.ProjArr.vArr_apply, entry_x]
  exact proj_of_rows _ _ _ (fun h => ⟨128 + h.val, by have := h.isLt; omega⟩) (Attn.Stacked.stacked_v m c) b t h

/-- What the attention region's write-backs leave in the result array is the blockwise form of the launch contents. -/
theorem result_eq :
    (dat1 (F := Ideal) (E2 m) c).arrAt 3 cfg1.N
      = Attn.blockwise (m ((c.tc : Thread nD τ).loc main_arg0)) (m ((c.tc : Thread nD τ).loc main_arg1))
          (m ((c.tc : Thread nD τ).loc main_arg2)) (m ((c.tc : Thread nD τ).loc main_arg3)) :=
  (Attn.Arr.outArr (E2 m) c).trans
    (Attn.formOf_proj _ _ _ _ _ _ _ (q_found m c) (k_found m c) (v_found m c))

end Attn.Kernel

namespace Cert.Proof

open Idealize.ShloMosaic Idealize.SL.Sem

/-- From memories agreeing on the four arguments, all finite: the kernel's result array ends at the blockwise form of
    the arguments (its run, with the result named), the reference's at the one-pass form (its run, read stage by
    stage), and on real data the two forms are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Attn.blockwise (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)), ?_, ?_⟩
  · exact (θ_run (Cert.KernelIdeal.defs (F := Ideal)) _ _).mono
      (fun r h c => ⟨(h c).1.trans (Attn.Kernel.result_eq m c), (h c).2⟩) (Cert.KernelIdeal.Hand.run_named (F := Ideal) m ρ)
  · refine (θ_run (Cert.ReferenceIdeal.defs (F := Ideal)) _ _).mono (fun r h c => ⟨(h c).1.trans ?_, (h c).2⟩) (Attn.Ref.run m' ρ')
    rw [(hagree c).1, (hagree c).2.1, (hagree c).2.2.1, (hagree c).2.2.2]
    obtain ⟨h0, h1, h2, h3⟩ := Attn.Pre.allReal m hpre c
    exact Attn.onePass_eq_blockwise _ _ _ _ h0 h1 h2 h3

end Cert.Proof

end
-- ==== Proof.lean ====
/-
  One attention head: queries, keys and values are projections of x by three weight matrices; each query row's
  scores against all key rows are scaled by 1/8, shifted by their maximum, exponentiated and normalised, and the
  result is the weighted sum of the value rows. The kernel computes the three projections in one region — one
  product against the three weight matrices stacked — and the weighted sums in a second region that meets the keys
  in four blocks of 1024 with a running maximum, a running denominator and a running sum, rescaled whenever the
  maximum moves; the reference computes everything in one pass. On finite inputs every score is a real number, the
  first rescaling factor is exp(−∞) = 0 against sums that are still zero, and the blockwise quotient equals the
  one-pass softmax-weighted sum at any finite shift; so the two programs agree on the extended reals.

  The frames: each kernel program runs as three segments — the host stretch that stacks the weights, the
  projection region, the attention region — and no segment writes an argument; the reference is a straight line of
  host operations. The ideal kernel is the kernel's own text read at the ideal instance: no operation of it differs.
-/
import proofs.«146672_j2980707303948_2_alg».proof.Defs
import proofs.«146672_j2980707303948_2_alg».proof.Proof.Gen.Kernel
import proofs.«146672_j2980707303948_2_alg».proof.Proof.Gen.KernelIdeal
import proofs.«146672_j2980707303948_2_alg».proof.Proof.Gen.ReferenceIdeal
import proofs.«146672_j2980707303948_2_alg».proof.Proof.Gen.ReferenceIdeal.Run
import proofs.«146672_j2980707303948_2_alg».proof.Proof.Gen.ReferenceIdeal.Read
import proofs.«146672_j2980707303948_2_alg».proof.Proof.Gen.Pre_finite_inputs
import proofs.«146672_j2980707303948_2_alg».proof.Proof.RunBits
import proofs.«146672_j2980707303948_2_alg».proof.Proof.RunIdeal
import proofs.«146672_j2980707303948_2_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Hand.frame (F := Bits) m ρ

/-- The idealized kernel runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The idealized reference runs and leaves its arguments unchanged: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
